-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x64x31 : Shape := ⟨4, ![256, 64, 64, 31]⟩
abbrev S1024 : Shape := ⟨1, ![1024]⟩
abbrev S_ : Shape := ⟨0, ![]⟩

class Facts : Prop where
  bcast_S_S256x64x64x31 : S_.BroadcastsInDim S256x64x64x31 (![] : Fin 0 → Fin S256x64x64x31.rank)
  reducesTo_S256x64x64x31_S_d0_1_2_3 : S256x64x64x31.ReducesTo [0, 1, 2, 3] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S256x64x64x31 .f32) (main_arg1 : FVec F S1024 .f32) : IVec S_ 1 :=
  let main_v0 : FVec F S256x64x64x31 .f32 := Host.absf main_arg0
  let main_cst : FVec F S_ .f32 := constant S_ .f32 0x7F800000#32
  let main_v1 : FVec F S256x64x64x31 .f32 := broadcastInDim S256x64x64x31 ![] bcast_S_S256x64x64x31 main_cst
  let main_v2 : IVec S256x64x64x31 1 := cmpf .olt main_v0 main_v1
  let main_c : IVec S_ 1 := constantI S_ 1 1#1
  let main_v3 : IVec S_ 1 := (fun x v => Host.reduce IntOp.andi x v reducesTo_S256x64x64x31_S_d0_1_2_3 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S256x64x64x31 : Shape := ⟨4, ![256, 64, 64, 31]⟩
abbrev S1024 : Shape := ⟨1, ![1024]⟩
abbrev S32x32 : Shape := ⟨2, ![32, 32]⟩
abbrev S1x32x1x32 : Shape := ⟨4, ![1, 32, 1, 32]⟩
abbrev S2x32x2x32 : Shape := ⟨4, ![2, 32, 2, 32]⟩
abbrev S64x64 : Shape := ⟨2, ![64, 64]⟩
abbrev S0x64 : Shape := ⟨2, ![0, 64]⟩
abbrev S1x64 : Shape := ⟨2, ![1, 64]⟩
abbrev S63x64 : Shape := ⟨2, ![63, 64]⟩
abbrev S2x64 : Shape := ⟨2, ![2, 64]⟩
abbrev S62x64 : Shape := ⟨2, ![62, 64]⟩
abbrev S3x64 : Shape := ⟨2, ![3, 64]⟩
abbrev S61x64 : Shape := ⟨2, ![61, 64]⟩
abbrev S4x64 : Shape := ⟨2, ![4, 64]⟩
abbrev S60x64 : Shape := ⟨2, ![60, 64]⟩
abbrev S5x64 : Shape := ⟨2, ![5, 64]⟩
abbrev S59x64 : Shape := ⟨2, ![59, 64]⟩
abbrev S6x64 : Shape := ⟨2, ![6, 64]⟩
abbrev S58x64 : Shape := ⟨2, ![58, 64]⟩
abbrev S7x64 : Shape := ⟨2, ![7, 64]⟩
abbrev S57x64 : Shape := ⟨2, ![57, 64]⟩
abbrev S8x64 : Shape := ⟨2, ![8, 64]⟩
abbrev S56x64 : Shape := ⟨2, ![56, 64]⟩
abbrev S9x64 : Shape := ⟨2, ![9, 64]⟩
abbrev S55x64 : Shape := ⟨2, ![55, 64]⟩
abbrev S10x64 : Shape := ⟨2, ![10, 64]⟩
abbrev S54x64 : Shape := ⟨2, ![54, 64]⟩
abbrev S11x64 : Shape := ⟨2, ![11, 64]⟩
abbrev S53x64 : Shape := ⟨2, ![53, 64]⟩
abbrev S12x64 : Shape := ⟨2, ![12, 64]⟩
abbrev S52x64 : Shape := ⟨2, ![52, 64]⟩
abbrev S13x64 : Shape := ⟨2, ![13, 64]⟩
abbrev S51x64 : Shape := ⟨2, ![51, 64]⟩
abbrev S14x64 : Shape := ⟨2, ![14, 64]⟩
abbrev S50x64 : Shape := ⟨2, ![50, 64]⟩
abbrev S15x64 : Shape := ⟨2, ![15, 64]⟩
abbrev S49x64 : Shape := ⟨2, ![49, 64]⟩
abbrev S16x64 : Shape := ⟨2, ![16, 64]⟩
abbrev S48x64 : Shape := ⟨2, ![48, 64]⟩
abbrev S17x64 : Shape := ⟨2, ![17, 64]⟩
abbrev S47x64 : Shape := ⟨2, ![47, 64]⟩
abbrev S18x64 : Shape := ⟨2, ![18, 64]⟩
abbrev S46x64 : Shape := ⟨2, ![46, 64]⟩
abbrev S19x64 : Shape := ⟨2, ![19, 64]⟩
abbrev S45x64 : Shape := ⟨2, ![45, 64]⟩
abbrev S20x64 : Shape := ⟨2, ![20, 64]⟩
abbrev S44x64 : Shape := ⟨2, ![44, 64]⟩
abbrev S21x64 : Shape := ⟨2, ![21, 64]⟩
abbrev S43x64 : Shape := ⟨2, ![43, 64]⟩
abbrev S22x64 : Shape := ⟨2, ![22, 64]⟩
abbrev S42x64 : Shape := ⟨2, ![42, 64]⟩
abbrev S23x64 : Shape := ⟨2, ![23, 64]⟩
abbrev S41x64 : Shape := ⟨2, ![41, 64]⟩
abbrev S24x64 : Shape := ⟨2, ![24, 64]⟩
abbrev S40x64 : Shape := ⟨2, ![40, 64]⟩
abbrev S25x64 : Shape := ⟨2, ![25, 64]⟩
abbrev S39x64 : Shape := ⟨2, ![39, 64]⟩
abbrev S26x64 : Shape := ⟨2, ![26, 64]⟩
abbrev S38x64 : Shape := ⟨2, ![38, 64]⟩
abbrev S27x64 : Shape := ⟨2, ![27, 64]⟩
abbrev S37x64 : Shape := ⟨2, ![37, 64]⟩
abbrev S28x64 : Shape := ⟨2, ![28, 64]⟩
abbrev S36x64 : Shape := ⟨2, ![36, 64]⟩
abbrev S29x64 : Shape := ⟨2, ![29, 64]⟩
abbrev S35x64 : Shape := ⟨2, ![35, 64]⟩
abbrev S30x64 : Shape := ⟨2, ![30, 64]⟩
abbrev S34x64 : Shape := ⟨2, ![34, 64]⟩
abbrev S64x64x1 : Shape := ⟨3, ![64, 64, 1]⟩
abbrev S64x64x16 : Shape := ⟨3, ![64, 64, 16]⟩
abbrev S64x64x15 : Shape := ⟨3, ![64, 64, 15]⟩
abbrev S64x64x31 : Shape := ⟨3, ![64, 64, 31]⟩
abbrev S256x64x64 : Shape := ⟨3, ![256, 64, 64]⟩
abbrev S8x64x64x31 : Shape := ⟨4, ![8, 64, 64, 31]⟩
abbrev S8x64x64 : Shape := ⟨3, ![8, 64, 64]⟩
abbrev S1x64x64x31 : Shape := ⟨4, ![1, 64, 64, 31]⟩
abbrev S1x64x64 : Shape := ⟨3, ![1, 64, 64]⟩

abbrev nBuf : Space → Nat
  | .hbm => 135
  | .vmem => 5
  | .smem => 0
  | _ => 0

abbrev hbmTy0_0 (i : Nat) : BufTy := match i % 128 with
  | 0 => ⟨S256x64x64x31, .f32⟩
  | 1 => ⟨S1024, .f32⟩
  | 2 => ⟨S1024, .f32⟩
  | 3 => ⟨S32x32, .f32⟩
  | 4 => ⟨S1x32x1x32, .f32⟩
  | 5 => ⟨S2x32x2x32, .f32⟩
  | 6 => ⟨S64x64, .f32⟩
  | 7 => ⟨S64x64, .f32⟩
  | 8 => ⟨S0x64, .f32⟩
  | 9 => ⟨S64x64, .f32⟩
  | 10 => ⟨S1x64, .f32⟩
  | 11 => ⟨S63x64, .f32⟩
  | 12 => ⟨S64x64, .f32⟩
  | 13 => ⟨S2x64, .f32⟩
  | 14 => ⟨S62x64, .f32⟩
  | 15 => ⟨S64x64, .f32⟩
  | 16 => ⟨S3x64, .f32⟩
  | 17 => ⟨S61x64, .f32⟩
  | 18 => ⟨S64x64, .f32⟩
  | 19 => ⟨S4x64, .f32⟩
  | 20 => ⟨S60x64, .f32⟩
  | 21 => ⟨S64x64, .f32⟩
  | 22 => ⟨S5x64, .f32⟩
  | 23 => ⟨S59x64, .f32⟩
  | 24 => ⟨S64x64, .f32⟩
  | 25 => ⟨S6x64, .f32⟩
  | 26 => ⟨S58x64, .f32⟩
  | 27 => ⟨S64x64, .f32⟩
  | 28 => ⟨S7x64, .f32⟩
  | 29 => ⟨S57x64, .f32⟩
  | 30 => ⟨S64x64, .f32⟩
  | 31 => ⟨S8x64, .f32⟩
  | 32 => ⟨S56x64, .f32⟩
  | 33 => ⟨S64x64, .f32⟩
  | 34 => ⟨S9x64, .f32⟩
  | 35 => ⟨S55x64, .f32⟩
  | 36 => ⟨S64x64, .f32⟩
  | 37 => ⟨S10x64, .f32⟩
  | 38 => ⟨S54x64, .f32⟩
  | 39 => ⟨S64x64, .f32⟩
  | 40 => ⟨S11x64, .f32⟩
  | 41 => ⟨S53x64, .f32⟩
  | 42 => ⟨S64x64, .f32⟩
  | 43 => ⟨S12x64, .f32⟩
  | 44 => ⟨S52x64, .f32⟩
  | 45 => ⟨S64x64, .f32⟩
  | 46 => ⟨S13x64, .f32⟩
  | 47 => ⟨S51x64, .f32⟩
  | 48 => ⟨S64x64, .f32⟩
  | 49 => ⟨S14x64, .f32⟩
  | 50 => ⟨S50x64, .f32⟩
  | 51 => ⟨S64x64, .f32⟩
  | 52 => ⟨S15x64, .f32⟩
  | 53 => ⟨S49x64, .f32⟩
  | 54 => ⟨S64x64, .f32⟩
  | 55 => ⟨S16x64, .f32⟩
  | 56 => ⟨S48x64, .f32⟩
  | 57 => ⟨S64x64, .f32⟩
  | 58 => ⟨S17x64, .f32⟩
  | 59 => ⟨S47x64, .f32⟩
  | 60 => ⟨S64x64, .f32⟩
  | 61 => ⟨S18x64, .f32⟩
  | 62 => ⟨S46x64, .f32⟩
  | 63 => ⟨S64x64, .f32⟩
  | 64 => ⟨S19x64, .f32⟩
  | 65 => ⟨S45x64, .f32⟩
  | 66 => ⟨S64x64, .f32⟩
  | 67 => ⟨S20x64, .f32⟩
  | 68 => ⟨S44x64, .f32⟩
  | 69 => ⟨S64x64, .f32⟩
  | 70 => ⟨S21x64, .f32⟩
  | 71 => ⟨S43x64, .f32⟩
  | 72 => ⟨S64x64, .f32⟩
  | 73 => ⟨S22x64, .f32⟩
  | 74 => ⟨S42x64, .f32⟩
  | 75 => ⟨S64x64, .f32⟩
  | 76 => ⟨S23x64, .f32⟩
  | 77 => ⟨S41x64, .f32⟩
  | 78 => ⟨S64x64, .f32⟩
  | 79 => ⟨S24x64, .f32⟩
  | 80 => ⟨S40x64, .f32⟩
  | 81 => ⟨S64x64, .f32⟩
  | 82 => ⟨S25x64, .f32⟩
  | 83 => ⟨S39x64, .f32⟩
  | 84 => ⟨S64x64, .f32⟩
  | 85 => ⟨S26x64, .f32⟩
  | 86 => ⟨S38x64, .f32⟩
  | 87 => ⟨S64x64, .f32⟩
  | 88 => ⟨S27x64, .f32⟩
  | 89 => ⟨S37x64, .f32⟩
  | 90 => ⟨S64x64, .f32⟩
  | 91 => ⟨S28x64, .f32⟩
  | 92 => ⟨S36x64, .f32⟩
  | 93 => ⟨S64x64, .f32⟩
  | 94 => ⟨S29x64, .f32⟩
  | 95 => ⟨S35x64, .f32⟩
  | 96 => ⟨S64x64, .f32⟩
  | 97 => ⟨S30x64, .f32⟩
  | 98 => ⟨S34x64, .f32⟩
  | 99 => ⟨S64x64, .f32⟩
  | 100 => ⟨S64x64x1, .f32⟩
  | 101 => ⟨S64x64x1, .f32⟩
  | 102 => ⟨S64x64x1, .f32⟩
  | 103 => ⟨S64x64x1, .f32⟩
  | 104 => ⟨S64x64x1, .f32⟩
  | 105 => ⟨S64x64x1, .f32⟩
  | 106 => ⟨S64x64x1, .f32⟩
  | 107 => ⟨S64x64x1, .f32⟩
  | 108 => ⟨S64x64x1, .f32⟩
  | 109 => ⟨S64x64x1, .f32⟩
  | 110 => ⟨S64x64x1, .f32⟩
  | 111 => ⟨S64x64x1, .f32⟩
  | 112 => ⟨S64x64x1, .f32⟩
  | 113 => ⟨S64x64x1, .f32⟩
  | 114 => ⟨S64x64x1, .f32⟩
  | 115 => ⟨S64x64x1, .f32⟩
  | 116 => ⟨S64x64x1, .f32⟩
  | 117 => ⟨S64x64x1, .f32⟩
  | 118 => ⟨S64x64x1, .f32⟩
  | 119 => ⟨S64x64x1, .f32⟩
  | 120 => ⟨S64x64x1, .f32⟩
  | 121 => ⟨S64x64x1, .f32⟩
  | 122 => ⟨S64x64x1, .f32⟩
  | 123 => ⟨S64x64x1, .f32⟩
  | 124 => ⟨S64x64x1, .f32⟩
  | 125 => ⟨S64x64x1, .f32⟩
  | 126 => ⟨S64x64x1, .f32⟩
  | 127 => ⟨S64x64x1, .f32⟩
  | _ => ⟨S256x64x64x31, .f32⟩

abbrev hbmTy0_1 (i : Nat) : BufTy := match i % 128 with
  | 0 => ⟨S64x64x1, .f32⟩
  | 1 => ⟨S64x64x1, .f32⟩
  | 2 => ⟨S64x64x1, .f32⟩
  | 3 => ⟨S64x64x16, .f32⟩
  | 4 => ⟨S64x64x15, .f32⟩
  | 5 => ⟨S64x64x31, .f32⟩
  | 6 => ⟨S256x64x64, .f32⟩
  | _ => ⟨S256x64x64x31, .f32⟩

abbrev hbmTy (i : Nat) : BufTy := match i / 128 with
  | 0 => hbmTy0_0 i
  | 1 => hbmTy0_1 i
  | _ => ⟨S256x64x64x31, .f32⟩

abbrev bufTy : (tb : Table) → Fin (tcTables nBuf tb) → BufTy
  | .hbm, ⟨i, _⟩ => hbmTy i
  | .local _ .vmem, ⟨0, _⟩ => ⟨S8x64x64x31, .f32⟩
  | .local _ .vmem, ⟨1, _⟩ => ⟨S8x64x64x31, .f32⟩
  | .local _ .vmem, ⟨2, _⟩ => ⟨S64x64x31, .f32⟩
  | .local _ .vmem, ⟨3, _⟩ => ⟨S8x64x64, .f32⟩
  | .local _ .vmem, ⟨4, _⟩ => ⟨S8x64x64, .f32⟩
  | _, _ => ⟨S256x64x64x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_v5 : Ref sig .tc := ⟨.hbm, 9, rfl⟩
abbrev main_call1_v0 : Ref sig .tc := ⟨.hbm, 10, rfl⟩
abbrev main_call1_v1 : Ref sig .tc := ⟨.hbm, 11, rfl⟩
abbrev main_v6 : Ref sig .tc := ⟨.hbm, 12, rfl⟩
abbrev main_call2_v0 : Ref sig .tc := ⟨.hbm, 13, rfl⟩
abbrev main_call2_v1 : Ref sig .tc := ⟨.hbm, 14, rfl⟩
abbrev main_v7 : Ref sig .tc := ⟨.hbm, 15, rfl⟩
abbrev main_call3_v0 : Ref sig .tc := ⟨.hbm, 16, rfl⟩
abbrev main_call3_v1 : Ref sig .tc := ⟨.hbm, 17, rfl⟩
abbrev main_v8 : Ref sig .tc := ⟨.hbm, 18, rfl⟩
abbrev main_call4_v0 : Ref sig .tc := ⟨.hbm, 19, rfl⟩
abbrev main_call4_v1 : Ref sig .tc := ⟨.hbm, 20, rfl⟩
abbrev main_v9 : Ref sig .tc := ⟨.hbm, 21, rfl⟩
abbrev main_call5_v0 : Ref sig .tc := ⟨.hbm, 22, rfl⟩
abbrev main_call5_v1 : Ref sig .tc := ⟨.hbm, 23, rfl⟩
abbrev main_v10 : Ref sig .tc := ⟨.hbm, 24, rfl⟩
abbrev main_call6_v0 : Ref sig .tc := ⟨.hbm, 25, rfl⟩
abbrev main_call6_v1 : Ref sig .tc := ⟨.hbm, 26, rfl⟩
abbrev main_v11 : Ref sig .tc := ⟨.hbm, 27, rfl⟩
abbrev main_call7_v0 : Ref sig .tc := ⟨.hbm, 28, rfl⟩
abbrev main_call7_v1 : Ref sig .tc := ⟨.hbm, 29, rfl⟩
abbrev main_v12 : Ref sig .tc := ⟨.hbm, 30, rfl⟩
abbrev main_call8_v0 : Ref sig .tc := ⟨.hbm, 31, rfl⟩
abbrev main_call8_v1 : Ref sig .tc := ⟨.hbm, 32, rfl⟩
abbrev main_v13 : Ref sig .tc := ⟨.hbm, 33, rfl⟩
abbrev main_call9_v0 : Ref sig .tc := ⟨.hbm, 34, rfl⟩
abbrev main_call9_v1 : Ref sig .tc := ⟨.hbm, 35, rfl⟩
abbrev main_v14 : Ref sig .tc := ⟨.hbm, 36, rfl⟩
abbrev main_call10_v0 : Ref sig .tc := ⟨.hbm, 37, rfl⟩
abbrev main_call10_v1 : Ref sig .tc := ⟨.hbm, 38, rfl⟩
abbrev main_v15 : Ref sig .tc := ⟨.hbm, 39, rfl⟩
abbrev main_call11_v0 : Ref sig .tc := ⟨.hbm, 40, rfl⟩
abbrev main_call11_v1 : Ref sig .tc := ⟨.hbm, 41, rfl⟩
abbrev main_v16 : Ref sig .tc := ⟨.hbm, 42, rfl⟩
abbrev main_call12_v0 : Ref sig .tc := ⟨.hbm, 43, rfl⟩
abbrev main_call12_v1 : Ref sig .tc := ⟨.hbm, 44, rfl⟩
abbrev main_v17 : Ref sig .tc := ⟨.hbm, 45, rfl⟩
abbrev main_call13_v0 : Ref sig .tc := ⟨.hbm, 46, rfl⟩
abbrev main_call13_v1 : Ref sig .tc := ⟨.hbm, 47, rfl⟩
abbrev main_v18 : Ref sig .tc := ⟨.hbm, 48, rfl⟩
abbrev main_call14_v0 : Ref sig .tc := ⟨.hbm, 49, rfl⟩
abbrev main_call14_v1 : Ref sig .tc := ⟨.hbm, 50, rfl⟩
abbrev main_v19 : Ref sig .tc := ⟨.hbm, 51, rfl⟩
abbrev main_call15_v0 : Ref sig .tc := ⟨.hbm, 52, rfl⟩
abbrev main_call15_v1 : Ref sig .tc := ⟨.hbm, 53, rfl⟩
abbrev main_v20 : Ref sig .tc := ⟨.hbm, 54, rfl⟩
abbrev main_call16_v0 : Ref sig .tc := ⟨.hbm, 55, rfl⟩
abbrev main_call16_v1 : Ref sig .tc := ⟨.hbm, 56, rfl⟩
abbrev main_v21 : Ref sig .tc := ⟨.hbm, 57, rfl⟩
abbrev main_call17_v0 : Ref sig .tc := ⟨.hbm, 58, rfl⟩
abbrev main_call17_v1 : Ref sig .tc := ⟨.hbm, 59, rfl⟩
abbrev main_v22 : Ref sig .tc := ⟨.hbm, 60, rfl⟩
abbrev main_call18_v0 : Ref sig .tc := ⟨.hbm, 61, rfl⟩
abbrev main_call18_v1 : Ref sig .tc := ⟨.hbm, 62, rfl⟩
abbrev main_v23 : Ref sig .tc := ⟨.hbm, 63, rfl⟩
abbrev main_call19_v0 : Ref sig .tc := ⟨.hbm, 64, rfl⟩
abbrev main_call19_v1 : Ref sig .tc := ⟨.hbm, 65, rfl⟩
abbrev main_v24 : Ref sig .tc := ⟨.hbm, 66, rfl⟩
abbrev main_call20_v0 : Ref sig .tc := ⟨.hbm, 67, rfl⟩
abbrev main_call20_v1 : Ref sig .tc := ⟨.hbm, 68, rfl⟩
abbrev main_v25 : Ref sig .tc := ⟨.hbm, 69, rfl⟩
abbrev main_call21_v0 : Ref sig .tc := ⟨.hbm, 70, rfl⟩
abbrev main_call21_v1 : Ref sig .tc := ⟨.hbm, 71, rfl⟩
abbrev main_v26 : Ref sig .tc := ⟨.hbm, 72, rfl⟩
abbrev main_call22_v0 : Ref sig .tc := ⟨.hbm, 73, rfl⟩
abbrev main_call22_v1 : Ref sig .tc := ⟨.hbm, 74, rfl⟩
abbrev main_v27 : Ref sig .tc := ⟨.hbm, 75, rfl⟩
abbrev main_call23_v0 : Ref sig .tc := ⟨.hbm, 76, rfl⟩
abbrev main_call23_v1 : Ref sig .tc := ⟨.hbm, 77, rfl⟩
abbrev main_v28 : Ref sig .tc := ⟨.hbm, 78, rfl⟩
abbrev main_call24_v0 : Ref sig .tc := ⟨.hbm, 79, rfl⟩
abbrev main_call24_v1 : Ref sig .tc := ⟨.hbm, 80, rfl⟩
abbrev main_v29 : Ref sig .tc := ⟨.hbm, 81, rfl⟩
abbrev main_call25_v0 : Ref sig .tc := ⟨.hbm, 82, rfl⟩
abbrev main_call25_v1 : Ref sig .tc := ⟨.hbm, 83, rfl⟩
abbrev main_v30 : Ref sig .tc := ⟨.hbm, 84, rfl⟩
abbrev main_call26_v0 : Ref sig .tc := ⟨.hbm, 85, rfl⟩
abbrev main_call26_v1 : Ref sig .tc := ⟨.hbm, 86, rfl⟩
abbrev main_v31 : Ref sig .tc := ⟨.hbm, 87, rfl⟩
abbrev main_call27_v0 : Ref sig .tc := ⟨.hbm, 88, rfl⟩
abbrev main_call27_v1 : Ref sig .tc := ⟨.hbm, 89, rfl⟩
abbrev main_v32 : Ref sig .tc := ⟨.hbm, 90, rfl⟩
abbrev main_call28_v0 : Ref sig .tc := ⟨.hbm, 91, rfl⟩
abbrev main_call28_v1 : Ref sig .tc := ⟨.hbm, 92, rfl⟩
abbrev main_v33 : Ref sig .tc := ⟨.hbm, 93, rfl⟩
abbrev main_call29_v0 : Ref sig .tc := ⟨.hbm, 94, rfl⟩
abbrev main_call29_v1 : Ref sig .tc := ⟨.hbm, 95, rfl⟩
abbrev main_v34 : Ref sig .tc := ⟨.hbm, 96, rfl⟩
abbrev main_call30_v0 : Ref sig .tc := ⟨.hbm, 97, rfl⟩
abbrev main_call30_v1 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x64x31 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64x31 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024_S32x32 : S1024.ShapeCasts S32x32
  shapeCasts_S32x32_S1x32x1x32 : S32x32.ShapeCasts S1x32x1x32
  bcast_S1x32x1x32_S2x32x2x32_0_1_2_3 : S1x32x1x32.BroadcastsInDim S2x32x2x32 (![0, 1, 2, 3] : Fin 4 → Fin S2x32x2x32.rank)
  shapeCasts_S2x32x2x32_S64x64 : S2x32x2x32.ShapeCasts S64x64
  slices_S64x64_S64x64_0_0 : S64x64.Slices ![0, 0] S64x64
  slices_S64x64_S0x64_0_0 : S64x64.Slices ![0, 0] S0x64
  concatenates_S64x64_S0x64_S64x64_d0 : Shape.Concatenates [S64x64, S0x64] S64x64 0
  slices_S64x64_S1x64_63_0 : S64x64.Slices ![63, 0] S1x64
  slices_S64x64_S63x64_0_0 : S64x64.Slices ![0, 0] S63x64
  concatenates_S1x64_S63x64_S64x64_d0 : Shape.Concatenates [S1x64, S63x64] S64x64 0
  slices_S64x64_S2x64_62_0 : S64x64.Slices ![62, 0] S2x64
  slices_S64x64_S62x64_0_0 : S64x64.Slices ![0, 0] S62x64
  concatenates_S2x64_S62x64_S64x64_d0 : Shape.Concatenates [S2x64, S62x64] S64x64 0
  slices_S64x64_S3x64_61_0 : S64x64.Slices ![61, 0] S3x64
  slices_S64x64_S61x64_0_0 : S64x64.Slices ![0, 0] S61x64
  concatenates_S3x64_S61x64_S64x64_d0 : Shape.Concatenates [S3x64, S61x64] S64x64 0
  slices_S64x64_S4x64_60_0 : S64x64.Slices ![60, 0] S4x64
  slices_S64x64_S60x64_0_0 : S64x64.Slices ![0, 0] S60x64
  concatenates_S4x64_S60x64_S64x64_d0 : Shape.Concatenates [S4x64, S60x64] S64x64 0
  slices_S64x64_S5x64_59_0 : S64x64.Slices ![59, 0] S5x64
  slices_S64x64_S59x64_0_0 : S64x64.Slices ![0, 0] S59x64
  concatenates_S5x64_S59x64_S64x64_d0 : Shape.Concatenates [S5x64, S59x64] S64x64 0
  slices_S64x64_S6x64_58_0 : S64x64.Slices ![58, 0] S6x64
  slices_S64x64_S58x64_0_0 : S64x64.Slices ![0, 0] S58x64
  concatenates_S6x64_S58x64_S64x64_d0 : Shape.Concatenates [S6x64, S58x64] S64x64 0
  slices_S64x64_S7x64_57_0 : S64x64.Slices ![57, 0] S7x64
  slices_S64x64_S57x64_0_0 : S64x64.Slices ![0, 0] S57x64
  concatenates_S7x64_S57x64_S64x64_d0 : Shape.Concatenates [S7x64, S57x64] S64x64 0
  slices_S64x64_S8x64_56_0 : S64x64.Slices ![56, 0] S8x64
  slices_S64x64_S56x64_0_0 : S64x64.Slices ![0, 0] S56x64
  concatenates_S8x64_S56x64_S64x64_d0 : Shape.Concatenates [S8x64, S56x64] S64x64 0
  slices_S64x64_S9x64_55_0 : S64x64.Slices ![55, 0] S9x64
  slices_S64x64_S55x64_0_0 : S64x64.Slices ![0, 0] S55x64
  concatenates_S9x64_S55x64_S64x64_d0 : Shape.Concatenates [S9x64, S55x64] S64x64 0
  slices_S64x64_S10x64_54_0 : S64x64.Slices ![54, 0] S10x64
  slices_S64x64_S54x64_0_0 : S64x64.Slices ![0, 0] S54x64
  concatenates_S10x64_S54x64_S64x64_d0 : Shape.Concatenates [S10x64, S54x64] S64x64 0
  slices_S64x64_S11x64_53_0 : S64x64.Slices ![53, 0] S11x64
  slices_S64x64_S53x64_0_0 : S64x64.Slices ![0, 0] S53x64
  concatenates_S11x64_S53x64_S64x64_d0 : Shape.Concatenates [S11x64, S53x64] S64x64 0
  slices_S64x64_S12x64_52_0 : S64x64.Slices ![52, 0] S12x64
  slices_S64x64_S52x64_0_0 : S64x64.Slices ![0, 0] S52x64
  concatenates_S12x64_S52x64_S64x64_d0 : Shape.Concatenates [S12x64, S52x64] S64x64 0
  slices_S64x64_S13x64_51_0 : S64x64.Slices ![51, 0] S13x64
  slices_S64x64_S51x64_0_0 : S64x64.Slices ![0, 0] S51x64
  concatenates_S13x64_S51x64_S64x64_d0 : Shape.Concatenates [S13x64, S51x64] S64x64 0
  slices_S64x64_S14x64_50_0 : S64x64.Slices ![50, 0] S14x64
  slices_S64x64_S50x64_0_0 : S64x64.Slices ![0, 0] S50x64
  concatenates_S14x64_S50x64_S64x64_d0 : Shape.Concatenates [S14x64, S50x64] S64x64 0
  slices_S64x64_S15x64_49_0 : S64x64.Slices ![49, 0] S15x64
  slices_S64x64_S49x64_0_0 : S64x64.Slices ![0, 0] S49x64
  concatenates_S15x64_S49x64_S64x64_d0 : Shape.Concatenates [S15x64, S49x64] S64x64 0
  slices_S64x64_S16x64_48_0 : S64x64.Slices ![48, 0] S16x64
  slices_S64x64_S48x64_0_0 : S64x64.Slices ![0, 0] S48x64
  concatenates_S16x64_S48x64_S64x64_d0 : Shape.Concatenates [S16x64, S48x64] S64x64 0
  slices_S64x64_S17x64_47_0 : S64x64.Slices ![47, 0] S17x64
  slices_S64x64_S47x64_0_0 : S64x64.Slices ![0, 0] S47x64
  concatenates_S17x64_S47x64_S64x64_d0 : Shape.Concatenates [S17x64, S47x64] S64x64 0
  slices_S64x64_S18x64_46_0 : S64x64.Slices ![46, 0] S18x64
  slices_S64x64_S46x64_0_0 : S64x64.Slices ![0, 0] S46x64
  concatenates_S18x64_S46x64_S64x64_d0 : Shape.Concatenates [S18x64, S46x64] S64x64 0
  slices_S64x64_S19x64_45_0 : S64x64.Slices ![45, 0] S19x64
  slices_S64x64_S45x64_0_0 : S64x64.Slices ![0, 0] S45x64
  concatenates_S19x64_S45x64_S64x64_d0 : Shape.Concatenates [S19x64, S45x64] S64x64 0
  slices_S64x64_S20x64_44_0 : S64x64.Slices ![44, 0] S20x64
  slices_S64x64_S44x64_0_0 : S64x64.Slices ![0, 0] S44x64
  concatenates_S20x64_S44x64_S64x64_d0 : Shape.Concatenates [S20x64, S44x64] S64x64 0
  slices_S64x64_S21x64_43_0 : S64x64.Slices ![43, 0] S21x64
  slices_S64x64_S43x64_0_0 : S64x64.Slices ![0, 0] S43x64
  concatenates_S21x64_S43x64_S64x64_d0 : Shape.Concatenates [S21x64, S43x64] S64x64 0
  slices_S64x64_S22x64_42_0 : S64x64.Slices ![42, 0] S22x64
  slices_S64x64_S42x64_0_0 : S64x64.Slices ![0, 0] S42x64
  concatenates_S22x64_S42x64_S64x64_d0 : Shape.Concatenates [S22x64, S42x64] S64x64 0
  slices_S64x64_S23x64_41_0 : S64x64.Slices ![41, 0] S23x64
  slices_S64x64_S41x64_0_0 : S64x64.Slices ![0, 0] S41x64
  concatenates_S23x64_S41x64_S64x64_d0 : Shape.Concatenates [S23x64, S41x64] S64x64 0
  slices_S64x64_S24x64_40_0 : S64x64.Slices ![40, 0] S24x64
  slices_S64x64_S40x64_0_0 : S64x64.Slices ![0, 0] S40x64
  concatenates_S24x64_S40x64_S64x64_d0 : Shape.Concatenates [S24x64, S40x64] S64x64 0
  slices_S64x64_S25x64_39_0 : S64x64.Slices ![39, 0] S25x64
  slices_S64x64_S39x64_0_0 : S64x64.Slices ![0, 0] S39x64
  concatenates_S25x64_S39x64_S64x64_d0 : Shape.Concatenates [S25x64, S39x64] S64x64 0
  slices_S64x64_S26x64_38_0 : S64x64.Slices ![38, 0] S26x64
  slices_S64x64_S38x64_0_0 : S64x64.Slices ![0, 0] S38x64
  concatenates_S26x64_S38x64_S64x64_d0 : Shape.Concatenates [S26x64, S38x64] S64x64 0
  slices_S64x64_S27x64_37_0 : S64x64.Slices ![37, 0] S27x64
  slices_S64x64_S37x64_0_0 : S64x64.Slices ![0, 0] S37x64
  concatenates_S27x64_S37x64_S64x64_d0 : Shape.Concatenates [S27x64, S37x64] S64x64 0
  slices_S64x64_S28x64_36_0 : S64x64.Slices ![36, 0] S28x64
  slices_S64x64_S36x64_0_0 : S64x64.Slices ![0, 0] S36x64
  concatenates_S28x64_S36x64_S64x64_d0 : Shape.Concatenates [S28x64, S36x64] S64x64 0
  slices_S64x64_S29x64_35_0 : S64x64.Slices ![35, 0] S29x64
  slices_S64x64_S35x64_0_0 : S64x64.Slices ![0, 0] S35x64
  concatenates_S29x64_S35x64_S64x64_d0 : Shape.Concatenates [S29x64, S35x64] S64x64 0
  slices_S64x64_S30x64_34_0 : S64x64.Slices ![34, 0] S30x64
  slices_S64x64_S34x64_0_0 : S64x64.Slices ![0, 0] S34x64
  concatenates_S30x64_S34x64_S64x64_d0 : Shape.Concatenates [S30x64, S34x64] S64x64 0
  bcast_S64x64_S64x64x1_0_1 : S64x64.BroadcastsInDim S64x64x1 (![0, 1] : Fin 2 → Fin S64x64x1.rank)
  concatenates_S64x64x1_S64x64x1_S64x64x1_S64x64x1_S64x64x1_S64x64x1_S64x64x1_S64x64x1_S64x64x1_S64x64x1_S64x64x1_S64x64x1_S64x64x1_S64x64x1_S64x64x1_S64x64x1_S64x64x16_d2 : Shape.Concatenates [S64x64x1, S64x64x1, S64x64x1, S64x64x1, S64x64x1, S64x64x1, S64x64x1, S64x64x1, S64x64x1, S64x64x1, S64x64x1, S64x64x1, S64x64x1, S64x64x1, S64x64x1, S64x64x1] S64x64x16 2
  concatenates_S64x64x1_S64x64x1_S64x64x1_S64x64x1_S64x64x1_S64x64x1_S64x64x1_S64x64x1_S64x64x1_S64x64x1_S64x64x1_S64x64x1_S64x64x1_S64x64x1_S64x64x1_S64x64x15_d2 : Shape.Concatenates [S64x64x1, S64x64x1, S64x64x1, S64x64x1, S64x64x1, S64x64x1, S64x64x1, S64x64x1, S64x64x1, S64x64x1, S64x64x1, S64x64x1, S64x64x1, S64x64x1, S64x64x1] S64x64x15 2
  concatenates_S64x64x16_S64x64x15_S64x64x31_d2 : Shape.Concatenates [S64x64x16, S64x64x15] S64x64x31 2
  inb_S64x64x31_S64x64x31_0_0_0 : ∀ a, (![0, 0, 0] : Fin 3 → Nat) a + S64x64x31.size a ≤ S64x64x31.size a
  h_S64x64x31 : 0 < S64x64x31.numel
  shapeCasts_S64x64x31_S64x64x31 : S64x64x31.ShapeCasts S64x64x31
  inb_S8x64x64x31_S1x64x64x31_0_0_0_0 : ∀ a, (![0, 0, 0, 0] : Fin 4 → Nat) a + S1x64x64x31.size a ≤ S8x64x64x31.size a
  h_S1x64x64x31 : 0 < S1x64x64x31.numel
  shapeCasts_S1x64x64x31_S64x64x31 : S1x64x64x31.ShapeCasts S64x64x31
  reduces_S64x64x31_S64x64 : S64x64x31.Reduces [2] S64x64
  inb_S8x64x64_S1x64x64_0_0_0 : ∀ a, (![0, 0, 0] : Fin 3 → Nat) a + S1x64x64.size a ≤ S8x64x64.size a
  h_S1x64x64 : 0 < S1x64x64.numel
  shapeCasts_S1x64x64_S64x64 : S1x64x64.ShapeCasts S64x64
  shapeCasts_S64x64_S1x64x64 : S64x64.ShapeCasts S1x64x64
  inb_S8x64x64x31_S1x64x64x31_1_0_0_0 : ∀ a, (![1, 0, 0, 0] : Fin 4 → Nat) a + S1x64x64x31.size a ≤ S8x64x64x31.size a
  inb_S8x64x64_S1x64x64_1_0_0 : ∀ a, (![1, 0, 0] : Fin 3 → Nat) a + S1x64x64.size a ≤ S8x64x64.size a
  inb_S8x64x64x31_S1x64x64x31_2_0_0_0 : ∀ a, (![2, 0, 0, 0] : Fin 4 → Nat) a + S1x64x64x31.size a ≤ S8x64x64x31.size a
  inb_S8x64x64_S1x64x64_2_0_0 : ∀ a, (![2, 0, 0] : Fin 3 → Nat) a + S1x64x64.size a ≤ S8x64x64.size a
  inb_S8x64x64x31_S1x64x64x31_3_0_0_0 : ∀ a, (![3, 0, 0, 0] : Fin 4 → Nat) a + S1x64x64x31.size a ≤ S8x64x64x31.size a
  inb_S8x64x64_S1x64x64_3_0_0 : ∀ a, (![3, 0, 0] : Fin 3 → Nat) a + S1x64x64.size a ≤ S8x64x64.size a
  inb_S8x64x64x31_S1x64x64x31_4_0_0_0 : ∀ a, (![4, 0, 0, 0] : Fin 4 → Nat) a + S1x64x64x31.size a ≤ S8x64x64x31.size a
  inb_S8x64x64_S1x64x64_4_0_0 : ∀ a, (![4, 0, 0] : Fin 3 → Nat) a + S1x64x64.size a ≤ S8x64x64.size a
  inb_S8x64x64x31_S1x64x64x31_5_0_0_0 : ∀ a, (![5, 0, 0, 0] : Fin 4 → Nat) a + S1x64x64x31.size a ≤ S8x64x64x31.size a
  inb_S8x64x64_S1x64x64_5_0_0 : ∀ a, (![5, 0, 0] : Fin 3 → Nat) a + S1x64x64.size a ≤ S8x64x64.size a
  inb_S8x64x64x31_S1x64x64x31_6_0_0_0 : ∀ a, (![6, 0, 0, 0] : Fin 4 → Nat) a + S1x64x64x31.size a ≤ S8x64x64x31.size a
  inb_S8x64x64_S1x64x64_6_0_0 : ∀ a, (![6, 0, 0] : Fin 3 → Nat) a + S1x64x64.size a ≤ S8x64x64.size a
  inb_S8x64x64x31_S1x64x64x31_7_0_0_0 : ∀ a, (![7, 0, 0, 0] : Fin 4 → Nat) a + S1x64x64x31.size a ≤ S8x64x64x31.size a
  inb_S8x64x64_S1x64x64_7_0_0 : ∀ a, (![7, 0, 0] : Fin 3 → Nat) a + S1x64x64.size a ≤ S8x64x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x64x31.size a ≤ S256x64x64x31.size a
  hwx0_0 : ∀ i : grid0.Coords, EltTy.bits .f32 = 32 ∨ (Rect.block (s := S256x64x64x31) S8x64x64x31.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64x31.size a ≤ S64x64x31.size a
  hwx0_1 : ∀ i : grid0.Coords, EltTy.bits .f32 = 32 ∨ (Rect.block (s := S64x64x31) S64x64x31.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64x64.size a ≤ S256x64x64.size a
  hwx0_2 : ∀ i : grid0.Coords, EltTy.bits .f32 = 32 ∨ (Rect.block (s := S256x64x64) S8x64x64.size (cc0_transform_2 i) (hinb0_2 i)).WholeWords (EltTy.packing .f32)

variable [Facts₀]

abbrev win0_0 : Pipeline.Window sig grid0 :=
  Pipeline.Window.ofSpec (Memref.whole main_arg0) S8x64x64x31.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v69) S64x64x31.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v70) S8x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x64x64x31 : Shape := ⟨4, ![256, 64, 64, 31]⟩
abbrev S1024 : Shape := ⟨1, ![1024]⟩
abbrev S64 : Shape := ⟨1, ![64]⟩
abbrev S31 : Shape := ⟨1, ![31]⟩
abbrev S64x1 : Shape := ⟨2, ![64, 1]⟩
abbrev S1x31 : Shape := ⟨2, ![1, 31]⟩
abbrev S64x31 : Shape := ⟨2, ![64, 31]⟩
abbrev S_ : Shape := ⟨0, ![]⟩
abbrev S1x64x1x31 : Shape := ⟨4, ![1, 64, 1, 31]⟩
abbrev S256x64x64x31x1 : Shape := ⟨5, ![256, 64, 64, 31, 1]⟩
abbrev S1 : Shape := ⟨1, ![1]⟩
abbrev S1x1x1x1x1 : Shape := ⟨5, ![1, 1, 1, 1, 1]⟩
abbrev S32x32 : Shape := ⟨2, ![32, 32]⟩
abbrev S1x32x1x32 : Shape := ⟨4, ![1, 32, 1, 32]⟩
abbrev S2x32x2x32 : Shape := ⟨4, ![2, 32, 2, 32]⟩
abbrev S64x64 : Shape := ⟨2, ![64, 64]⟩
abbrev S1x64x64x1 : Shape := ⟨4, ![1, 64, 64, 1]⟩
abbrev S256x64x64 : Shape := ⟨3, ![256, 64, 64]⟩

abbrev nBuf : Space → Nat
  | .hbm => 116
  | .vmem => 0
  | .smem => 0
  | _ => 0

abbrev bufTy : (tb : Table) → Fin (tcTables nBuf tb) → BufTy
  | .hbm, ⟨0, _⟩ => ⟨S256x64x64x31, .f32⟩
  | .hbm, ⟨1, _⟩ => ⟨S1024, .f32⟩
  | .hbm, ⟨2, _⟩ => ⟨S64, .i32⟩
  | .hbm, ⟨3, _⟩ => ⟨S31, .i32⟩
  | .hbm, ⟨4, _⟩ => ⟨S64x1, .i32⟩
  | .hbm, ⟨5, _⟩ => ⟨S1x31, .i32⟩
  | .hbm, ⟨6, _⟩ => ⟨S64x31, .i32⟩
  | .hbm, ⟨7, _⟩ => ⟨S64x31, .i32⟩
  | .hbm, ⟨8, _⟩ => ⟨S64x31, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S64x31, .i32⟩
  | .hbm, ⟨16, _⟩ => ⟨S64x31, .i32⟩
  | .hbm, ⟨17, _⟩ => ⟨S_, .i32⟩
  | .hbm, ⟨18, _⟩ => ⟨S64x31, .i32⟩
  | .hbm, ⟨19, _⟩ => ⟨S64x31, .i1⟩
  | .hbm, ⟨20, _⟩ => ⟨S_, .i32⟩
  | .hbm, ⟨21, _⟩ => ⟨S64x31, .i32⟩
  | .hbm, ⟨22, _⟩ => ⟨S64x31, .i1⟩
  | .hbm, ⟨23, _⟩ => ⟨S_, .i32⟩
  | .hbm, ⟨24, _⟩ => ⟨S_, .i1⟩
  | .hbm, ⟨25, _⟩ => ⟨S64x31, .i1⟩
  | .hbm, ⟨26, _⟩ => ⟨S64x31, .i1⟩
  | .hbm, ⟨27, _⟩ => ⟨S64x31, .i1⟩
  | .hbm, ⟨28, _⟩ => ⟨S64x31, .i32⟩
  | .hbm, ⟨29, _⟩ => ⟨S64x31, .i32⟩
  | .hbm, ⟨30, _⟩ => ⟨S64x31, .i32⟩
  | .hbm, ⟨31, _⟩ => ⟨S1x64x1x31, .i32⟩
  | .hbm, ⟨32, _⟩ => ⟨S256x64x64x31, .i32⟩
  | .hbm, ⟨33, _⟩ => ⟨S_, .i32⟩
  | .hbm, ⟨34, _⟩ => ⟨S256x64x64x31, .i32⟩
  | .hbm, ⟨35, _⟩ => ⟨S256x64x64x31, .i1⟩
  | .hbm, ⟨36, _⟩ => ⟨S_, .i32⟩
  | .hbm, ⟨37, _⟩ => ⟨S256x64x64x31, .i32⟩
  | .hbm, ⟨38, _⟩ => ⟨S256x64x64x31, .i32⟩
  | .hbm, ⟨39, _⟩ => ⟨S256x64x64x31, .i32⟩
  | .hbm, ⟨40, _⟩ => ⟨S256x64x64x31x1, .i32⟩
  | .hbm, ⟨41, _⟩ => ⟨S1, .i32⟩
  | .hbm, ⟨42, _⟩ => ⟨S_, .i32⟩
  | .hbm, ⟨43, _⟩ => ⟨S256x64x64x31x1, .i32⟩
  | .hbm, ⟨44, _⟩ => ⟨S256x64x64x31x1, .i1⟩
  | .hbm, ⟨45, _⟩ => ⟨S1x1x1x1x1, .i32⟩
  | .hbm, ⟨46, _⟩ => ⟨S256x64x64x31x1, .i32⟩
  | .hbm, ⟨47, _⟩ => ⟨S256x64x64x31x1, .i1⟩
  | .hbm, ⟨48, _⟩ => ⟨S256x64x64x31x1, .i1⟩
  | .hbm, ⟨49, _⟩ => ⟨S_, .i1⟩
  | .hbm, ⟨50, _⟩ => ⟨S256x64x64x31, .i1⟩
  | .hbm, ⟨51, _⟩ => ⟨S256x64x64x31, .f32⟩
  | .hbm, ⟨52, _⟩ => ⟨S_, .f32⟩
  | .hbm, ⟨53, _⟩ => ⟨S256x64x64x31, .f32⟩
  | .hbm, ⟨54, _⟩ => ⟨S256x64x64x31, .f32⟩
  | .hbm, ⟨55, _⟩ => ⟨S1024, .f32⟩
  | .hbm, ⟨56, _⟩ => ⟨S32x32, .f32⟩
  | .hbm, ⟨57, _⟩ => ⟨S1x32x1x32, .f32⟩
  | .hbm, ⟨58, _⟩ => ⟨S2x32x2x32, .f32⟩
  | .hbm, ⟨59, _⟩ => ⟨S64x64, .f32⟩
  | .hbm, ⟨60, _⟩ => ⟨S1x64x64x1, .f32⟩
  | .hbm, ⟨61, _⟩ => ⟨S256x64x64x31, .f32⟩
  | .hbm, ⟨62, _⟩ => ⟨S256x64x64x31, .f32⟩
  | .hbm, ⟨63, _⟩ => ⟨S64x1, .i32⟩
  | .hbm, ⟨64, _⟩ => ⟨S1x31, .i32⟩
  | .hbm, ⟨65, _⟩ => ⟨S64x31, .i32⟩
  | .hbm, ⟨66, _⟩ => ⟨S64x31, .i32⟩
  | .hbm, ⟨67, _⟩ => ⟨S64x31, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i32⟩
  | .hbm, ⟨74, _⟩ => ⟨S64x31, .i32⟩
  | .hbm, ⟨75, _⟩ => ⟨S64x31, .i32⟩
  | .hbm, ⟨76, _⟩ => ⟨S_, .i32⟩
  | .hbm, ⟨77, _⟩ => ⟨S64x31, .i32⟩
  | .hbm, ⟨78, _⟩ => ⟨S64x31, .i1⟩
  | .hbm, ⟨79, _⟩ => ⟨S_, .i32⟩
  | .hbm, ⟨80, _⟩ => ⟨S64x31, .i32⟩
  | .hbm, ⟨81, _⟩ => ⟨S64x31, .i1⟩
  | .hbm, ⟨82, _⟩ => ⟨S_, .i32⟩
  | .hbm, ⟨83, _⟩ => ⟨S_, .i1⟩
  | .hbm, ⟨84, _⟩ => ⟨S64x31, .i1⟩
  | .hbm, ⟨85, _⟩ => ⟨S64x31, .i1⟩
  | .hbm, ⟨86, _⟩ => ⟨S64x31, .i1⟩
  | .hbm, ⟨87, _⟩ => ⟨S64x31, .i32⟩
  | .hbm, ⟨88, _⟩ => ⟨S64x31, .i32⟩
  | .hbm, ⟨89, _⟩ => ⟨S64x31, .i32⟩
  | .hbm, ⟨90, _⟩ => ⟨S1x64x1x31, .i32⟩
  | .hbm, ⟨91, _⟩ => ⟨S256x64x64x31, .i32⟩
  | .hbm, ⟨92, _⟩ => ⟨S_, .i32⟩
  | .hbm, ⟨93, _⟩ => ⟨S256x64x64x31, .i32⟩
  | .hbm, ⟨94, _⟩ => ⟨S256x64x64x31, .i1⟩
  | .hbm, ⟨95, _⟩ => ⟨S_, .i32⟩
  | .hbm, ⟨96, _⟩ => ⟨S256x64x64x31, .i32⟩
  | .hbm, ⟨97, _⟩ => ⟨S256x64x64x31, .i32⟩
  | .hbm, ⟨98, _⟩ => ⟨S256x64x64x31, .i32⟩
  | .hbm, ⟨99, _⟩ => ⟨S256x64x64x31x1, .i32⟩
  | .hbm, ⟨100, _⟩ => ⟨S1, .i32⟩
  | .hbm, ⟨101, _⟩ => ⟨S_, .i32⟩
  | .hbm, ⟨102, _⟩ => ⟨S256x64x64x31x1, .i32⟩
  | .hbm, ⟨103, _⟩ => ⟨S256x64x64x31x1, .i1⟩
  | .hbm, ⟨104, _⟩ => ⟨S1x1x1x1x1, .i32⟩
  | .hbm, ⟨105, _⟩ => ⟨S256x64x64x31x1, .i32⟩
  | .hbm, ⟨106, _⟩ => ⟨S256x64x64x31x1, .i1⟩
  | .hbm, ⟨107, _⟩ => ⟨S256x64x64x31x1, .i1⟩
  | .hbm, ⟨108, _⟩ => ⟨S_, .i1⟩
  | .hbm, ⟨109, _⟩ => ⟨S256x64x64x31, .i1⟩
  | .hbm, ⟨110, _⟩ => ⟨S256x64x64x31, .f32⟩
  | .hbm, ⟨111, _⟩ => ⟨S_, .f32⟩
  | .hbm, ⟨112, _⟩ => ⟨S256x64x64x31, .f32⟩
  | .hbm, ⟨113, _⟩ => ⟨S256x64x64x31, .f32⟩
  | .hbm, ⟨114, _⟩ => ⟨S_, .f32⟩
  | .hbm, ⟨115, _⟩ => ⟨S256x64x64, .f32⟩
  | _, _ => ⟨S256x64x64x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_cst : Ref sig .tc := ⟨.hbm, 52, rfl⟩
abbrev main_call1_v14 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_c_0 : Ref sig .tc := ⟨.hbm, 68, rfl⟩
abbrev main_call2_v0 : Ref sig .tc := ⟨.hbm, 69, rfl⟩
abbrev main_call2_c : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_c_1 : Ref sig .tc := ⟨.hbm, 76, rfl⟩
abbrev main_call2_v5 : Ref sig .tc := ⟨.hbm, 77, rfl⟩
abbrev main_call2_v6 : Ref sig .tc := ⟨.hbm, 78, rfl⟩
abbrev main_call2_c_2 : Ref sig .tc := ⟨.hbm, 79, rfl⟩
abbrev main_call2_v7 : Ref sig .tc := ⟨.hbm, 80, rfl⟩
abbrev main_call2_v8 : Ref sig .tc := ⟨.hbm, 81, rfl⟩
abbrev main_call2_c_3 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_cst : Ref sig .tc := ⟨.hbm, 111, rfl⟩
abbrev main_call3_v14 : Ref sig .tc := ⟨.hbm, 112, rfl⟩
abbrev main_v27 : Ref sig .tc := ⟨.hbm, 113, rfl⟩
abbrev main_cst : Ref sig .tc := ⟨.hbm, 114, rfl⟩
abbrev main_v28 : Ref sig .tc := ⟨.hbm, 115, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  bcast_S31_S1x31_1 : S31.BroadcastsInDim S1x31 (![1] : Fin 1 → Fin S1x31.rank)
  bcast_S64x1_S64x31_0_1 : S64x1.BroadcastsInDim S64x31 (![0, 1] : Fin 2 → Fin S64x31.rank)
  bcast_S1x31_S64x31_0_1 : S1x31.BroadcastsInDim S64x31 (![0, 1] : Fin 2 → Fin S64x31.rank)
  bcast_S_S64x31 : S_.BroadcastsInDim S64x31 (![] : Fin 0 → Fin S64x31.rank)
  bcast_S64x31_S1x64x1x31_1_3 : S64x31.BroadcastsInDim S1x64x1x31 (![1, 3] : Fin 2 → Fin S1x64x1x31.rank)
  bcast_S1x64x1x31_S256x64x64x31_0_1_2_3 : S1x64x1x31.BroadcastsInDim S256x64x64x31 (![0, 1, 2, 3] : Fin 4 → Fin S256x64x64x31.rank)
  bcast_S_S256x64x64x31 : S_.BroadcastsInDim S256x64x64x31 (![] : Fin 0 → Fin S256x64x64x31.rank)
  shapeCasts_S256x64x64x31_S256x64x64x31x1 : S256x64x64x31.ShapeCasts S256x64x64x31x1
  bcast_S_S256x64x64x31x1 : S_.BroadcastsInDim S256x64x64x31x1 (![] : Fin 0 → Fin S256x64x64x31x1.rank)
  bcast_S1_S1x1x1x1x1_4 : S1.BroadcastsInDim S1x1x1x1x1 (![4] : Fin 1 → Fin S1x1x1x1x1.rank)
  bcast_S1x1x1x1x1_S256x64x64x31x1_0_1_2_3_4 : S1x1x1x1x1.BroadcastsInDim S256x64x64x31x1 (![0, 1, 2, 3, 4] : Fin 5 → Fin S256x64x64x31x1.rank)
  reducesTo_S256x64x64x31x1_S256x64x64x31_d4 : S256x64x64x31x1.ReducesTo [4] S256x64x64x31
  h_S_ : 0 < S_.numel
  shapeCasts_S1024_S32x32 : S1024.ShapeCasts S32x32
  shapeCasts_S32x32_S1x32x1x32 : S32x32.ShapeCasts S1x32x1x32
  bcast_S1x32x1x32_S2x32x2x32_0_1_2_3 : S1x32x1x32.BroadcastsInDim S2x32x2x32 (![0, 1, 2, 3] : Fin 4 → Fin S2x32x2x32.rank)
  shapeCasts_S2x32x2x32_S64x64 : S2x32x2x32.ShapeCasts S64x64
  bcast_S64x64_S1x64x64x1_1_2 : S64x64.BroadcastsInDim S1x64x64x1 (![1, 2] : Fin 2 → Fin S1x64x64x1.rank)
  bcast_S1x64x64x1_S256x64x64x31_0_1_2_3 : S1x64x64x1.BroadcastsInDim S256x64x64x31 (![0, 1, 2, 3] : Fin 4 → Fin S256x64x64x31.rank)
  reducesTo_S256x64x64x31_S256x64x64_d3 : S256x64x64x31.ReducesTo [3] S256x64x64
  gather_S256x64x64x31_S256x64x64x31x1_S256x64x64x31_n_1_023_023_1_4_1111_wf : GatherDims.WF S256x64x64x31 S256x64x64x31x1 S256x64x64x31 [] [1] [0, 2, 3] [1] [0, 2, 3] 4 ![1, 1, 1, 1]

variable [Facts₀]

def gather_S256x64x64x31_S256x64x64x31x1_S256x64x64x31_n_1_023_023_1_4_1111 : GatherDims S256x64x64x31 S256x64x64x31x1 S256x64x64x31 where
  offsetDims := []
  collapsedSliceDims := [1]
  operandBatchingDims := [0, 2, 3]
  startIndicesBatchingDims := [0, 2, 3]
  startIndexMap := [1]
  indexVectorDim := 4
  sliceSizes := ![1, 1, 1, 1]
  wf := gather_S256x64x64x31_S256x64x64x31x1_S256x64x64x31_n_1_023_023_1_4_1111_wf

class Facts : Prop extends Facts₀ where

variable [Facts]
-- ==== Proof.KernelFrame.lean ====
/-
  The frame of the program, and what its kernel leaves behind.

  The program is a straight line of host operations (sign of the weights, the layout operations that make the
  64 x 64 square, its 31 rolled copies gathered into the table) followed by ONE pipelined region over a grid of
  32 points, point t working on batch rows 8t .. 8t+7. None of the host operations writes either argument array,
  the region's pipeline only reads the first argument (x) block by block, and the second (w) is no window of it:
  so both arrays end as they started. That is the frame.

  At a grid point the kernel body reads the whole table once and then, for each of the eight batch rows k of its
  input block in turn, multiplies row k entrywise by the table, sums over the 31 channels and writes the 64 x 64
  result as row k of its output block. Before each write it also reads that row of the output block; the value read
  is never used, so whatever the block held before does not matter. The eight rows written tile the output block,
  hence the block afterwards is determined by the eight writes alone: `slabSums`.
-/
import proofs.«156092_j55533927137718_2_alg».proof.Proof.Gen.Kernel.Launch
import proofs.«156092_j55533927137718_2_alg».proof.Proof.Gen.Kernel.Skeleton
import proofs.«156092_j55533927137718_2_alg».proof.Proof.Gen.Kernel.Points
import Idealize.ShloMosaic.Lib.Pipeline.FrameBody
import Idealize.ShloMosaic.Lib.Ring
import Idealize.ShloMosaic.Lib.Tactic

-- membership of an index in a rectangle with extents 64 x 64 x 31 is checked one coordinate at a time
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The host operations before the region, stretch by stretch, in program order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

/-- What core `c`'s buffers hold when the region is entered: the launch contents carried through every host
    operation in order. -/
abbrev V (c : Dev nD) (b : Ref sig .tc) : Buf (Elt F) ((c : Thread nD τ).loc b) :=
  StableHlo.after (stretches (F := F)).flatten (fun b => m (c, b)) b

/-- Every host operation touches buffers of the tensor core only. -/
theorem stretches_sub :
    (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub⟩

/-- No host operation allocates a buffer of its own. -/
theorem stretches_fresh : (stretches (F := F)).Forall fun ops => ops.Forall fun op => op.fresh = ∅ := by
  simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.Forall]
  repeat' constructor

/-- The program is its host operations followed by the region, so the region starts from `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh (fun c => main_chain c)

/-- A buffer that is the result of none of the host operations is found by the region as launched. Each operation
    writes exactly its result buffer, and the argument arrays are the result of none. -/
theorem untouched (c : Dev nD) (b : Ref sig .tc)
    (hb : ∀ op ∈ (stretches (F := F)).flatten, (Proc.devRef (τ := τ) .tc b) ∉ op.writes) :
    V m c b = m ((c : Thread nD τ).loc b) :=
  StableHlo.after_of_forall_not_mem (b := Proc.devRef .tc b) _ _ hb

theorem V_main_arg0 (c : Dev nD) : V m c main_arg0 = m ((c : Thread nD τ).loc main_arg0) :=
  untouched m c main_arg0 (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.unary_writes, StableHlo.binary_writes, StableHlo.reshape_writes,
      StableHlo.nary_writes, Finset.mem_singleton]
    repeat' apply And.intro
    all_goals exact StableHlo.devRef_ne_of_ne (by decide)))

theorem V_main_arg1 (c : Dev nD) : V m c main_arg1 = m ((c : Thread nD τ).loc main_arg1) :=
  untouched m c main_arg1 (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.unary_writes, StableHlo.binary_writes, StableHlo.reshape_writes,
      StableHlo.nary_writes, Finset.mem_singleton]
    repeat' apply And.intro
    all_goals exact StableHlo.devRef_ne_of_ne (by decide)))

/-! ## The blocks the windows show the body -/

/-- Window `w`'s block at grid point `t`: the part of its array, as the region finds it, that the window's
    index map selects at `t`. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## What the body leaves in the output block -/

/-- The whole table. -/
abbrev tabAll : Rect S64x64x31 :=
  Rect.unit (s := S64x64x31) ![0, 0, 0] S64x64x31.size inb_S64x64x31_S64x64x31_0_0_0

/-- Batch row k of the input block: all 64 x 64 x 31 entries of it. -/
abbrev xrow0 : Rect S8x64x64x31 := Rect.unit (s := S8x64x64x31) ![0, 0, 0, 0] S1x64x64x31.size inb_S8x64x64x31_S1x64x64x31_0_0_0_0
abbrev xrow1 : Rect S8x64x64x31 := Rect.unit (s := S8x64x64x31) ![1, 0, 0, 0] S1x64x64x31.size inb_S8x64x64x31_S1x64x64x31_1_0_0_0
abbrev xrow2 : Rect S8x64x64x31 := Rect.unit (s := S8x64x64x31) ![2, 0, 0, 0] S1x64x64x31.size inb_S8x64x64x31_S1x64x64x31_2_0_0_0
abbrev xrow3 : Rect S8x64x64x31 := Rect.unit (s := S8x64x64x31) ![3, 0, 0, 0] S1x64x64x31.size inb_S8x64x64x31_S1x64x64x31_3_0_0_0
abbrev xrow4 : Rect S8x64x64x31 := Rect.unit (s := S8x64x64x31) ![4, 0, 0, 0] S1x64x64x31.size inb_S8x64x64x31_S1x64x64x31_4_0_0_0
abbrev xrow5 : Rect S8x64x64x31 := Rect.unit (s := S8x64x64x31) ![5, 0, 0, 0] S1x64x64x31.size inb_S8x64x64x31_S1x64x64x31_5_0_0_0
abbrev xrow6 : Rect S8x64x64x31 := Rect.unit (s := S8x64x64x31) ![6, 0, 0, 0] S1x64x64x31.size inb_S8x64x64x31_S1x64x64x31_6_0_0_0
abbrev xrow7 : Rect S8x64x64x31 := Rect.unit (s := S8x64x64x31) ![7, 0, 0, 0] S1x64x64x31.size inb_S8x64x64x31_S1x64x64x31_7_0_0_0

/-- Batch row k of the output block: all 64 x 64 entries of it. -/
abbrev yrow0 : Rect S8x64x64 := Rect.unit (s := S8x64x64) ![0, 0, 0] S1x64x64.size inb_S8x64x64_S1x64x64_0_0_0
abbrev yrow1 : Rect S8x64x64 := Rect.unit (s := S8x64x64) ![1, 0, 0] S1x64x64.size inb_S8x64x64_S1x64x64_1_0_0
abbrev yrow2 : Rect S8x64x64 := Rect.unit (s := S8x64x64) ![2, 0, 0] S1x64x64.size inb_S8x64x64_S1x64x64_2_0_0
abbrev yrow3 : Rect S8x64x64 := Rect.unit (s := S8x64x64) ![3, 0, 0] S1x64x64.size inb_S8x64x64_S1x64x64_3_0_0
abbrev yrow4 : Rect S8x64x64 := Rect.unit (s := S8x64x64) ![4, 0, 0] S1x64x64.size inb_S8x64x64_S1x64x64_4_0_0
abbrev yrow5 : Rect S8x64x64 := Rect.unit (s := S8x64x64) ![5, 0, 0] S1x64x64.size inb_S8x64x64_S1x64x64_5_0_0
abbrev yrow6 : Rect S8x64x64 := Rect.unit (s := S8x64x64) ![6, 0, 0] S1x64x64.size inb_S8x64x64_S1x64x64_6_0_0
abbrev yrow7 : Rect S8x64x64 := Rect.unit (s := S8x64x64) ![7, 0, 0] S1x64x64.size inb_S8x64x64_S1x64x64_7_0_0

/-- The output block after the body, from the input block `x` and the table `tb`: row k holds the sums over the
    31 channels of row k of `x` times the table. The rows are written in the order 0, …, 7; the list has the last
    write first. (The body's first three rows use the table as loaded, the others the same table passed on
    between the two halves of the body; row 6's sum is computed in the first half-step and written in the second.) -/
def slabSums (x : Vec F S8x64x64x31 .f32) (tb : Vec F S64x64x31 .f32) : Vec F S8x64x64 .f32 :=
  View.canon [
    ⟨yrow7, k0_pay2 (k0_pay3 (View.ld tb tabAll)) (View.ld x xrow7)⟩,
    ⟨yrow6, k0_pay1 (k0_pay10 (k0_pay3 (View.ld tb tabAll)) (View.ld x xrow6))⟩,
    ⟨yrow5, k0_pay9 (k0_pay3 (View.ld tb tabAll)) (View.ld x xrow5)⟩,
    ⟨yrow4, k0_pay8 (k0_pay3 (View.ld tb tabAll)) (View.ld x xrow4)⟩,
    ⟨yrow3, k0_pay7 (k0_pay3 (View.ld tb tabAll)) (View.ld x xrow3)⟩,
    ⟨yrow2, k0_pay6 (View.ld tb tabAll) (View.ld x xrow2)⟩,
    ⟨yrow1, k0_pay5 (View.ld tb tabAll) (View.ld x xrow1)⟩,
    ⟨yrow0, k0_pay4 (View.ld tb tabAll) (View.ld x xrow0)⟩]

/-- The eight rows tile the 8 x 64 x 64 block in pieces of 1 x 64 x 64, so every index of the block lies in one. -/
theorem rows_cover (p0 p1 p2 p3 p4 p5 p6 p7 : Vec F S1x64x64 .f32) (y : S8x64x64.Idx) :
    ∃ pc ∈ ([⟨yrow7, p7⟩, ⟨yrow6, p6⟩, ⟨yrow5, p5⟩, ⟨yrow4, p4⟩, ⟨yrow3, p3⟩, ⟨yrow2, p2⟩, ⟨yrow1, p1⟩, ⟨yrow0, p0⟩] :
      List (View.Piece (Elt F) S8x64x64 .f32)), y ∈ pc.1.set :=
  View.cover_of_tiled (s := S8x64x64) [⟨yrow7, p7⟩, ⟨yrow6, p6⟩, ⟨yrow5, p5⟩, ⟨yrow4, p4⟩, ⟨yrow3, p3⟩, ⟨yrow2, p2⟩, ⟨yrow1, p1⟩, ⟨yrow0, p0⟩]
    (S1x64x64.size : Fin S8x64x64.rank → ℕ) (by rfl) y

set_option maxHeartbeats 1000000 in
/-- The body, run on three whole buffers holding `x`, `tb` and anything at all, leaves the first two as they were
    and the third at `slabSums x tb`: each step is a load or a store through a fixed rectangle; the eight loads of
    the third buffer read values nobody uses; after the eight stores every index has been overwritten. -/
theorem body_run (c : Dev nD) (E : Set ℕ) (i : grid0.Coords)
    (a1 : Memref sig .tc .vmem S8x64x64x31 .f32) (h1 : a1.IsWhole)
    (a2 : Memref sig .tc .vmem S64x64x31 .f32) (h2 : a2.IsWhole)
    (a3 : Memref sig .tc .vmem S8x64x64 .f32) (h3 : a3.IsWhole)
    (x : Vec F S8x64x64x31 .f32) (tb : Vec F S64x64x31 .f32) (K : PUnit → sProp 𝕄) :
    iprop(owns (c : Thread nD τ) a1 fullShare x ∗ owns (c : Thread nD τ) a2 fullShare tb
        ∗ (∃ d, owns (c : Thread nD τ) a3 fullShare d)
        ∗ (iprop(owns (c : Thread nD τ) a1 fullShare x ∗ owns (c : Thread nD τ) a2 fullShare tb
            ∗ owns (c : Thread nD τ) a3 fullShare (slabSums x tb)) -∗ K ⟨⟩))
      ⊢ wp frame (wpE (defs₀ (F := F)) Variants.none c none) E (cc0__kernel i a1 h1 a2 h2 a3 h3) K := by
  simp only [cc0__kernel_eq_skeleton]; unfold cc0__kernel_skel
  simp only [k0_part1_eq_skeleton, k0_part2_eq_skeleton]; unfold k0_part1_skel k0_part2_skel
  unfold owns
  iintro ⟨⟨%fx, %hfx, Hx⟩, ⟨%ft, %hft, Ht⟩, ⟨%junk, %fy, -, Hy⟩, Hk⟩
  subst hfx hft
  sl_exec
  sl_step
  iapply Hk
  isplitl [Hx]
  · iexists fx; isplitr; · ipureintro; rfl
    iexact Hx
  isplitl [Ht]
  · iexists ft; isplitr; · ipureintro; rfl
    iexact Ht
  iexists _; isplitr
  swap; · iexact Hy
  ipureintro
  exact View.read_writes_eq_canon _ _ _ (rows_cover _ _ _ _ _ _ _ _)

/-! ## The proof data of the pipeline -/

/-- On core `c`: the arrays as the region finds them; after the body at point `t` the two input windows still hold
    their blocks and the output window holds `slabSums` of them; the body keeps nothing of its own between points
    and signals no one. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => slabSums (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_tab (c : Dev nD) (t : Fin cfg0.N) : (dats m 0 c).after 1 t = iblk m c 1 t := by dsimp only [dats]
theorem after_out (c : Dev nD) (t : Fin cfg0.N) :
    (dats m 0 c).after 2 t = slabSums (iblk m c 0 t) (iblk m c 1 t) := by dsimp only [dats]

/-- The block the proof data reads off an array is the block read off `V`. -/
theorem blockOf_eq (c : Dev nD) (w : Fin cfg0.W) (t : Fin cfg0.N) : (dats m 0 c).blockOf w t = iblk m c w t := by
  unfold Dat.blockOf iblk; rw [A_eq]

/-- When the body runs at point `t`, the first window's current buffer holds the block of `x` at `t`: the window is
    fetched at every point into a buffer the body never writes. -/
theorem before_x (c : Dev nD) (t : Fin cfg0.N) (d) : (dats m 0 c).before 0 t d = iblk m c 0 t :=
  ((dats m 0 c).before_in_eq_fetched 0 rfl (fun _ => rfl) (fun _ _ _ => rfl)
      (fun t => by rw [after_x, blockOf_eq]; try rfl) t d).trans
    (by unfold Dat.fetched; rw [blockOf_eq]; try rfl)

/-- The second window's buffer holds the whole table at every point: it is fetched at the first point only, its
    index never moves, and the body never writes it. -/
theorem before_tab (c : Dev nD) (t : Fin cfg0.N) (d) : (dats m 0 c).before 1 t d = iblk m c 1 t :=
  ((dats m 0 c).before_in_eq_fetched 1 rfl (fun _ => rfl) (fun _ _ _ => rfl)
      (fun t => by rw [after_tab, blockOf_eq]; try rfl) t d).trans
    (by unfold Dat.fetched; rw [blockOf_eq]; try rfl)

/-! ## The body at a grid point -/

set_option maxHeartbeats 800000 in
/-- At any point `t`: from the invariant, nothing owed, and the three windows' current buffers — the inputs at their
    blocks, the output at anything — the body runs to the same with the output buffer at `slabSums` of the blocks. -/
theorem point_run (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t))) := by
  simp only [before_x, before_tab]
  rw [show (dats m 0 c).Φ t.succ = (dats m 0 c).Φ t.castSucc from rfl,
    show (dats m 0 c).owesAt () t.succ = (dats m 0 c).owesAt () t.castSucc from rfl,
    after_x, after_tab, after_out]
  iintro ⟨HΦ, Ho, ⟨%dx, Hx⟩, ⟨%dt, Ht⟩, ⟨%dy, Hy⟩⟩
  iapply (body_run c Set.univ (grid0.coords t) _ _ _ _ _ _ (iblk m c 0 t) (iblk m c 1 t) _)
  isplitl [Hx]; · iexact Hx
  isplitl [Ht]; · iexact Ht
  isplitl [Hy]; · iexists _; iexact Hy
  iintro ⟨Hx, Ht, Hy⟩
  isplitl [HΦ]; · iexact HΦ
  isplitl [Ho]; · iexact Ho
  isplitl [Hx]; · iexact Hx
  isplitl [Ht]; · iexact Ht
  iexact Hy

/-- The library's obligation on the body, at every point. -/
theorem body_obligation (c : Dev nD) :
    BodyObligation (dats (F := F) m 0 c) (defs₀ (F := F)) Variants.none () Set.univ := fun t => by
  rw [bigSep_W0, bigSep_W0]
  exact point_run m c t

/-! ## The run and the frame -/

-- the launch theorem's implicit arguments are found by unifying its conclusion with the statement, which needs
-- plain definitions unfolded inside the type of a metavariable
set_option backward.isDefEq.respectTransparency.types false in
/-- From any memory with zero counters every weakly fair run of the program on the tensor cores terminates, each
    window's array then holds what the pipeline's write-backs of `dats` make of it, and every other unscoped buffer
    what the region found in it. -/
theorem run_main :
    θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Both argument arrays end as they started: x is an input window's array, which the pipeline only reads, and the
    region found it as launched; w is no window's array, so it bypasses the region, and no host operation wrote it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans ((((dats m 0 c).arrAt_in 0 rfl _).trans (A_eq m c 0)).trans (V_main_arg0 m c)),
      ((h c).2 main_arg1 (Pipeline.mem_restRefs_of main_arg1 (by decide) (by decide))).trans (V_main_arg1 m c)⟩)
    (run_main m ρ)

end Cert.Kernel.Hand

end
-- ==== Proof.KernelIdealFrame.lean ====
/-
  The frame of the program, and what its kernel leaves behind.

  The program is a straight line of host operations (sign of the weights, the layout operations that make the
  64 x 64 square, its 31 rolled copies gathered into the table) followed by ONE pipelined region over a grid of
  32 points, point t working on batch rows 8t .. 8t+7. None of the host operations writes either argument array,
  the region's pipeline only reads the first argument (x) block by block, and the second (w) is no window of it:
  so both arrays end as they started. That is the frame.

  At a grid point the kernel body reads the whole table once and then, for each of the eight batch rows k of its
  input block in turn, multiplies row k entrywise by the table, sums over the 31 channels and writes the 64 x 64
  result as row k of its output block. Before each write it also reads that row of the output block; the value read
  is never used, so whatever the block held before does not matter. The eight rows written tile the output block,
  hence the block afterwards is determined by the eight writes alone: `slabSums`.
-/
import proofs.«156092_j55533927137718_2_alg».proof.Proof.Gen.KernelIdeal.Launch
import proofs.«156092_j55533927137718_2_alg».proof.Proof.Gen.KernelIdeal.Skeleton
import proofs.«156092_j55533927137718_2_alg».proof.Proof.Gen.KernelIdeal.Points
import Idealize.ShloMosaic.Lib.Pipeline.FrameBody
import Idealize.ShloMosaic.Lib.Ring
import Idealize.ShloMosaic.Lib.Tactic

-- membership of an index in a rectangle with extents 64 x 64 x 31 is checked one coordinate at a time
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The host operations before the region, stretch by stretch, in program order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

/-- What core `c`'s buffers hold when the region is entered: the launch contents carried through every host
    operation in order. -/
abbrev V (c : Dev nD) (b : Ref sig .tc) : Buf (Elt F) ((c : Thread nD τ).loc b) :=
  StableHlo.after (stretches (F := F)).flatten (fun b => m (c, b)) b

/-- Every host operation touches buffers of the tensor core only. -/
theorem stretches_sub :
    (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub⟩

/-- No host operation allocates a buffer of its own. -/
theorem stretches_fresh : (stretches (F := F)).Forall fun ops => ops.Forall fun op => op.fresh = ∅ := by
  simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.Forall]
  repeat' constructor

/-- The program is its host operations followed by the region, so the region starts from `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh (fun c => main_chain c)

/-- A buffer that is the result of none of the host operations is found by the region as launched. Each operation
    writes exactly its result buffer, and the argument arrays are the result of none. -/
theorem untouched (c : Dev nD) (b : Ref sig .tc)
    (hb : ∀ op ∈ (stretches (F := F)).flatten, (Proc.devRef (τ := τ) .tc b) ∉ op.writes) :
    V m c b = m ((c : Thread nD τ).loc b) :=
  StableHlo.after_of_forall_not_mem (b := Proc.devRef .tc b) _ _ hb

theorem V_main_arg0 (c : Dev nD) : V m c main_arg0 = m ((c : Thread nD τ).loc main_arg0) :=
  untouched m c main_arg0 (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.unary_writes, StableHlo.binary_writes, StableHlo.reshape_writes,
      StableHlo.nary_writes, Finset.mem_singleton]
    repeat' apply And.intro
    all_goals exact StableHlo.devRef_ne_of_ne (by decide)))

theorem V_main_arg1 (c : Dev nD) : V m c main_arg1 = m ((c : Thread nD τ).loc main_arg1) :=
  untouched m c main_arg1 (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.unary_writes, StableHlo.binary_writes, StableHlo.reshape_writes,
      StableHlo.nary_writes, Finset.mem_singleton]
    repeat' apply And.intro
    all_goals exact StableHlo.devRef_ne_of_ne (by decide)))

/-! ## The blocks the windows show the body -/

/-- Window `w`'s block at grid point `t`: the part of its array, as the region finds it, that the window's
    index map selects at `t`. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## What the body leaves in the output block -/

/-- The whole table. -/
abbrev tabAll : Rect S64x64x31 :=
  Rect.unit (s := S64x64x31) ![0, 0, 0] S64x64x31.size inb_S64x64x31_S64x64x31_0_0_0

/-- Batch row k of the input block: all 64 x 64 x 31 entries of it. -/
abbrev xrow0 : Rect S8x64x64x31 := Rect.unit (s := S8x64x64x31) ![0, 0, 0, 0] S1x64x64x31.size inb_S8x64x64x31_S1x64x64x31_0_0_0_0
abbrev xrow1 : Rect S8x64x64x31 := Rect.unit (s := S8x64x64x31) ![1, 0, 0, 0] S1x64x64x31.size inb_S8x64x64x31_S1x64x64x31_1_0_0_0
abbrev xrow2 : Rect S8x64x64x31 := Rect.unit (s := S8x64x64x31) ![2, 0, 0, 0] S1x64x64x31.size inb_S8x64x64x31_S1x64x64x31_2_0_0_0
abbrev xrow3 : Rect S8x64x64x31 := Rect.unit (s := S8x64x64x31) ![3, 0, 0, 0] S1x64x64x31.size inb_S8x64x64x31_S1x64x64x31_3_0_0_0
abbrev xrow4 : Rect S8x64x64x31 := Rect.unit (s := S8x64x64x31) ![4, 0, 0, 0] S1x64x64x31.size inb_S8x64x64x31_S1x64x64x31_4_0_0_0
abbrev xrow5 : Rect S8x64x64x31 := Rect.unit (s := S8x64x64x31) ![5, 0, 0, 0] S1x64x64x31.size inb_S8x64x64x31_S1x64x64x31_5_0_0_0
abbrev xrow6 : Rect S8x64x64x31 := Rect.unit (s := S8x64x64x31) ![6, 0, 0, 0] S1x64x64x31.size inb_S8x64x64x31_S1x64x64x31_6_0_0_0
abbrev xrow7 : Rect S8x64x64x31 := Rect.unit (s := S8x64x64x31) ![7, 0, 0, 0] S1x64x64x31.size inb_S8x64x64x31_S1x64x64x31_7_0_0_0

/-- Batch row k of the output block: all 64 x 64 entries of it. -/
abbrev yrow0 : Rect S8x64x64 := Rect.unit (s := S8x64x64) ![0, 0, 0] S1x64x64.size inb_S8x64x64_S1x64x64_0_0_0
abbrev yrow1 : Rect S8x64x64 := Rect.unit (s := S8x64x64) ![1, 0, 0] S1x64x64.size inb_S8x64x64_S1x64x64_1_0_0
abbrev yrow2 : Rect S8x64x64 := Rect.unit (s := S8x64x64) ![2, 0, 0] S1x64x64.size inb_S8x64x64_S1x64x64_2_0_0
abbrev yrow3 : Rect S8x64x64 := Rect.unit (s := S8x64x64) ![3, 0, 0] S1x64x64.size inb_S8x64x64_S1x64x64_3_0_0
abbrev yrow4 : Rect S8x64x64 := Rect.unit (s := S8x64x64) ![4, 0, 0] S1x64x64.size inb_S8x64x64_S1x64x64_4_0_0
abbrev yrow5 : Rect S8x64x64 := Rect.unit (s := S8x64x64) ![5, 0, 0] S1x64x64.size inb_S8x64x64_S1x64x64_5_0_0
abbrev yrow6 : Rect S8x64x64 := Rect.unit (s := S8x64x64) ![6, 0, 0] S1x64x64.size inb_S8x64x64_S1x64x64_6_0_0
abbrev yrow7 : Rect S8x64x64 := Rect.unit (s := S8x64x64) ![7, 0, 0] S1x64x64.size inb_S8x64x64_S1x64x64_7_0_0

/-- The output block after the body, from the input block `x` and the table `tb`: row k holds the sums over the
    31 channels of row k of `x` times the table. The rows are written in the order 0, …, 7; the list has the last
    write first. (The body's first three rows use the table as loaded, the others the same table passed on
    between the two halves of the body; row 6's sum is computed in the first half-step and written in the second.) -/
def slabSums (x : Vec F S8x64x64x31 .f32) (tb : Vec F S64x64x31 .f32) : Vec F S8x64x64 .f32 :=
  View.canon [
    ⟨yrow7, k0_pay2 (k0_pay3 (View.ld tb tabAll)) (View.ld x xrow7)⟩,
    ⟨yrow6, k0_pay1 (k0_pay10 (k0_pay3 (View.ld tb tabAll)) (View.ld x xrow6))⟩,
    ⟨yrow5, k0_pay9 (k0_pay3 (View.ld tb tabAll)) (View.ld x xrow5)⟩,
    ⟨yrow4, k0_pay8 (k0_pay3 (View.ld tb tabAll)) (View.ld x xrow4)⟩,
    ⟨yrow3, k0_pay7 (k0_pay3 (View.ld tb tabAll)) (View.ld x xrow3)⟩,
    ⟨yrow2, k0_pay6 (View.ld tb tabAll) (View.ld x xrow2)⟩,
    ⟨yrow1, k0_pay5 (View.ld tb tabAll) (View.ld x xrow1)⟩,
    ⟨yrow0, k0_pay4 (View.ld tb tabAll) (View.ld x xrow0)⟩]

/-- The eight rows tile the 8 x 64 x 64 block in pieces of 1 x 64 x 64, so every index of the block lies in one. -/
theorem rows_cover (p0 p1 p2 p3 p4 p5 p6 p7 : Vec F S1x64x64 .f32) (y : S8x64x64.Idx) :
    ∃ pc ∈ ([⟨yrow7, p7⟩, ⟨yrow6, p6⟩, ⟨yrow5, p5⟩, ⟨yrow4, p4⟩, ⟨yrow3, p3⟩, ⟨yrow2, p2⟩, ⟨yrow1, p1⟩, ⟨yrow0, p0⟩] :
      List (View.Piece (Elt F) S8x64x64 .f32)), y ∈ pc.1.set :=
  View.cover_of_tiled (s := S8x64x64) [⟨yrow7, p7⟩, ⟨yrow6, p6⟩, ⟨yrow5, p5⟩, ⟨yrow4, p4⟩, ⟨yrow3, p3⟩, ⟨yrow2, p2⟩, ⟨yrow1, p1⟩, ⟨yrow0, p0⟩]
    (S1x64x64.size : Fin S8x64x64.rank → ℕ) (by rfl) y

set_option maxHeartbeats 1000000 in
/-- The body, run on three whole buffers holding `x`, `tb` and anything at all, leaves the first two as they were
    and the third at `slabSums x tb`: each step is a load or a store through a fixed rectangle; the eight loads of
    the third buffer read values nobody uses; after the eight stores every index has been overwritten. -/
theorem body_run (c : Dev nD) (E : Set ℕ) (i : grid0.Coords)
    (a1 : Memref sig .tc .vmem S8x64x64x31 .f32) (h1 : a1.IsWhole)
    (a2 : Memref sig .tc .vmem S64x64x31 .f32) (h2 : a2.IsWhole)
    (a3 : Memref sig .tc .vmem S8x64x64 .f32) (h3 : a3.IsWhole)
    (x : Vec F S8x64x64x31 .f32) (tb : Vec F S64x64x31 .f32) (K : PUnit → sProp 𝕄) :
    iprop(owns (c : Thread nD τ) a1 fullShare x ∗ owns (c : Thread nD τ) a2 fullShare tb
        ∗ (∃ d, owns (c : Thread nD τ) a3 fullShare d)
        ∗ (iprop(owns (c : Thread nD τ) a1 fullShare x ∗ owns (c : Thread nD τ) a2 fullShare tb
            ∗ owns (c : Thread nD τ) a3 fullShare (slabSums x tb)) -∗ K ⟨⟩))
      ⊢ wp frame (wpE (defs₀ (F := F)) Variants.none c none) E (cc0__kernel i a1 h1 a2 h2 a3 h3) K := by
  simp only [cc0__kernel_eq_skeleton]; unfold cc0__kernel_skel
  simp only [k0_part1_eq_skeleton, k0_part2_eq_skeleton]; unfold k0_part1_skel k0_part2_skel
  unfold owns
  iintro ⟨⟨%fx, %hfx, Hx⟩, ⟨%ft, %hft, Ht⟩, ⟨%junk, %fy, -, Hy⟩, Hk⟩
  subst hfx hft
  sl_exec
  sl_step
  iapply Hk
  isplitl [Hx]
  · iexists fx; isplitr; · ipureintro; rfl
    iexact Hx
  isplitl [Ht]
  · iexists ft; isplitr; · ipureintro; rfl
    iexact Ht
  iexists _; isplitr
  swap; · iexact Hy
  ipureintro
  exact View.read_writes_eq_canon _ _ _ (rows_cover _ _ _ _ _ _ _ _)

/-! ## The proof data of the pipeline -/

/-- On core `c`: the arrays as the region finds them; after the body at point `t` the two input windows still hold
    their blocks and the output window holds `slabSums` of them; the body keeps nothing of its own between points
    and signals no one. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => slabSums (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_tab (c : Dev nD) (t : Fin cfg0.N) : (dats m 0 c).after 1 t = iblk m c 1 t := by dsimp only [dats]
theorem after_out (c : Dev nD) (t : Fin cfg0.N) :
    (dats m 0 c).after 2 t = slabSums (iblk m c 0 t) (iblk m c 1 t) := by dsimp only [dats]

/-- The block the proof data reads off an array is the block read off `V`. -/
theorem blockOf_eq (c : Dev nD) (w : Fin cfg0.W) (t : Fin cfg0.N) : (dats m 0 c).blockOf w t = iblk m c w t := by
  unfold Dat.blockOf iblk; rw [A_eq]

/-- When the body runs at point `t`, the first window's current buffer holds the block of `x` at `t`: the window is
    fetched at every point into a buffer the body never writes. -/
theorem before_x (c : Dev nD) (t : Fin cfg0.N) (d) : (dats m 0 c).before 0 t d = iblk m c 0 t :=
  ((dats m 0 c).before_in_eq_fetched 0 rfl (fun _ => rfl) (fun _ _ _ => rfl)
      (fun t => by rw [after_x, blockOf_eq]; try rfl) t d).trans
    (by unfold Dat.fetched; rw [blockOf_eq]; try rfl)

/-- The second window's buffer holds the whole table at every point: it is fetched at the first point only, its
    index never moves, and the body never writes it. -/
theorem before_tab (c : Dev nD) (t : Fin cfg0.N) (d) : (dats m 0 c).before 1 t d = iblk m c 1 t :=
  ((dats m 0 c).before_in_eq_fetched 1 rfl (fun _ => rfl) (fun _ _ _ => rfl)
      (fun t => by rw [after_tab, blockOf_eq]; try rfl) t d).trans
    (by unfold Dat.fetched; rw [blockOf_eq]; try rfl)

/-! ## The body at a grid point -/

set_option maxHeartbeats 800000 in
/-- At any point `t`: from the invariant, nothing owed, and the three windows' current buffers — the inputs at their
    blocks, the output at anything — the body runs to the same with the output buffer at `slabSums` of the blocks. -/
theorem point_run (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t))) := by
  simp only [before_x, before_tab]
  rw [show (dats m 0 c).Φ t.succ = (dats m 0 c).Φ t.castSucc from rfl,
    show (dats m 0 c).owesAt () t.succ = (dats m 0 c).owesAt () t.castSucc from rfl,
    after_x, after_tab, after_out]
  iintro ⟨HΦ, Ho, ⟨%dx, Hx⟩, ⟨%dt, Ht⟩, ⟨%dy, Hy⟩⟩
  iapply (body_run c Set.univ (grid0.coords t) _ _ _ _ _ _ (iblk m c 0 t) (iblk m c 1 t) _)
  isplitl [Hx]; · iexact Hx
  isplitl [Ht]; · iexact Ht
  isplitl [Hy]; · iexists _; iexact Hy
  iintro ⟨Hx, Ht, Hy⟩
  isplitl [HΦ]; · iexact HΦ
  isplitl [Ho]; · iexact Ho
  isplitl [Hx]; · iexact Hx
  isplitl [Ht]; · iexact Ht
  iexact Hy

/-- The library's obligation on the body, at every point. -/
theorem body_obligation (c : Dev nD) :
    BodyObligation (dats (F := F) m 0 c) (defs₀ (F := F)) Variants.none () Set.univ := fun t => by
  rw [bigSep_W0, bigSep_W0]
  exact point_run m c t

/-! ## The run and the frame -/

-- the launch theorem's implicit arguments are found by unifying its conclusion with the statement, which needs
-- plain definitions unfolded inside the type of a metavariable
set_option backward.isDefEq.respectTransparency.types false in
/-- From any memory with zero counters every weakly fair run of the program on the tensor cores terminates, each
    window's array then holds what the pipeline's write-backs of `dats` make of it, and every other unscoped buffer
    what the region found in it. -/
theorem run_main :
    θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Both argument arrays end as they started: x is an input window's array, which the pipeline only reads, and the
    region found it as launched; w is no window's array, so it bypasses the region, and no host operation wrote it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans ((((dats m 0 c).arrAt_in 0 rfl _).trans (A_eq m c 0)).trans (V_main_arg0 m c)),
      ((h c).2 main_arg1 (Pipeline.mem_restRefs_of main_arg1 (by decide) (by decide))).trans (V_main_arg1 m c)⟩)
    (run_main m ρ)

end Cert.KernelIdeal.Hand

end
-- ==== Proof.Spec.lean ====
/-
  What both programs compute, as functions of the argument arrays, index by index on the extended reals.

  The weights w (1024 numbers) are replaced by their signs, laid out as a 32×32 square and that square repeated
  2×2 into a 64×64 square `mask`. For channel c the square is rolled down by c rows: row i of the rolled square
  is row (i − c) mod 64 of `mask`. The result at (b, i, j) is the sum over the 31 channels c of
  x(b, i, j, c) · mask((i − c) mod 64, j).
-/
import Idealize.ShloMosaic.PureOps.Ideal
import Idealize.ShloMosaic.Lib.ValueIdx

noncomputable section

namespace Cert.RollMask

open Idealize.ShloMosaic Idealize.ShloMosaic.ValueIdx

/-- Row i moved back by c rows, modulo 64: (i − c) mod 64, written without subtraction. -/
def rollRow (i : Fin 64) (c : Fin 31) : Fin 64 := ⟨(i.val + 64 - c.val) % 64, Nat.mod_lt _ (by norm_num)⟩

theorem rollRow_val (i : Fin 64) (c : Fin 31) : (rollRow i c).val = (i.val + 64 - c.val) % 64 := rfl

/-- Moving back by c and then forward by c is the identity modulo 64. -/
theorem rollRow_add (i : Fin 64) (c : Fin 31) : ((rollRow i c).val + c.val) % 64 = i.val := by
  have hi := i.isLt; have hc := c.isLt
  rw [rollRow_val]; omega

/-- Below c the rolled row comes from the last c rows, from c on from the first 64 − c rows. -/
theorem rollRow_lt (i : Fin 64) (c : Fin 31) (h : i.val < c.val) : (rollRow i c).val = 64 - c.val + i.val := by
  have hi := i.isLt; have hc := c.isLt
  rw [rollRow_val]; omega

theorem rollRow_ge (i : Fin 64) (c : Fin 31) (h : c.val ≤ i.val) : (rollRow i c).val = i.val - c.val := by
  have hi := i.isLt; have hc := c.isLt
  rw [rollRow_val]; omega

/-- The signs of the weights as a 32×32 square repeated 2×2: the chain of layout operations both programs apply
    to sign(w), kept as one function of w (its four shape facts are propositions, so any proofs give the same value). -/
def mask (w : FVec Ideal (⟨1, ![1024]⟩ : Shape) .f32)
    (h1 : (⟨1, ![1024]⟩ : Shape).ShapeCasts ⟨2, ![32, 32]⟩)
    (h2 : (⟨2, ![32, 32]⟩ : Shape).ShapeCasts ⟨4, ![1, 32, 1, 32]⟩)
    (hb : (⟨4, ![1, 32, 1, 32]⟩ : Shape).BroadcastsInDim ⟨4, ![2, 32, 2, 32]⟩ (![0, 1, 2, 3] : Fin 4 → Fin 4))
    (h3 : (⟨4, ![2, 32, 2, 32]⟩ : Shape).ShapeCasts ⟨2, ![64, 64]⟩) :
    FVec Ideal (⟨2, ![64, 64]⟩ : Shape) .f32 :=
  shapeCast ⟨2, ![64, 64]⟩
    (broadcastInDim ⟨4, ![2, 32, 2, 32]⟩ ![0, 1, 2, 3] hb
      (shapeCast ⟨4, ![1, 32, 1, 32]⟩ (shapeCast ⟨2, ![32, 32]⟩ (Host.sign (F := Ideal) w) h1) h2)) h3

/-- The table of rolled squares: entry (i, j, c) is the square at row (i − c) mod 64, column j. -/
def table (sq : (⟨2, ![64, 64]⟩ : Shape).Idx → EReal) : (⟨3, ![64, 64, 31]⟩ : Shape).Idx → EReal :=
  fun q => sq (ix2 (rollRow (q 0) (q 2)) (q 1))

theorem table_apply (sq : (⟨2, ![64, 64]⟩ : Shape).Idx → EReal) (i j : Fin 64) (c : Fin 31) :
    table sq (ix3 i j c) = sq (ix2 (rollRow i c) j) := rfl

/-- The result: at (b, i, j) the sum over the channels c of x(b, i, j, c) · M(i, j, c). -/
def weighted (x : (⟨4, ![256, 64, 64, 31]⟩ : Shape).Idx → EReal) (M : (⟨3, ![64, 64, 31]⟩ : Shape).Idx → EReal) :
    (⟨3, ![256, 64, 64]⟩ : Shape).Idx → EReal :=
  fun o => ∑ c : Fin 31, x (ix4 (o 0) (o 1) (o 2) c) * M (ix3 (o 1) (o 2) c)

theorem weighted_apply (x : (⟨4, ![256, 64, 64, 31]⟩ : Shape).Idx → EReal) (M : (⟨3, ![64, 64, 31]⟩ : Shape).Idx → EReal)
    (b : Fin 256) (i j : Fin 64) :
    weighted x M (ix3 b i j) = ∑ c : Fin 31, x (ix4 b i j c) * M (ix3 i j c) := rfl

end Cert.RollMask

end
-- ==== Proof.LibLastAxis.lean ====
/-
  Three readings along the LAST axis of a rank-3 array [a, b, c], each at an entry written by its coordinates.

  * A sum over the last axis: the array [a, b] of the sums  Σ_{l < c} x(p, q, l).
  * A trailing unit axis added by a recast [a, b] → [a, b, 1]: entry (p, q, 0) is the matrix entry (p, q).
  * Unit-width slabs [a, b, 1] set side by side along the last axis into [a, b, K]: entry (p, q, j) of the result is
    entry (p, q, 0) of the j-th slab.  The slab is named by an equation  xs[j]? = some ⟨shape, x⟩,  which for a
    literal list and a literal j is decided by walking the list; that the j slabs before it have width one each is a
    sum over the literal prefix.
  Nothing here depends on what the entries are.
-/
import Idealize.ShloMosaic.Lib.ValueIdx
import Idealize.ShloMosaic.Lib.Pipeline.Value
import Idealize.ShloMosaic.PureOps.Ideal.Laws

noncomputable section

open scoped BigOperators

namespace Cert.LibLastAxis

open Idealize.ShloMosaic Idealize.ShloMosaic.ValueIdx

/-- Over a result entry (p, q), the source index with l inserted on the last axis is (p, q, l). -/
theorem lift_last {a b c : ℕ} (h : (⟨3, ![a, b, c]⟩ : Shape).Reduces [(2 : Fin 3)] ⟨2, ![a, b]⟩)
    (p : Fin a) (q : Fin b) (l : Fin c) : h.lift (ix2 p q) l = ix3 p q l := by
  funext d
  refine Fin.ext ?_
  match d with
  | ⟨0, _⟩ => rfl
  | ⟨1, _⟩ => rfl
  | ⟨2, _⟩ => rfl

/-- A sum over the last axis, on the extended reals, read at (p, q). -/
theorem laneSum_at {a b c : ℕ} (src : FVec Ideal ⟨3, ![a, b, c]⟩ .f32) (acc : BitVec 32)
    (h : (⟨3, ![a, b, c]⟩ : Shape).Reduces [(2 : Fin 3)] ⟨2, ![a, b]⟩) (hφ : FKind.Formats .f32)
    (hacc : acc = FKind.add.neutral .f32 hφ) (p : Fin a) (q : Fin b) :
    multiReduction .add [(2 : Fin 3)] ⟨2, ![a, b]⟩ src acc h hφ hacc (ix2 p q) = ∑ l : Fin c, src (ix3 p q l) := by
  rw [Ideal.multiReduction_add_single]
  exact Finset.sum_congr rfl fun l _ => congrArg src (lift_last h p q l)

variable {α : Type}

/-- A trailing unit axis added: entry (p, q, 0) of the recast is entry (p, q) of the matrix. -/
theorem addLast_at {a b : ℕ} (x : (⟨2, ![a, b]⟩ : Shape).Idx → α)
    (h : (⟨2, ![a, b]⟩ : Shape).ShapeCasts ⟨3, ![a, b, 1]⟩) (p : Fin a) (q : Fin b) :
    shapeCast ⟨3, ![a, b, 1]⟩ x h (ix3 p q (0 : Fin 1)) = x (ix2 p q) := by
  refine shapeCast_apply x h _ _ ?_
  rw [Shape.rowMajor_val_three, Shape.rowMajor_val_two]
  show p.val * b + q.val = (p.val * b + q.val) * 1 + 0
  omega

/-- The extents of the pieces along axis `ax` of the result, as the library's lemma sums them. -/
abbrev extents {t : Shape} (ax : Fin t.rank) (ss : List Shape) : List Nat :=
  ss.map fun s => if h : s.rank = t.rank then s.size (ax.cast h.symm) else 0

/-- Unit-width slabs side by side along the last axis: entry (p, q, j) is entry (p, q, 0) of the j-th slab. -/
theorem unitSlabs_at {a b K : ℕ} (xs : List ((s : Shape) × (s.Idx → α)))
    (h : Shape.Concatenates (xs.map (·.1)) ⟨3, ![a, b, K]⟩ (2 : Fin 3)) (p : Fin a) (q : Fin b) (j : Fin K)
    (x₁ : (⟨3, ![a, b, 1]⟩ : Shape).Idx → α) (hxk : xs[j.val]? = some ⟨⟨3, ![a, b, 1]⟩, x₁⟩)
    (hpre : (extents (t := ⟨3, ![a, b, K]⟩) (2 : Fin 3) ((xs.take j.val).map (·.1))).sum = j.val) :
    concatenate ⟨3, ![a, b, K]⟩ (2 : Fin 3) xs h (ix3 p q j) = x₁ (ix3 p q (0 : Fin 1)) := by
  obtain ⟨hk, hxk'⟩ := List.getElem?_eq_some_iff.mp hxk
  exact concatenate_apply_piece (t := ⟨3, ![a, b, K]⟩) (2 : Fin 3) xs h (ix3 p q j) j.val hk ⟨3, ![a, b, 1]⟩ x₁ hxk' rfl
    j.val hpre (ix3 p q (0 : Fin 1))
    (fun d hd => by
      match d with
      | ⟨0, _⟩ => rfl
      | ⟨1, _⟩ => rfl
      | ⟨2, _⟩ => exact absurd rfl hd) rfl

end Cert.LibLastAxis

end
-- ==== Proof.KernelPayload.lean ====
/-
  The kernel body's arithmetic, read at an entry on the extended reals.

  At each of its eight steps the body takes one slab s of the x block (shape [1, 64, 64, 31]) and the whole weight
  table tb (shape [64, 64, 31]), multiplies them entry by entry, sums over the last axis, and stores the [1, 64, 64]
  result. Every step stores the same function of (tb, s): at (0, i, j) it is Σ_c s(0, i, j, c) · tb(i, j, c).
-/
import proofs.«156092_j55533927137718_2_alg».proof.Proof.Gen.KernelIdeal.Skeleton
import proofs.«156092_j55533927137718_2_alg».proof.Proof.LibLastAxis
import Idealize.ShloMosaic.Lib.ValueLayout

noncomputable section

namespace Cert.KernelIdeal.Payload

open Idealize.ShloMosaic Idealize.ShloMosaic.ValueIdx Cert.KernelIdeal Cert.KernelIdeal.Gen

/-- One step's stored value as a function of the table and the slab. -/
def slabSum (tb : Vec Ideal S64x64x31 .f32) (s : Vec Ideal S1x64x64x31 .f32) : FVec Ideal S1x64x64 .f32 :=
  shapeCast S1x64x64
    (multiReduction (F := Ideal) .add [2] S64x64
      (mulf (shapeCast S64x64x31 s shapeCasts_S1x64x64x31_S64x64x31) (shapeCast S64x64x31 tb shapeCasts_S64x64x31_S64x64x31))
      0x00000000#32 reduces_S64x64x31_S64x64 (.inl rfl) rfl)
    shapeCasts_S64x64_S1x64x64

/-- The eight stored values are that one function (the table enters steps 3 to 7 through its identity recast). -/
theorem pay4_eq (tb : Vec Ideal S64x64x31 .f32) (s : Vec Ideal S1x64x64x31 .f32) : k0_pay4 (F := Ideal) tb s = slabSum tb s := rfl
theorem pay5_eq (tb : Vec Ideal S64x64x31 .f32) (s : Vec Ideal S1x64x64x31 .f32) : k0_pay5 (F := Ideal) tb s = slabSum tb s := rfl
theorem pay6_eq (tb : Vec Ideal S64x64x31 .f32) (s : Vec Ideal S1x64x64x31 .f32) : k0_pay6 (F := Ideal) tb s = slabSum tb s := rfl
theorem pay7_eq (tb : Vec Ideal S64x64x31 .f32) (s : Vec Ideal S1x64x64x31 .f32) : k0_pay7 (F := Ideal) (k0_pay3 tb) s = slabSum tb s := rfl
theorem pay8_eq (tb : Vec Ideal S64x64x31 .f32) (s : Vec Ideal S1x64x64x31 .f32) : k0_pay8 (F := Ideal) (k0_pay3 tb) s = slabSum tb s := rfl
theorem pay9_eq (tb : Vec Ideal S64x64x31 .f32) (s : Vec Ideal S1x64x64x31 .f32) : k0_pay9 (F := Ideal) (k0_pay3 tb) s = slabSum tb s := rfl
theorem pay1_eq (tb : Vec Ideal S64x64x31 .f32) (s : Vec Ideal S1x64x64x31 .f32) :
    k0_pay1 (F := Ideal) (k0_pay10 (k0_pay3 tb) s) = slabSum tb s := rfl
theorem pay2_eq (tb : Vec Ideal S64x64x31 .f32) (s : Vec Ideal S1x64x64x31 .f32) : k0_pay2 (F := Ideal) (k0_pay3 tb) s = slabSum tb s := rfl

/-- The stored value at (u, i, j): the sum over the channels of slab · table. -/
theorem slabSum_at (tb : Vec Ideal S64x64x31 .f32) (s : Vec Ideal S1x64x64x31 .f32) (u : Fin 1) (i j : Fin 64) :
    slabSum tb s (ix3 u i j) = ∑ c : Fin 31, s (ix4 (0 : Fin 1) i j c) * tb (ix3 i j c) := by
  unfold slabSum
  refine (shapeCast_ab_1ab_apply _ _ u i j).trans ?_
  refine (Cert.LibLastAxis.laneSum_at _ _ _ _ _ i j).trans ?_
  refine Finset.sum_congr rfl fun c _ => ?_
  rw [mulf_apply, shapeCast_1abc_abc_apply, Idealize.ShloMosaic.shapeCast_self]

end Cert.KernelIdeal.Payload

end
-- ==== Proof.KernelValue.lean ====
/-
  The value the kernel program computes on the extended reals.

  At grid point t the body leaves in its output block, row by row, the sums over the 31 channels of the input block
  times the table: (k, i, j) ↦ Σ_c x(k, i, j, c) · tb(i, j, c). The input block at t is batch rows 8t .. 8t+7 of x, the
  output block is the same batch rows of the result, and the table's block is the whole table at every point. So what
  point t writes back is batch rows 8t .. 8t+7 of the one function (b, i, j) ↦ Σ_c x(b, i, j, c) · tb(i, j, c) of the
  whole arrays. The 32 blocks of 8 rows fill all 256 batch rows, hence the result array is that function everywhere.
-/
import proofs.«156092_j55533927137718_2_alg».proof.Proof.KernelIdealFrame
import proofs.«156092_j55533927137718_2_alg».proof.Proof.Spec
import proofs.«156092_j55533927137718_2_alg».proof.Proof.KernelPayload
import Idealize.ShloMosaic.Lib.Pipeline.Value

set_option maxRecDepth 16384

noncomputable section

namespace Cert.KernelIdeal.HandValue

open Cert.KernelIdeal Cert.KernelIdeal.Gen Cert.KernelIdeal.Hand Cert.KernelIdeal.Payload
open Idealize.ShloMosaic Idealize.ShloMosaic.TcCoe Idealize.ShloMosaic.ValueIdx Idealize.SL.Sem
open Idealize.ShloMosaic.Pipeline (Dat)

/-- Row sums of a block: at (k, i, j) the sum over the 31 channels c of x(k, i, j, c) · tb(i, j, c). -/
def rowSum (x : Vec Ideal S8x64x64x31 .f32) (tb : Vec Ideal S64x64x31 .f32) : Vec Ideal S8x64x64 .f32 :=
  fun y => ∑ c : Fin 31, x (ix4 (y 0) (y 1) (y 2) c) * tb (ix3 (y 1) (y 2) c)

set_option maxHeartbeats 50000 in
/-- One written row: the stored value of batch row K of the block, at its own index (u, i, j), is the row sum of the
    block at the place (K, i, j) the row occupies in it. -/
theorem row_piece (x : Vec Ideal S8x64x64x31 .f32) (tb : Vec Ideal S64x64x31 .f32) (K : ℕ)
    (h3 : ∀ a, (![K, 0, 0] : Fin 3 → ℕ) a + S1x64x64.size a ≤ S8x64x64.size a)
    (h4 : ∀ a, (![K, 0, 0, 0] : Fin 4 → ℕ) a + S1x64x64x31.size a ≤ S8x64x64x31.size a)
    (u : Fin 1) (i j : Fin 64) :
    slabSum (View.ld tb tabAll) (View.ld x (Rect.unit (s := S8x64x64x31) ![K, 0, 0, 0] S1x64x64x31.size h4)) (ix3 u i j)
      = rowSum x tb ((Rect.unit (s := S8x64x64) ![K, 0, 0] S1x64x64.size h3).emb (ix3 u i j)) := by
  rw [slabSum_at]
  unfold rowSum
  refine Finset.sum_congr rfl fun c _ => ?_
  show x ((Rect.unit (s := S8x64x64x31) ![K, 0, 0, 0] S1x64x64x31.size h4).idx (ix4 (0 : Fin 1) i j c)) * tb (tabAll.idx (ix3 i j c)) = _
  have hu : u.val = 0 := by omega
  congr 2
  · funext a; apply Fin.ext
    match a with
    | ⟨0, _⟩ => show K + 1 * 0 = K + 1 * u.val; omega
    | ⟨1, _⟩ => show 0 + 1 * i.val = 0 + 1 * i.val; rfl
    | ⟨2, _⟩ => show 0 + 1 * j.val = 0 + 1 * j.val; rfl
    | ⟨3, _⟩ => show 0 + 1 * c.val = c.val; omega
  · funext a; apply Fin.ext
    match a with
    | ⟨0, _⟩ => show 0 + 1 * i.val = 0 + 1 * i.val; rfl
    | ⟨1, _⟩ => show 0 + 1 * j.val = 0 + 1 * j.val; rfl
    | ⟨2, _⟩ => show 0 + 1 * c.val = c.val; omega

/-- The block the body leaves is the block of row sums: each of the eight written rows is the row sums' restriction to
    its place, and the rows cover the block. -/
theorem slabSums_eq (x : Vec Ideal S8x64x64x31 .f32) (tb : Vec Ideal S64x64x31 .f32) : slabSums x tb = rowSum x tb := by
  funext y
  unfold slabSums
  refine View.canon_apply_of_pieces (rowSum x tb) _ ?_ y (rows_cover _ _ _ _ _ _ _ _ y)
  intro p hp x'
  simp only [List.mem_cons, List.not_mem_nil, or_false] at hp
  rcases hp with rfl | rfl | rfl | rfl | rfl | rfl | rfl | rfl
  · rw [pay2_eq, eq_ix3 x']; exact row_piece x tb 7 inb_S8x64x64_S1x64x64_7_0_0 inb_S8x64x64x31_S1x64x64x31_7_0_0_0 _ _ _
  · rw [pay1_eq, eq_ix3 x']; exact row_piece x tb 6 inb_S8x64x64_S1x64x64_6_0_0 inb_S8x64x64x31_S1x64x64x31_6_0_0_0 _ _ _
  · rw [pay9_eq, eq_ix3 x']; exact row_piece x tb 5 inb_S8x64x64_S1x64x64_5_0_0 inb_S8x64x64x31_S1x64x64x31_5_0_0_0 _ _ _
  · rw [pay8_eq, eq_ix3 x']; exact row_piece x tb 4 inb_S8x64x64_S1x64x64_4_0_0 inb_S8x64x64x31_S1x64x64x31_4_0_0_0 _ _ _
  · rw [pay7_eq, eq_ix3 x']; exact row_piece x tb 3 inb_S8x64x64_S1x64x64_3_0_0 inb_S8x64x64x31_S1x64x64x31_3_0_0_0 _ _ _
  · rw [pay6_eq, eq_ix3 x']; exact row_piece x tb 2 inb_S8x64x64_S1x64x64_2_0_0 inb_S8x64x64x31_S1x64x64x31_2_0_0_0 _ _ _
  · rw [pay5_eq, eq_ix3 x']; exact row_piece x tb 1 inb_S8x64x64_S1x64x64_1_0_0 inb_S8x64x64x31_S1x64x64x31_1_0_0_0 _ _ _
  · rw [pay4_eq, eq_ix3 x']; exact row_piece x tb 0 inb_S8x64x64_S1x64x64_0_0_0 inb_S8x64x64x31_S1x64x64x31_0_0_0_0 _ _ _

/-! ## From blocks to the array -/

variable (m : (ℓ : Loc nD τ sig) → Buf (Elt Ideal) ℓ) (ρ : Dev nD → PrngReg)

/-- The three index maps over the grid: at point t the input block and the output block are both the t-th along the
    batch axis and the first along every other axis; the table's block is always the first. -/
theorem index_maps : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- What point t writes back is block t of the weighted sums of the two arrays as the region finds them. -/
theorem flushed_eq (c : Dev nD) (t : Fin cfg0.N) :
    (dats m 0 c).flushed 2 t
      = ((cfg0.win 2).blk t).view.read (Elt Ideal) (Cert.RollMask.weighted (V m c main_arg0) (V m c main_v69)) := by
  show (cfg0.win 2).cut (grid0.coords t) ((dats m 0 c).after 2 t) = _
  rw [after_out]
  obtain ⟨a0, a1, a2, a3, b0, b1, b2, o0, o1, o2⟩ := index_maps t
  funext y
  show slabSums (iblk m c 0 t) (iblk m c 1 t) y
    = Cert.RollMask.weighted (V m c main_arg0) (V m c main_v69) (((cfg0.win 2).blk t).view.emb y)
  refine (congrFun (slabSums_eq _ _) y).trans ?_
  unfold rowSum Cert.RollMask.weighted
  refine Finset.sum_congr rfl fun ch _ => ?_
  have hy0 : (y 0).val < 8 := (y 0).isLt
  have hy1 : (y 1).val < 64 := (y 1).isLt
  have hy2 : (y 2).val < 64 := (y 2).isLt
  refine congrArg₂ (fun p q : EReal => p * q) ?_ ?_
  · show V m c main_arg0 (((cfg0.win 0).blk t).view.emb (ix4 (y 0) (y 1) (y 2) ch)) = V m c main_arg0 _
    refine congrArg _ ?_
    funext a; apply Fin.ext
    match a with
    | ⟨0, _⟩ => show win0_0.index t (0 : Fin 4) * 8 + 1 * (y 0).val = win0_2.index t (0 : Fin 3) * 8 + 1 * (y 0).val; omega
    | ⟨1, _⟩ => show win0_0.index t (1 : Fin 4) * 64 + 1 * (y 1).val = win0_2.index t (1 : Fin 3) * 64 + 1 * (y 1).val; omega
    | ⟨2, _⟩ => show win0_0.index t (2 : Fin 4) * 64 + 1 * (y 2).val = win0_2.index t (2 : Fin 3) * 64 + 1 * (y 2).val; omega
    | ⟨3, _⟩ => show win0_0.index t (3 : Fin 4) * 31 + 1 * ch.val = ch.val; omega
  · show V m c main_v69 (((cfg0.win 1).blk t).view.emb (ix3 (y 1) (y 2) ch)) = V m c main_v69 _
    refine congrArg _ ?_
    funext a; apply Fin.ext
    match a with
    | ⟨0, _⟩ => show win0_1.index t (0 : Fin 3) * 64 + 1 * (y 1).val = win0_2.index t (1 : Fin 3) * 64 + 1 * (y 1).val; omega
    | ⟨1, _⟩ => show win0_1.index t (1 : Fin 3) * 64 + 1 * (y 2).val = win0_2.index t (2 : Fin 3) * 64 + 1 * (y 2).val; omega
    | ⟨2, _⟩ => show win0_1.index t (2 : Fin 3) * 31 + 1 * ch.val = ch.val; omega

/-- An index of the output array lies in point t's block iff each coordinate lies in the block's range on its axis. -/
theorem mem_blk (t : Fin cfg0.N) (i : S256x64x64.Idx) :
    i ∈ ((cfg0.win 2).blk t).view.set ↔ ∀ a : Fin 3, win0_2.index t a * S8x64x64.size a ≤ (i a).val
      ∧ (i a).val < win0_2.index t a * S8x64x64.size a + S8x64x64.size a := by
  show i ∈ ((View.whole main_v70).slice (win0_2.rect t)).set ↔ _
  rw [View.set_slice_whole, Rect.mem_set_unit]
  exact Iff.rfl

/-- Every index of the output array is written back by some point: batch row b belongs to point b / 8. -/
theorem covered (i : S256x64x64.Idx) :
    ∃ t : Fin cfg0.N, (cfg0.win 2).flush t = true ∧ i ∈ ((cfg0.win 2).blk t).view.set := by
  have hi0 : (i 0).val < 256 := (i 0).isLt
  have hi1 : (i 1).val < 64 := (i 1).isLt
  have hi2 : (i 2).val < 64 := (i 2).isLt
  have hlt : (i 0).val / 8 < cfg0.N := by rw [show cfg0.N = 32 from N_0]; omega
  refine ⟨⟨(i 0).val / 8, hlt⟩, flush0_2 _, ?_⟩
  rw [mem_blk]
  obtain ⟨-, -, -, -, -, -, -, o0, o1, o2⟩ := index_maps ⟨(i 0).val / 8, hlt⟩
  have o0' : win0_2.index ⟨(i 0).val / 8, hlt⟩ (0 : Fin 3) = (i 0).val / 8 := o0
  intro a
  match a with
  | ⟨0, _⟩ => show win0_2.index _ (0 : Fin 3) * 8 ≤ (i 0).val ∧ (i 0).val < win0_2.index _ (0 : Fin 3) * 8 + 8; omega
  | ⟨1, _⟩ => show win0_2.index _ (1 : Fin 3) * 64 ≤ (i 1).val ∧ (i 1).val < win0_2.index _ (1 : Fin 3) * 64 + 64; omega
  | ⟨2, _⟩ => show win0_2.index _ (2 : Fin 3) * 64 ≤ (i 2).val ∧ (i 2).val < win0_2.index _ (2 : Fin 3) * 64 + 64; omega

/-- The output array after the run: the weighted sums of x and the table, everywhere. -/
theorem out_eq (c : Dev nD) :
    (dats m 0 c).arrAt 2 cfg0.N = Cert.RollMask.weighted (V m c main_arg0) (V m c main_v69) :=
  (dats m 0 c).arrAt_eq_of_cover 2 (Cert.RollMask.weighted (V m c main_arg0) (V m c main_v69))
    (fun t _ => flushed_eq m c t) covered

/-- The run, read: the result array holds the weighted sums of x as launched and the table as the region finds it,
    and both arguments are unchanged. -/
theorem run_value :
    θ_run defs (onTc (τ := τ) (main (F := Ideal))) ⟨m, fun _ => 0, ρ⟩ (fun r => ∀ c : Dev nD,
      r.2.mem ((c.tc : Thread nD τ).loc main_v70)
          = Cert.RollMask.weighted (m ((c.tc : Thread nD τ).loc main_arg0)) (V m c main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).1 2).trans ((out_eq m c).trans (by rw [V_main_arg0])),
      ((h c).1 0).trans ((((dats m 0 c).arrAt_in 0 rfl _).trans (A_eq m c 0)).trans (V_main_arg0 m c)),
      ((h c).2 main_arg1 (Pipeline.mem_restRefs_of main_arg1 (by decide) (by decide))).trans (V_main_arg1 m c)⟩)
    (run_main m ρ)

end Cert.KernelIdeal.HandValue

end
-- ==== Proof.LibStraightLine.lean ====
/-
  A straight line of operations in single-assignment form, read one operation at a time.

  A line of operations rewrites a valuation of the buffers, operation by operation. When every buffer is written by at most
  one operation of the line, and an operation's operands are written before it, the valuation after the WHOLE line already
  satisfies each operation's equation: the buffer the k-th operation writes holds that operation's function of what its
  operand buffers hold — all read after the whole line, because nothing later touches either. So the value of the last
  buffer follows from the operations' equations one by one, sharing every intermediate buffer, and the composed term of the
  whole line is never formed.

  The buffers the operations write are listed once, in order (`WritesAre`); "no operation from position k on writes r" is
  then the absence of r from the list's tail, a question about references alone.
  General: nothing here depends on a particular program.
-/
import Idealize.ShloMosaic.Lib.StableHlo.Run

namespace Cert.LibStraightLine

open Idealize.ShloMosaic Idealize.ShloMosaic.StableHlo

variable {τ : Topo} {sig : RefSig} {Val : EltTy → Type}

/-- Two lines one after the other. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A buffer that no operation from position k on writes holds, after the line, what it held after the first k operations. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops]
  rw [after_append, after_of_forall_not_mem _ _ h]

/-- A buffer that no operation past position k writes holds, after the line, what operation k left in it. -/
theorem after_eq_result (ops : List (HloOp τ sig Val)) (V : Valuation τ sig Val) (k : Nat) (hk : k < ops.length)
    (b : DevRef τ sig) (h : ∀ op ∈ ops.drop (k + 1), b ∉ op.writes) :
    after ops V b = (ops[k]).result (after (ops.take k) V) b := by
  rw [after_eq_take ops V (k + 1) b h, List.take_succ_eq_append_getElem hk, after_append, after_cons, after_nil]

/-- The buffers the operations write are, in order, the references W: each operation writes exactly one. -/
def WritesAre (ops : List (HloOp τ sig Val)) (W : List (Ref sig .tc)) : Prop :=
  ops.map (fun op => op.writes) = W.map fun r => ({(Proc.devRef .tc r : DevRef τ sig)} : Finset (DevRef τ sig))

/-- A reference absent from the list's tail is written by no operation from that position on. -/
theorem not_written {ops : List (HloOp τ sig Val)} {W : List (Ref sig .tc)} (hW : WritesAre ops W) (k : Nat)
    {y : Ref sig .tc} (hy : y ∉ W.drop k) : ∀ op ∈ ops.drop k, (Proc.devRef .tc y : DevRef τ sig) ∉ op.writes := by
  intro op hop hmem
  have h1 : op.writes ∈ (ops.drop k).map (fun op => op.writes) := List.mem_map.mpr ⟨op, hop, rfl⟩
  unfold WritesAre at hW
  rw [List.map_drop, hW, ← List.map_drop] at h1
  obtain ⟨r, hr, he⟩ := List.mem_map.mp h1
  rw [← he, Finset.mem_singleton] at hmem
  exact hy (Proc.devRef_injective _ hmem ▸ hr)

variable {ops : List (HloOp τ sig Val)} {V : Valuation τ sig Val}

/-- Operation k defines its result buffer. -/
theorem nullary_at (k : Nat) (hk : k < ops.length) {y : Ref sig .tc} {v : y.ty.Contents Val} {hy}
    (hop : ops[k] = nullary y v hy)
    (hy' : ∀ op ∈ ops.drop (k + 1), (Proc.devRef .tc y : DevRef τ sig) ∉ op.writes) :
    after ops V (Proc.devRef .tc y) = v := by
  rw [after_eq_result ops V k hk _ hy', hop, nullary_result]

/-- Operation k applies its function to its operand buffer as the whole line leaves it. -/
theorem unary_at (k : Nat) (hk : k < ops.length) {x y : Ref sig .tc} {f : x.ty.Contents Val → y.ty.Contents Val} {hx hy}
    (hop : ops[k] = unary x y f hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = f (after ops V (Proc.devRef .tc x)) := by
  rw [after_eq_result ops V k hk _ hy', hop, unary_result, ← after_eq_take ops V k _ hx']

theorem binary_at (k : Nat) (hk : k < ops.length) {a b y : Ref sig .tc}
    {f : a.ty.Contents Val → b.ty.Contents Val → y.ty.Contents Val} {ha hb hy}
    (hop : ops[k] = binary a b y f ha hb hy)
    (hy' : ∀ op ∈ ops.drop (k + 1), (Proc.devRef .tc y : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y) = f (after ops V (Proc.devRef .tc a)) (after ops V (Proc.devRef .tc b)) := by
  rw [after_eq_result ops V k hk _ hy', hop, binary_result, ← after_eq_take ops V k _ ha', ← after_eq_take ops V k _ hb']

theorem ternary_at (k : Nat) (hk : k < ops.length) {c a b y : Ref sig .tc}
    {f : c.ty.Contents Val → a.ty.Contents Val → b.ty.Contents Val → y.ty.Contents Val} {hc ha hb hy}
    (hop : ops[k] = ternary c a b y f hc ha hb hy)
    (hy' : ∀ op ∈ ops.drop (k + 1), (Proc.devRef .tc y : DevRef τ sig) ∉ op.writes)
    (hc' : ∀ op ∈ ops.drop k, (Proc.devRef .tc c : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y)
      = f (after ops V (Proc.devRef .tc c)) (after ops V (Proc.devRef .tc a)) (after ops V (Proc.devRef .tc b)) := by
  rw [after_eq_result ops V k hk _ hy', hop, ternary_result, ← after_eq_take ops V k _ hc', ← after_eq_take ops V k _ ha',
    ← after_eq_take ops V k _ hb']

theorem reshape_at (k : Nat) (hk : k < ops.length) {x y : Ref sig .tc} {he : x.ty.elt = y.ty.elt}
    {hn : x.ty.shape.ShapeCasts y.ty.shape} {hx hy}
    (hop : ops[k] = reshape x y he hn hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = fun i => he ▸ shapeCast y.ty.shape (after ops V (Proc.devRef .tc x)) hn i := by
  rw [after_eq_result ops V k hk _ hy', hop, reshape_result, ← after_eq_take ops V k _ hx']

/-- A buffer no operation writes holds its launch contents. -/
theorem untouched_at {W : List (Ref sig .tc)} (hW : WritesAre ops W) {r : Ref sig .tc} (hr : r ∉ W) :
    after ops V (Proc.devRef .tc r) = V (Proc.devRef .tc r) :=
  after_of_forall_not_mem ops V (by simpa using not_written hW 0 (by simpa using hr))

end Cert.LibStraightLine
-- ==== Proof.LibStraightLineNary.lean ====
/-
  An operation of any number of operands in a straight line of single-assignment operations, read after the whole line.

  When no later operation writes the result buffer and no operation from this one on writes any operand buffer, the
  result buffer holds, after the whole line, the operation's function of what the operand buffers hold after the
  whole line. General: nothing here depends on a particular program.
-/
import proofs.«156092_j55533927137718_2_alg».proof.Proof.LibStraightLine

namespace Cert.LibStraightLine

open Idealize.ShloMosaic Idealize.ShloMosaic.StableHlo

variable {τ : Topo} {sig : RefSig} {Val : EltTy → Type}
variable {ops : List (HloOp τ sig Val)} {V : Valuation τ sig Val}

/-- Operation k applies its function to the family of its operand buffers as the whole line leaves them. -/
theorem nary_at (k : Nat) (hk : k < ops.length) {n : Nat} {xs : Fin n → Ref sig .tc} {y : Ref sig .tc}
    {f : ((i : Fin n) → (xs i).ty.Contents Val) → y.ty.Contents Val} {hxs hy}
    (hop : ops[k] = nary xs y f hxs hy)
    (hy' : ∀ op ∈ ops.drop (k + 1), (Proc.devRef .tc y : DevRef τ sig) ∉ op.writes)
    (hxs' : ∀ i : Fin n, ∀ op ∈ ops.drop k, (Proc.devRef .tc (xs i) : DevRef τ sig) ∉ op.writes) :
    after ops V (Proc.devRef .tc y) = f (fun i => after ops V (Proc.devRef .tc (xs i))) := by
  rw [after_eq_result ops V k hk _ hy', hop, nary_result]
  exact congrArg f (funext fun i => (after_eq_take ops V k _ (hxs' i)).symm)

end Cert.LibStraightLine
-- ==== Proof.KernelLine.lean ====
/-
  The host operations the kernel program runs before its launch, as one straight line in single-assignment form.

  The line is the 132 operations of the 33 stretches in order. Each writes one buffer and no buffer is written twice, so
  each operation's equation holds of the buffers as the WHOLE line leaves them: the buffer operation k writes holds that
  operation's function of what its operand buffers hold. The equations are read one at a time; the composed term of the
  whole line is never formed.
-/
import proofs.«156092_j55533927137718_2_alg».proof.Proof.Gen.KernelIdeal.Launch
import proofs.«156092_j55533927137718_2_alg».proof.Proof.Spec
import proofs.«156092_j55533927137718_2_alg».proof.Proof.LibStraightLineNary

set_option maxRecDepth 4096

noncomputable section

namespace Cert.KernelIdeal.TableValue

open Cert.KernelIdeal Cert.KernelIdeal.Gen
open Idealize.ShloMosaic Idealize.ShloMosaic.TcCoe Idealize.ShloMosaic.ValueIdx
open Cert.LibStraightLine Cert.RollMask

/-- The host operations before the launch, in order. -/
def hostLine : List (HloOp τ sig (Elt Ideal)) :=
  ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32] : List (List (HloOp τ sig (Elt Ideal)))).flatten

/-- The buffers they write, in order: every operation writes one buffer, no buffer is written twice. -/
def hostWrites : List (Ref sig .tc) :=
  [main_v0, main_v1, main_v2, main_v3, main_v4, main_call0_v0, main_call0_v1, main_v5, main_call1_v0, main_call1_v1, main_v6, main_call2_v0, main_call2_v1, main_v7, main_call3_v0, main_call3_v1, main_v8, main_call4_v0, main_call4_v1, main_v9, main_call5_v0, main_call5_v1, main_v10, main_call6_v0, main_call6_v1, main_v11, main_call7_v0, main_call7_v1, main_v12, main_call8_v0, main_call8_v1, main_v13, main_call9_v0, main_call9_v1, main_v14, main_call10_v0, main_call10_v1, main_v15, main_call11_v0, main_call11_v1, main_v16, main_call12_v0, main_call12_v1, main_v17, main_call13_v0, main_call13_v1, main_v18, main_call14_v0, main_call14_v1, main_v19, main_call15_v0, main_call15_v1, main_v20, main_call16_v0, main_call16_v1, main_v21, main_call17_v0, main_call17_v1, main_v22, main_call18_v0, main_call18_v1, main_v23, main_call19_v0, main_call19_v1, main_v24, main_call20_v0, main_call20_v1, main_v25, main_call21_v0, main_call21_v1, main_v26, main_call22_v0, main_call22_v1, main_v27, main_call23_v0, main_call23_v1, main_v28, main_call24_v0, main_call24_v1, main_v29, main_call25_v0, main_call25_v1, main_v30, main_call26_v0, main_call26_v1, main_v31, main_call27_v0, main_call27_v1, main_v32, main_call28_v0, main_call28_v1, main_v33, main_call29_v0, main_call29_v1, main_v34, main_call30_v0, main_call30_v1, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69]

theorem hostLine_length : hostLine.length = 132 := rfl

theorem hostLine_writes : WritesAre hostLine hostWrites := rfl

theorem hlt {k : ℕ} (h : k < 132) : k < hostLine.length := hostLine_length ▸ h

section

variable (V : Valuation τ sig (Elt Ideal))

/-- Operation k of the line has one operand: its equation, read after the whole line. -/
theorem unaryL (k : ℕ) (hk : k < 132) {x y : Ref sig .tc} {f : x.ty.Contents (Elt Ideal) → y.ty.Contents (Elt Ideal)}
    (hx : x.space ≠ .host ∧ (Proc.devRef .tc x : DevRef τ sig).isScoped = false := by exact ⟨by decide, rfl⟩)
    (hy : y.space ≠ .host ∧ (Proc.devRef .tc y : DevRef τ sig).isScoped = false := by exact ⟨by decide, rfl⟩)
    (hop : hostLine[k]'(hlt hk) = StableHlo.unary x y f hx hy)
    (hy' : y ∉ hostWrites.drop (k + 1) := by decide) (hx' : x ∉ hostWrites.drop k := by decide) :
    StableHlo.after hostLine V (Proc.devRef .tc y) = f (StableHlo.after hostLine V (Proc.devRef .tc x)) :=
  unary_at k (hlt hk) hop (not_written hostLine_writes _ hy') (not_written hostLine_writes _ hx')

/-- Operation k of the line has two operands. -/
theorem binaryL (k : ℕ) (hk : k < 132) {a b y : Ref sig .tc}
    {f : a.ty.Contents (Elt Ideal) → b.ty.Contents (Elt Ideal) → y.ty.Contents (Elt Ideal)}
    (ha : a.space ≠ .host ∧ (Proc.devRef .tc a : DevRef τ sig).isScoped = false := by exact ⟨by decide, rfl⟩)
    (hb : b.space ≠ .host ∧ (Proc.devRef .tc b : DevRef τ sig).isScoped = false := by exact ⟨by decide, rfl⟩)
    (hy : y.space ≠ .host ∧ (Proc.devRef .tc y : DevRef τ sig).isScoped = false := by exact ⟨by decide, rfl⟩)
    (hop : hostLine[k]'(hlt hk) = StableHlo.binary a b y f ha hb hy)
    (hy' : y ∉ hostWrites.drop (k + 1) := by decide) (ha' : a ∉ hostWrites.drop k := by decide)
    (hb' : b ∉ hostWrites.drop k := by decide) :
    StableHlo.after hostLine V (Proc.devRef .tc y)
      = f (StableHlo.after hostLine V (Proc.devRef .tc a)) (StableHlo.after hostLine V (Proc.devRef .tc b)) :=
  binary_at k (hlt hk) hop (not_written hostLine_writes _ hy') (not_written hostLine_writes _ ha')
    (not_written hostLine_writes _ hb')

/-- Operation k of the line is a recast. -/
theorem reshapeL (k : ℕ) (hk : k < 132) {x y : Ref sig .tc} {hn : x.ty.shape.ShapeCasts y.ty.shape}
    (he : x.ty.elt = y.ty.elt := by rfl)
    (hx : x.space ≠ .host ∧ (Proc.devRef .tc x : DevRef τ sig).isScoped = false := by exact ⟨by decide, rfl⟩)
    (hy : y.space ≠ .host ∧ (Proc.devRef .tc y : DevRef τ sig).isScoped = false := by exact ⟨by decide, rfl⟩)
    (hop : hostLine[k]'(hlt hk) = StableHlo.reshape x y he hn hx hy)
    (hy' : y ∉ hostWrites.drop (k + 1) := by decide) (hx' : x ∉ hostWrites.drop k := by decide) :
    StableHlo.after hostLine V (Proc.devRef .tc y)
      = fun i => he ▸ shapeCast y.ty.shape (StableHlo.after hostLine V (Proc.devRef .tc x)) hn i :=
  reshape_at k (hlt hk) hop (not_written hostLine_writes _ hy') (not_written hostLine_writes _ hx')

/-- Operation k of the line has a family of operands. -/
theorem naryL (k : ℕ) (hk : k < 132) {n : ℕ} {xs : Fin n → Ref sig .tc} {y : Ref sig .tc}
    {f : ((i : Fin n) → (xs i).ty.Contents (Elt Ideal)) → y.ty.Contents (Elt Ideal)}
    (hxs : ∀ i, (xs i).space ≠ .host ∧ (Proc.devRef .tc (xs i) : DevRef τ sig).isScoped = false := by decide)
    (hy : y.space ≠ .host ∧ (Proc.devRef .tc y : DevRef τ sig).isScoped = false := by exact ⟨by decide, rfl⟩)
    (hop : hostLine[k]'(hlt hk) = StableHlo.nary xs y f hxs hy)
    (hy' : y ∉ hostWrites.drop (k + 1) := by decide) (hxs' : ∀ i, xs i ∉ hostWrites.drop k := by decide) :
    StableHlo.after hostLine V (Proc.devRef .tc y) = f (fun i => StableHlo.after hostLine V (Proc.devRef .tc (xs i))) :=
  nary_at k (hlt hk) hop (not_written hostLine_writes _ hy') (fun i => not_written hostLine_writes _ (hxs' i))

end

variable (m : (ℓ : Loc nD τ sig) → Buf (Elt Ideal) ℓ) (c : Dev nD)

/-- The buffers after the whole line, from the contents at launch. -/
abbrev A : Valuation τ sig (Elt Ideal) := StableHlo.after hostLine (fun b => m (c, b))

/-- The square the rolls are taken of: the buffer main_v4 holds the mask of the weights as launched. -/
theorem v4_eq : A m c main_v4 = Cert.RollMask.mask (m ((c : Thread nD τ).loc main_arg1))
    shapeCasts_S1024_S32x32 shapeCasts_S32x32_S1x32x1x32 bcast_S1x32x1x32_S2x32x2x32_0_1_2_3 shapeCasts_S2x32x2x32_S64x64 := by
  have ea : StableHlo.after hostLine (fun b => m (c, b)) (Proc.devRef .tc main_arg1) = m ((c : Thread nD τ).loc main_arg1) :=
    untouched_at hostLine_writes (by decide)
  have e0 := unaryL (fun b => m (c, b)) 0 (by norm_num) (hop := rfl)
  have e1 := reshapeL (fun b => m (c, b)) 1 (by norm_num) (hop := rfl)
  have e2 := reshapeL (fun b => m (c, b)) 2 (by norm_num) (hop := rfl)
  have e3 := unaryL (fun b => m (c, b)) 3 (by norm_num) (hop := rfl)
  have e4 := reshapeL (fun b => m (c, b)) 4 (by norm_num) (hop := rfl)
  show StableHlo.after hostLine (fun b => m (c, b)) (Proc.devRef .tc main_v4) = _
  rw [e4, e3, e2, e1, e0, ea]
  rfl

end Cert.KernelIdeal.TableValue

end
-- ==== Proof.LibRoll.lean ====
/-
  A matrix with its rows rolled, read at an entry; and a trailing unit axis added by a broadcast.

  * The last k rows of an a×b matrix (rows o, o+1, …, a−1, where o + k = a) stacked above its first n rows
    (k + n = a): row i of the result is row (i + o) mod a of the matrix. With k = a, o = 0, n = 0 the result is the
    matrix itself; the formula is the same.
  * The matrix broadcast along its two axes into [a, b, 1]: entry (p, q, 0) is the matrix entry (p, q).
  * Two arrays [a, b, K₁] and [a, b, K₂] side by side along the last axis: entry (p, q, l) of the result is entry
    (p, q, l) of the first when l < K₁, entry (p, q, l − K₁) of the second otherwise.
  * Unit-width slabs [a, b, 1] side by side along the last axis, read at (p, q, j): the j slabs before the j-th have
    width one each because EVERY piece of the list has shape [a, b, 1], so their widths sum to j whatever j is.
  Nothing here depends on what the entries are.
-/
import Idealize.ShloMosaic.Lib.ValueIdx
import Idealize.ShloMosaic.Lib.Pipeline.Value
import proofs.«156092_j55533927137718_2_alg».proof.Proof.LibLastAxis

noncomputable section

namespace Cert.LibRoll

open Idealize.ShloMosaic Idealize.ShloMosaic.ValueIdx

variable {α : Type}

/-- Rows o … a−1 above rows 0 … n−1: row i of the stack is row (i + o) mod a. -/
theorem rollRows_at {a b k n o : ℕ} (x : (⟨2, ![a, b]⟩ : Shape).Idx → α)
    (h1 : (⟨2, ![a, b]⟩ : Shape).Slices ![o, 0] ⟨2, ![k, b]⟩)
    (h2 : (⟨2, ![a, b]⟩ : Shape).Slices ![0, 0] ⟨2, ![n, b]⟩)
    (hc : Shape.Concatenates [⟨2, ![k, b]⟩, ⟨2, ![n, b]⟩] ⟨2, ![a, b]⟩ (0 : Fin 2))
    (hok : o + k = a) (hkn : k + n = a) (i r : Fin a) (j : Fin b) (hr : r.val = (i.val + o) % a) :
    concatenate ⟨2, ![a, b]⟩ (0 : Fin 2)
        [⟨⟨2, ![k, b]⟩, extractStridedSlice ⟨2, ![k, b]⟩ ![o, 0] x h1⟩,
         ⟨⟨2, ![n, b]⟩, extractStridedSlice ⟨2, ![n, b]⟩ ![0, 0] x h2⟩] hc (ix2 i j) = x (ix2 r j) := by
  have hia := i.isLt
  by_cases hi : i.val < k
  · have hr' : r.val = o + i.val := by rw [hr, Nat.mod_eq_of_lt (by omega)]; omega
    refine (concatenate_pair_apply_left (s₁ := ⟨2, ![k, b]⟩) (s₂ := ⟨2, ![n, b]⟩) (0 : Fin 2) _ _ hc (ix2 i j) rfl
      (ix2 (⟨i.val, hi⟩ : Fin k) j) (fun d => ?_)).trans ?_
    · match d with
      | ⟨0, _⟩ => rfl
      | ⟨1, _⟩ => rfl
    · refine extractStridedSlice_apply _ x h1 _ (ix2 r j) (fun d => ?_)
      match d with
      | ⟨0, _⟩ => exact hr'
      | ⟨1, _⟩ => exact (Nat.zero_add _).symm
  · have hi' : i.val - k < n := by omega
    have hr' : r.val = i.val - k := by
      rw [hr, show i.val + o = (i.val - k) + a by omega, Nat.add_mod_right, Nat.mod_eq_of_lt (by omega)]
    refine (concatenate_pair_apply_right (s₁ := ⟨2, ![k, b]⟩) (s₂ := ⟨2, ![n, b]⟩) (0 : Fin 2) _ _ hc (ix2 i j) rfl rfl
      (ix2 (⟨i.val - k, hi'⟩ : Fin n) j) (fun d hd => ?_) ?_).trans ?_
    · match d with
      | ⟨0, _⟩ => exact absurd rfl hd
      | ⟨1, _⟩ => rfl
    · show (i.val - k) + k = i.val
      omega
    · refine extractStridedSlice_apply _ x h2 _ (ix2 r j) (fun d => ?_)
      match d with
      | ⟨0, _⟩ => exact hr'.trans (Nat.zero_add _).symm
      | ⟨1, _⟩ => exact (Nat.zero_add _).symm

/-- A trailing unit axis added by a broadcast along the two axes: entry (p, q, 0) is the matrix entry (p, q). -/
theorem bcastLast_at {a b : ℕ} (x : (⟨2, ![a, b]⟩ : Shape).Idx → α)
    (h : (⟨2, ![a, b]⟩ : Shape).BroadcastsInDim ⟨3, ![a, b, 1]⟩ (![0, 1] : Fin 2 → Fin 3)) (p : Fin a) (q : Fin b) :
    broadcastInDim ⟨3, ![a, b, 1]⟩ (![0, 1] : Fin 2 → Fin 3) h x (ix3 p q (0 : Fin 1)) = x (ix2 p q) := by
  refine broadcastInDim_apply _ h x _ (ix2 p q) (fun d => ?_)
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl

/-- Two arrays side by side along the last axis, read in the first. -/
theorem pairLast_left {a b K₁ K₂ K : ℕ} (x₁ : (⟨3, ![a, b, K₁]⟩ : Shape).Idx → α) (x₂ : (⟨3, ![a, b, K₂]⟩ : Shape).Idx → α)
    (h : Shape.Concatenates [⟨3, ![a, b, K₁]⟩, ⟨3, ![a, b, K₂]⟩] ⟨3, ![a, b, K]⟩ (2 : Fin 3))
    (p : Fin a) (q : Fin b) (l : Fin K) (l₁ : Fin K₁) (hl : l₁.val = l.val) :
    concatenate ⟨3, ![a, b, K]⟩ (2 : Fin 3) [⟨⟨3, ![a, b, K₁]⟩, x₁⟩, ⟨⟨3, ![a, b, K₂]⟩, x₂⟩] h (ix3 p q l)
      = x₁ (ix3 p q l₁) := by
  refine concatenate_pair_apply_left (s₁ := ⟨3, ![a, b, K₁]⟩) (s₂ := ⟨3, ![a, b, K₂]⟩) (2 : Fin 3) x₁ x₂ h (ix3 p q l) rfl
    (ix3 p q l₁) (fun d => ?_)
  match d with
  | ⟨0, _⟩ => rfl
  | ⟨1, _⟩ => rfl
  | ⟨2, _⟩ => exact hl

/-- Two arrays side by side along the last axis, read in the second. -/
theorem pairLast_right {a b K₁ K₂ K : ℕ} (x₁ : (⟨3, ![a, b, K₁]⟩ : Shape).Idx → α) (x₂ : (⟨3, ![a, b, K₂]⟩ : Shape).Idx → α)
    (h : Shape.Concatenates [⟨3, ![a, b, K₁]⟩, ⟨3, ![a, b, K₂]⟩] ⟨3, ![a, b, K]⟩ (2 : Fin 3))
    (p : Fin a) (q : Fin b) (l : Fin K) (l₂ : Fin K₂) (hl : l₂.val + K₁ = l.val) :
    concatenate ⟨3, ![a, b, K]⟩ (2 : Fin 3) [⟨⟨3, ![a, b, K₁]⟩, x₁⟩, ⟨⟨3, ![a, b, K₂]⟩, x₂⟩] h (ix3 p q l)
      = x₂ (ix3 p q l₂) := by
  refine concatenate_pair_apply_right (s₁ := ⟨3, ![a, b, K₁]⟩) (s₂ := ⟨3, ![a, b, K₂]⟩) (2 : Fin 3) x₁ x₂ h (ix3 p q l) rfl rfl
    (ix3 p q l₂) (fun d hd => ?_) ?_
  · match d with
    | ⟨0, _⟩ => rfl
    | ⟨1, _⟩ => rfl
    | ⟨2, _⟩ => exact absurd rfl hd
  · exact hl

/-- Shapes that are all [a, b, 1]: their extents along the last axis sum to their number. -/
theorem unit_extents_sum {a b K : ℕ} (ss : List Shape) (h : ∀ s ∈ ss, s = (⟨3, ![a, b, 1]⟩ : Shape)) :
    (Cert.LibLastAxis.extents (t := ⟨3, ![a, b, K]⟩) (2 : Fin 3) ss).sum = ss.length := by
  induction ss with
  | nil => rfl
  | cons s ss ih =>
    have hs : s = ⟨3, ![a, b, 1]⟩ := h s List.mem_cons_self
    have ih' := ih (fun s' hs' => h s' (List.mem_cons_of_mem _ hs'))
    subst hs
    show 1 + (Cert.LibLastAxis.extents (t := ⟨3, ![a, b, K]⟩) (2 : Fin 3) ss).sum = ss.length + 1
    rw [ih']
    omega

/-- Unit-width slabs side by side along the last axis, every piece of the list a slab [a, b, 1]: entry (p, q, j) is
    entry (p, q, 0) of the j-th slab. -/
theorem unitSlabs_all_at {a b K : ℕ} (xs : List ((s : Shape) × (s.Idx → α)))
    (h : Shape.Concatenates (xs.map (·.1)) ⟨3, ![a, b, K]⟩ (2 : Fin 3)) (p : Fin a) (q : Fin b) (j : Fin K)
    (x₁ : (⟨3, ![a, b, 1]⟩ : Shape).Idx → α) (hxk : xs[j.val]? = some ⟨⟨3, ![a, b, 1]⟩, x₁⟩)
    (hall : ∀ x ∈ xs, x.1 = (⟨3, ![a, b, 1]⟩ : Shape)) :
    concatenate ⟨3, ![a, b, K]⟩ (2 : Fin 3) xs h (ix3 p q j) = x₁ (ix3 p q (0 : Fin 1)) := by
  obtain ⟨hk, _⟩ := List.getElem?_eq_some_iff.mp hxk
  refine Cert.LibLastAxis.unitSlabs_at xs h p q j x₁ hxk ?_
  have hsum := unit_extents_sum (a := a) (b := b) (K := K) ((xs.take j.val).map (·.1)) (by
    intro s hs
    obtain ⟨x, hx, rfl⟩ := List.mem_map.mp hs
    exact hall x (List.mem_of_mem_take hx))
  rw [List.length_map, List.length_take, Nat.min_eq_left (Nat.le_of_lt hk)] at hsum
  exact hsum

end Cert.LibRoll

end
-- ==== Proof.KernelTable.lean ====
/-
  The value of the weight table the kernel program builds on the host before its launch.

  The program takes the signs of the weights, lays them out as the 64×64 square `mask` (buffer main_v4), and for each
  channel l = 0 … 30 builds the square rolled down by l rows: the last l rows of the mask stacked above its first 64 − l
  rows (l = 0: the whole mask above nothing). Each rolled square gets a trailing unit axis, the first 16 of these slabs
  are set side by side along the last axis, the last 15 likewise, and the two blocks side by side give the table
  [64, 64, 31] (buffer main_v69). So the table at (i, j, l) is the mask at ((i − l) mod 64, j).

  Every step is one operation's equation read after the whole line (KernelLine); the rolled squares, the unit axis and the
  side-by-side blocks are read at an entry by the general lemmas of LibRoll and LibLastAxis, once per channel.
-/
import proofs.«156092_j55533927137718_2_alg».proof.Proof.KernelLine
import proofs.«156092_j55533927137718_2_alg».proof.Proof.LibLastAxis
import proofs.«156092_j55533927137718_2_alg».proof.Proof.LibRoll

set_option maxRecDepth 4096

noncomputable section

namespace Cert.KernelIdeal.TableValue

open Cert.KernelIdeal Cert.KernelIdeal.Gen
open Idealize.ShloMosaic Idealize.ShloMosaic.TcCoe Idealize.ShloMosaic.ValueIdx
open Cert.LibStraightLine Cert.RollMask Cert.LibRoll Cert.LibLastAxis

variable (m : (ℓ : Loc nD τ sig) → Buf (Elt Ideal) ℓ) (c : Dev nD)

/-- (i − c) mod 64 is (i + o) mod 64 when o + c is a multiple of 64. -/
theorem rollRow_off (i : Fin 64) (cc : Fin 31) (o : ℕ) (h : (o + cc.val) % 64 = 0) :
    (rollRow i cc).val = (i.val + o) % 64 := by
  have := cc.isLt
  rw [rollRow_val]; omega

/-- A square y built from the square x as its rows o … 63 (k of them) above its rows 0 … n−1, where o + c is a multiple of
    64: row i of y is row (i − c) mod 64 of x. -/
theorem roll_of {k n o : ℕ} {x y : (⟨2, ![64, 64]⟩ : Shape).Idx → EReal}
    {x0 : (⟨2, ![k, 64]⟩ : Shape).Idx → EReal} {x1 : (⟨2, ![n, 64]⟩ : Shape).Idx → EReal}
    {h1 : (⟨2, ![64, 64]⟩ : Shape).Slices ![o, 0] ⟨2, ![k, 64]⟩}
    {h2 : (⟨2, ![64, 64]⟩ : Shape).Slices ![0, 0] ⟨2, ![n, 64]⟩}
    {hc : Shape.Concatenates [⟨2, ![k, 64]⟩, ⟨2, ![n, 64]⟩] ⟨2, ![64, 64]⟩ (0 : Fin 2)}
    (e0 : x0 = extractStridedSlice ⟨2, ![k, 64]⟩ ![o, 0] x h1)
    (e1 : x1 = extractStridedSlice ⟨2, ![n, 64]⟩ ![0, 0] x h2)
    (e2 : y = concatenate ⟨2, ![64, 64]⟩ (0 : Fin 2) [⟨⟨2, ![k, 64]⟩, x0⟩, ⟨⟨2, ![n, 64]⟩, x1⟩] hc)
    (hok : o + k = 64) (hkn : k + n = 64) (cc : Fin 31) (hcc : (o + cc.val) % 64 = 0) (i j : Fin 64) :
    y (ix2 i j) = x (ix2 (rollRow i cc) j) := by
  subst e0 e1 e2
  exact rollRows_at x h1 h2 hc hok hkn i _ j (rollRow_off i cc o hcc)

theorem roll_0 (i j : Fin 64) : A m c main_v5 (ix2 i j) = A m c main_v4 (ix2 (rollRow i ⟨0, by norm_num⟩) j) := by
  have e0 : A m c main_call0_v0 = extractStridedSlice S64x64 ![0, 0] (A m c main_v4) slices_S64x64_S64x64_0_0 := by
    have h := unaryL (fun b => m (c, b)) 5 (by norm_num) (x := main_v4) (y := main_call0_v0)
      (f := fun u => extractStridedSlice S64x64 ![0, 0] u slices_S64x64_S64x64_0_0) (hop := rfl)
    exact h
  have e1 : A m c main_call0_v1 = extractStridedSlice S0x64 ![0, 0] (A m c main_v4) slices_S64x64_S0x64_0_0 := by
    have h := unaryL (fun b => m (c, b)) 6 (by norm_num) (x := main_v4) (y := main_call0_v1)
      (f := fun u => extractStridedSlice S0x64 ![0, 0] u slices_S64x64_S0x64_0_0) (hop := rfl)
    exact h
  have e2 : A m c main_v5 = concatenate S64x64 0 [⟨S64x64, A m c main_call0_v0⟩, ⟨S0x64, A m c main_call0_v1⟩] concatenates_S64x64_S0x64_S64x64_d0 := by
    have h := binaryL (fun b => m (c, b)) 7 (by norm_num) (a := main_call0_v0) (b := main_call0_v1) (y := main_v5)
      (f := fun u v => concatenate S64x64 0 [⟨S64x64, u⟩, ⟨S0x64, v⟩] concatenates_S64x64_S0x64_S64x64_d0) (hop := rfl)
    exact h
  exact roll_of e0 e1 e2 rfl rfl ⟨0, by norm_num⟩ rfl i j

theorem roll_1 (i j : Fin 64) : A m c main_v6 (ix2 i j) = A m c main_v4 (ix2 (rollRow i ⟨1, by norm_num⟩) j) := by
  have e0 : A m c main_call1_v0 = extractStridedSlice S1x64 ![63, 0] (A m c main_v4) slices_S64x64_S1x64_63_0 := by
    have h := unaryL (fun b => m (c, b)) 8 (by norm_num) (x := main_v4) (y := main_call1_v0)
      (f := fun u => extractStridedSlice S1x64 ![63, 0] u slices_S64x64_S1x64_63_0) (hop := rfl)
    exact h
  have e1 : A m c main_call1_v1 = extractStridedSlice S63x64 ![0, 0] (A m c main_v4) slices_S64x64_S63x64_0_0 := by
    have h := unaryL (fun b => m (c, b)) 9 (by norm_num) (x := main_v4) (y := main_call1_v1)
      (f := fun u => extractStridedSlice S63x64 ![0, 0] u slices_S64x64_S63x64_0_0) (hop := rfl)
    exact h
  have e2 : A m c main_v6 = concatenate S64x64 0 [⟨S1x64, A m c main_call1_v0⟩, ⟨S63x64, A m c main_call1_v1⟩] concatenates_S1x64_S63x64_S64x64_d0 := by
    have h := binaryL (fun b => m (c, b)) 10 (by norm_num) (a := main_call1_v0) (b := main_call1_v1) (y := main_v6)
      (f := fun u v => concatenate S64x64 0 [⟨S1x64, u⟩, ⟨S63x64, v⟩] concatenates_S1x64_S63x64_S64x64_d0) (hop := rfl)
    exact h
  exact roll_of e0 e1 e2 rfl rfl ⟨1, by norm_num⟩ rfl i j

theorem roll_2 (i j : Fin 64) : A m c main_v7 (ix2 i j) = A m c main_v4 (ix2 (rollRow i ⟨2, by norm_num⟩) j) := by
  have e0 : A m c main_call2_v0 = extractStridedSlice S2x64 ![62, 0] (A m c main_v4) slices_S64x64_S2x64_62_0 := by
    have h := unaryL (fun b => m (c, b)) 11 (by norm_num) (x := main_v4) (y := main_call2_v0)
      (f := fun u => extractStridedSlice S2x64 ![62, 0] u slices_S64x64_S2x64_62_0) (hop := rfl)
    exact h
  have e1 : A m c main_call2_v1 = extractStridedSlice S62x64 ![0, 0] (A m c main_v4) slices_S64x64_S62x64_0_0 := by
    have h := unaryL (fun b => m (c, b)) 12 (by norm_num) (x := main_v4) (y := main_call2_v1)
      (f := fun u => extractStridedSlice S62x64 ![0, 0] u slices_S64x64_S62x64_0_0) (hop := rfl)
    exact h
  have e2 : A m c main_v7 = concatenate S64x64 0 [⟨S2x64, A m c main_call2_v0⟩, ⟨S62x64, A m c main_call2_v1⟩] concatenates_S2x64_S62x64_S64x64_d0 := by
    have h := binaryL (fun b => m (c, b)) 13 (by norm_num) (a := main_call2_v0) (b := main_call2_v1) (y := main_v7)
      (f := fun u v => concatenate S64x64 0 [⟨S2x64, u⟩, ⟨S62x64, v⟩] concatenates_S2x64_S62x64_S64x64_d0) (hop := rfl)
    exact h
  exact roll_of e0 e1 e2 rfl rfl ⟨2, by norm_num⟩ rfl i j

theorem roll_3 (i j : Fin 64) : A m c main_v8 (ix2 i j) = A m c main_v4 (ix2 (rollRow i ⟨3, by norm_num⟩) j) := by
  have e0 : A m c main_call3_v0 = extractStridedSlice S3x64 ![61, 0] (A m c main_v4) slices_S64x64_S3x64_61_0 := by
    have h := unaryL (fun b => m (c, b)) 14 (by norm_num) (x := main_v4) (y := main_call3_v0)
      (f := fun u => extractStridedSlice S3x64 ![61, 0] u slices_S64x64_S3x64_61_0) (hop := rfl)
    exact h
  have e1 : A m c main_call3_v1 = extractStridedSlice S61x64 ![0, 0] (A m c main_v4) slices_S64x64_S61x64_0_0 := by
    have h := unaryL (fun b => m (c, b)) 15 (by norm_num) (x := main_v4) (y := main_call3_v1)
      (f := fun u => extractStridedSlice S61x64 ![0, 0] u slices_S64x64_S61x64_0_0) (hop := rfl)
    exact h
  have e2 : A m c main_v8 = concatenate S64x64 0 [⟨S3x64, A m c main_call3_v0⟩, ⟨S61x64, A m c main_call3_v1⟩] concatenates_S3x64_S61x64_S64x64_d0 := by
    have h := binaryL (fun b => m (c, b)) 16 (by norm_num) (a := main_call3_v0) (b := main_call3_v1) (y := main_v8)
      (f := fun u v => concatenate S64x64 0 [⟨S3x64, u⟩, ⟨S61x64, v⟩] concatenates_S3x64_S61x64_S64x64_d0) (hop := rfl)
    exact h
  exact roll_of e0 e1 e2 rfl rfl ⟨3, by norm_num⟩ rfl i j

theorem roll_4 (i j : Fin 64) : A m c main_v9 (ix2 i j) = A m c main_v4 (ix2 (rollRow i ⟨4, by norm_num⟩) j) := by
  have e0 : A m c main_call4_v0 = extractStridedSlice S4x64 ![60, 0] (A m c main_v4) slices_S64x64_S4x64_60_0 := by
    have h := unaryL (fun b => m (c, b)) 17 (by norm_num) (x := main_v4) (y := main_call4_v0)
      (f := fun u => extractStridedSlice S4x64 ![60, 0] u slices_S64x64_S4x64_60_0) (hop := rfl)
    exact h
  have e1 : A m c main_call4_v1 = extractStridedSlice S60x64 ![0, 0] (A m c main_v4) slices_S64x64_S60x64_0_0 := by
    have h := unaryL (fun b => m (c, b)) 18 (by norm_num) (x := main_v4) (y := main_call4_v1)
      (f := fun u => extractStridedSlice S60x64 ![0, 0] u slices_S64x64_S60x64_0_0) (hop := rfl)
    exact h
  have e2 : A m c main_v9 = concatenate S64x64 0 [⟨S4x64, A m c main_call4_v0⟩, ⟨S60x64, A m c main_call4_v1⟩] concatenates_S4x64_S60x64_S64x64_d0 := by
    have h := binaryL (fun b => m (c, b)) 19 (by norm_num) (a := main_call4_v0) (b := main_call4_v1) (y := main_v9)
      (f := fun u v => concatenate S64x64 0 [⟨S4x64, u⟩, ⟨S60x64, v⟩] concatenates_S4x64_S60x64_S64x64_d0) (hop := rfl)
    exact h
  exact roll_of e0 e1 e2 rfl rfl ⟨4, by norm_num⟩ rfl i j

theorem roll_5 (i j : Fin 64) : A m c main_v10 (ix2 i j) = A m c main_v4 (ix2 (rollRow i ⟨5, by norm_num⟩) j) := by
  have e0 : A m c main_call5_v0 = extractStridedSlice S5x64 ![59, 0] (A m c main_v4) slices_S64x64_S5x64_59_0 := by
    have h := unaryL (fun b => m (c, b)) 20 (by norm_num) (x := main_v4) (y := main_call5_v0)
      (f := fun u => extractStridedSlice S5x64 ![59, 0] u slices_S64x64_S5x64_59_0) (hop := rfl)
    exact h
  have e1 : A m c main_call5_v1 = extractStridedSlice S59x64 ![0, 0] (A m c main_v4) slices_S64x64_S59x64_0_0 := by
    have h := unaryL (fun b => m (c, b)) 21 (by norm_num) (x := main_v4) (y := main_call5_v1)
      (f := fun u => extractStridedSlice S59x64 ![0, 0] u slices_S64x64_S59x64_0_0) (hop := rfl)
    exact h
  have e2 : A m c main_v10 = concatenate S64x64 0 [⟨S5x64, A m c main_call5_v0⟩, ⟨S59x64, A m c main_call5_v1⟩] concatenates_S5x64_S59x64_S64x64_d0 := by
    have h := binaryL (fun b => m (c, b)) 22 (by norm_num) (a := main_call5_v0) (b := main_call5_v1) (y := main_v10)
      (f := fun u v => concatenate S64x64 0 [⟨S5x64, u⟩, ⟨S59x64, v⟩] concatenates_S5x64_S59x64_S64x64_d0) (hop := rfl)
    exact h
  exact roll_of e0 e1 e2 rfl rfl ⟨5, by norm_num⟩ rfl i j

theorem roll_6 (i j : Fin 64) : A m c main_v11 (ix2 i j) = A m c main_v4 (ix2 (rollRow i ⟨6, by norm_num⟩) j) := by
  have e0 : A m c main_call6_v0 = extractStridedSlice S6x64 ![58, 0] (A m c main_v4) slices_S64x64_S6x64_58_0 := by
    have h := unaryL (fun b => m (c, b)) 23 (by norm_num) (x := main_v4) (y := main_call6_v0)
      (f := fun u => extractStridedSlice S6x64 ![58, 0] u slices_S64x64_S6x64_58_0) (hop := rfl)
    exact h
  have e1 : A m c main_call6_v1 = extractStridedSlice S58x64 ![0, 0] (A m c main_v4) slices_S64x64_S58x64_0_0 := by
    have h := unaryL (fun b => m (c, b)) 24 (by norm_num) (x := main_v4) (y := main_call6_v1)
      (f := fun u => extractStridedSlice S58x64 ![0, 0] u slices_S64x64_S58x64_0_0) (hop := rfl)
    exact h
  have e2 : A m c main_v11 = concatenate S64x64 0 [⟨S6x64, A m c main_call6_v0⟩, ⟨S58x64, A m c main_call6_v1⟩] concatenates_S6x64_S58x64_S64x64_d0 := by
    have h := binaryL (fun b => m (c, b)) 25 (by norm_num) (a := main_call6_v0) (b := main_call6_v1) (y := main_v11)
      (f := fun u v => concatenate S64x64 0 [⟨S6x64, u⟩, ⟨S58x64, v⟩] concatenates_S6x64_S58x64_S64x64_d0) (hop := rfl)
    exact h
  exact roll_of e0 e1 e2 rfl rfl ⟨6, by norm_num⟩ rfl i j

theorem roll_7 (i j : Fin 64) : A m c main_v12 (ix2 i j) = A m c main_v4 (ix2 (rollRow i ⟨7, by norm_num⟩) j) := by
  have e0 : A m c main_call7_v0 = extractStridedSlice S7x64 ![57, 0] (A m c main_v4) slices_S64x64_S7x64_57_0 := by
    have h := unaryL (fun b => m (c, b)) 26 (by norm_num) (x := main_v4) (y := main_call7_v0)
      (f := fun u => extractStridedSlice S7x64 ![57, 0] u slices_S64x64_S7x64_57_0) (hop := rfl)
    exact h
  have e1 : A m c main_call7_v1 = extractStridedSlice S57x64 ![0, 0] (A m c main_v4) slices_S64x64_S57x64_0_0 := by
    have h := unaryL (fun b => m (c, b)) 27 (by norm_num) (x := main_v4) (y := main_call7_v1)
      (f := fun u => extractStridedSlice S57x64 ![0, 0] u slices_S64x64_S57x64_0_0) (hop := rfl)
    exact h
  have e2 : A m c main_v12 = concatenate S64x64 0 [⟨S7x64, A m c main_call7_v0⟩, ⟨S57x64, A m c main_call7_v1⟩] concatenates_S7x64_S57x64_S64x64_d0 := by
    have h := binaryL (fun b => m (c, b)) 28 (by norm_num) (a := main_call7_v0) (b := main_call7_v1) (y := main_v12)
      (f := fun u v => concatenate S64x64 0 [⟨S7x64, u⟩, ⟨S57x64, v⟩] concatenates_S7x64_S57x64_S64x64_d0) (hop := rfl)
    exact h
  exact roll_of e0 e1 e2 rfl rfl ⟨7, by norm_num⟩ rfl i j

theorem roll_8 (i j : Fin 64) : A m c main_v13 (ix2 i j) = A m c main_v4 (ix2 (rollRow i ⟨8, by norm_num⟩) j) := by
  have e0 : A m c main_call8_v0 = extractStridedSlice S8x64 ![56, 0] (A m c main_v4) slices_S64x64_S8x64_56_0 := by
    have h := unaryL (fun b => m (c, b)) 29 (by norm_num) (x := main_v4) (y := main_call8_v0)
      (f := fun u => extractStridedSlice S8x64 ![56, 0] u slices_S64x64_S8x64_56_0) (hop := rfl)
    exact h
  have e1 : A m c main_call8_v1 = extractStridedSlice S56x64 ![0, 0] (A m c main_v4) slices_S64x64_S56x64_0_0 := by
    have h := unaryL (fun b => m (c, b)) 30 (by norm_num) (x := main_v4) (y := main_call8_v1)
      (f := fun u => extractStridedSlice S56x64 ![0, 0] u slices_S64x64_S56x64_0_0) (hop := rfl)
    exact h
  have e2 : A m c main_v13 = concatenate S64x64 0 [⟨S8x64, A m c main_call8_v0⟩, ⟨S56x64, A m c main_call8_v1⟩] concatenates_S8x64_S56x64_S64x64_d0 := by
    have h := binaryL (fun b => m (c, b)) 31 (by norm_num) (a := main_call8_v0) (b := main_call8_v1) (y := main_v13)
      (f := fun u v => concatenate S64x64 0 [⟨S8x64, u⟩, ⟨S56x64, v⟩] concatenates_S8x64_S56x64_S64x64_d0) (hop := rfl)
    exact h
  exact roll_of e0 e1 e2 rfl rfl ⟨8, by norm_num⟩ rfl i j

theorem roll_9 (i j : Fin 64) : A m c main_v14 (ix2 i j) = A m c main_v4 (ix2 (rollRow i ⟨9, by norm_num⟩) j) := by
  have e0 : A m c main_call9_v0 = extractStridedSlice S9x64 ![55, 0] (A m c main_v4) slices_S64x64_S9x64_55_0 := by
    have h := unaryL (fun b => m (c, b)) 32 (by norm_num) (x := main_v4) (y := main_call9_v0)
      (f := fun u => extractStridedSlice S9x64 ![55, 0] u slices_S64x64_S9x64_55_0) (hop := rfl)
    exact h
  have e1 : A m c main_call9_v1 = extractStridedSlice S55x64 ![0, 0] (A m c main_v4) slices_S64x64_S55x64_0_0 := by
    have h := unaryL (fun b => m (c, b)) 33 (by norm_num) (x := main_v4) (y := main_call9_v1)
      (f := fun u => extractStridedSlice S55x64 ![0, 0] u slices_S64x64_S55x64_0_0) (hop := rfl)
    exact h
  have e2 : A m c main_v14 = concatenate S64x64 0 [⟨S9x64, A m c main_call9_v0⟩, ⟨S55x64, A m c main_call9_v1⟩] concatenates_S9x64_S55x64_S64x64_d0 := by
    have h := binaryL (fun b => m (c, b)) 34 (by norm_num) (a := main_call9_v0) (b := main_call9_v1) (y := main_v14)
      (f := fun u v => concatenate S64x64 0 [⟨S9x64, u⟩, ⟨S55x64, v⟩] concatenates_S9x64_S55x64_S64x64_d0) (hop := rfl)
    exact h
  exact roll_of e0 e1 e2 rfl rfl ⟨9, by norm_num⟩ rfl i j

theorem roll_10 (i j : Fin 64) : A m c main_v15 (ix2 i j) = A m c main_v4 (ix2 (rollRow i ⟨10, by norm_num⟩) j) := by
  have e0 : A m c main_call10_v0 = extractStridedSlice S10x64 ![54, 0] (A m c main_v4) slices_S64x64_S10x64_54_0 := by
    have h := unaryL (fun b => m (c, b)) 35 (by norm_num) (x := main_v4) (y := main_call10_v0)
      (f := fun u => extractStridedSlice S10x64 ![54, 0] u slices_S64x64_S10x64_54_0) (hop := rfl)
    exact h
  have e1 : A m c main_call10_v1 = extractStridedSlice S54x64 ![0, 0] (A m c main_v4) slices_S64x64_S54x64_0_0 := by
    have h := unaryL (fun b => m (c, b)) 36 (by norm_num) (x := main_v4) (y := main_call10_v1)
      (f := fun u => extractStridedSlice S54x64 ![0, 0] u slices_S64x64_S54x64_0_0) (hop := rfl)
    exact h
  have e2 : A m c main_v15 = concatenate S64x64 0 [⟨S10x64, A m c main_call10_v0⟩, ⟨S54x64, A m c main_call10_v1⟩] concatenates_S10x64_S54x64_S64x64_d0 := by
    have h := binaryL (fun b => m (c, b)) 37 (by norm_num) (a := main_call10_v0) (b := main_call10_v1) (y := main_v15)
      (f := fun u v => concatenate S64x64 0 [⟨S10x64, u⟩, ⟨S54x64, v⟩] concatenates_S10x64_S54x64_S64x64_d0) (hop := rfl)
    exact h
  exact roll_of e0 e1 e2 rfl rfl ⟨10, by norm_num⟩ rfl i j

theorem roll_11 (i j : Fin 64) : A m c main_v16 (ix2 i j) = A m c main_v4 (ix2 (rollRow i ⟨11, by norm_num⟩) j) := by
  have e0 : A m c main_call11_v0 = extractStridedSlice S11x64 ![53, 0] (A m c main_v4) slices_S64x64_S11x64_53_0 := by
    have h := unaryL (fun b => m (c, b)) 38 (by norm_num) (x := main_v4) (y := main_call11_v0)
      (f := fun u => extractStridedSlice S11x64 ![53, 0] u slices_S64x64_S11x64_53_0) (hop := rfl)
    exact h
  have e1 : A m c main_call11_v1 = extractStridedSlice S53x64 ![0, 0] (A m c main_v4) slices_S64x64_S53x64_0_0 := by
    have h := unaryL (fun b => m (c, b)) 39 (by norm_num) (x := main_v4) (y := main_call11_v1)
      (f := fun u => extractStridedSlice S53x64 ![0, 0] u slices_S64x64_S53x64_0_0) (hop := rfl)
    exact h
  have e2 : A m c main_v16 = concatenate S64x64 0 [⟨S11x64, A m c main_call11_v0⟩, ⟨S53x64, A m c main_call11_v1⟩] concatenates_S11x64_S53x64_S64x64_d0 := by
    have h := binaryL (fun b => m (c, b)) 40 (by norm_num) (a := main_call11_v0) (b := main_call11_v1) (y := main_v16)
      (f := fun u v => concatenate S64x64 0 [⟨S11x64, u⟩, ⟨S53x64, v⟩] concatenates_S11x64_S53x64_S64x64_d0) (hop := rfl)
    exact h
  exact roll_of e0 e1 e2 rfl rfl ⟨11, by norm_num⟩ rfl i j

theorem roll_12 (i j : Fin 64) : A m c main_v17 (ix2 i j) = A m c main_v4 (ix2 (rollRow i ⟨12, by norm_num⟩) j) := by
  have e0 : A m c main_call12_v0 = extractStridedSlice S12x64 ![52, 0] (A m c main_v4) slices_S64x64_S12x64_52_0 := by
    have h := unaryL (fun b => m (c, b)) 41 (by norm_num) (x := main_v4) (y := main_call12_v0)
      (f := fun u => extractStridedSlice S12x64 ![52, 0] u slices_S64x64_S12x64_52_0) (hop := rfl)
    exact h
  have e1 : A m c main_call12_v1 = extractStridedSlice S52x64 ![0, 0] (A m c main_v4) slices_S64x64_S52x64_0_0 := by
    have h := unaryL (fun b => m (c, b)) 42 (by norm_num) (x := main_v4) (y := main_call12_v1)
      (f := fun u => extractStridedSlice S52x64 ![0, 0] u slices_S64x64_S52x64_0_0) (hop := rfl)
    exact h
  have e2 : A m c main_v17 = concatenate S64x64 0 [⟨S12x64, A m c main_call12_v0⟩, ⟨S52x64, A m c main_call12_v1⟩] concatenates_S12x64_S52x64_S64x64_d0 := by
    have h := binaryL (fun b => m (c, b)) 43 (by norm_num) (a := main_call12_v0) (b := main_call12_v1) (y := main_v17)
      (f := fun u v => concatenate S64x64 0 [⟨S12x64, u⟩, ⟨S52x64, v⟩] concatenates_S12x64_S52x64_S64x64_d0) (hop := rfl)
    exact h
  exact roll_of e0 e1 e2 rfl rfl ⟨12, by norm_num⟩ rfl i j

theorem roll_13 (i j : Fin 64) : A m c main_v18 (ix2 i j) = A m c main_v4 (ix2 (rollRow i ⟨13, by norm_num⟩) j) := by
  have e0 : A m c main_call13_v0 = extractStridedSlice S13x64 ![51, 0] (A m c main_v4) slices_S64x64_S13x64_51_0 := by
    have h := unaryL (fun b => m (c, b)) 44 (by norm_num) (x := main_v4) (y := main_call13_v0)
      (f := fun u => extractStridedSlice S13x64 ![51, 0] u slices_S64x64_S13x64_51_0) (hop := rfl)
    exact h
  have e1 : A m c main_call13_v1 = extractStridedSlice S51x64 ![0, 0] (A m c main_v4) slices_S64x64_S51x64_0_0 := by
    have h := unaryL (fun b => m (c, b)) 45 (by norm_num) (x := main_v4) (y := main_call13_v1)
      (f := fun u => extractStridedSlice S51x64 ![0, 0] u slices_S64x64_S51x64_0_0) (hop := rfl)
    exact h
  have e2 : A m c main_v18 = concatenate S64x64 0 [⟨S13x64, A m c main_call13_v0⟩, ⟨S51x64, A m c main_call13_v1⟩] concatenates_S13x64_S51x64_S64x64_d0 := by
    have h := binaryL (fun b => m (c, b)) 46 (by norm_num) (a := main_call13_v0) (b := main_call13_v1) (y := main_v18)
      (f := fun u v => concatenate S64x64 0 [⟨S13x64, u⟩, ⟨S51x64, v⟩] concatenates_S13x64_S51x64_S64x64_d0) (hop := rfl)
    exact h
  exact roll_of e0 e1 e2 rfl rfl ⟨13, by norm_num⟩ rfl i j

theorem roll_14 (i j : Fin 64) : A m c main_v19 (ix2 i j) = A m c main_v4 (ix2 (rollRow i ⟨14, by norm_num⟩) j) := by
  have e0 : A m c main_call14_v0 = extractStridedSlice S14x64 ![50, 0] (A m c main_v4) slices_S64x64_S14x64_50_0 := by
    have h := unaryL (fun b => m (c, b)) 47 (by norm_num) (x := main_v4) (y := main_call14_v0)
      (f := fun u => extractStridedSlice S14x64 ![50, 0] u slices_S64x64_S14x64_50_0) (hop := rfl)
    exact h
  have e1 : A m c main_call14_v1 = extractStridedSlice S50x64 ![0, 0] (A m c main_v4) slices_S64x64_S50x64_0_0 := by
    have h := unaryL (fun b => m (c, b)) 48 (by norm_num) (x := main_v4) (y := main_call14_v1)
      (f := fun u => extractStridedSlice S50x64 ![0, 0] u slices_S64x64_S50x64_0_0) (hop := rfl)
    exact h
  have e2 : A m c main_v19 = concatenate S64x64 0 [⟨S14x64, A m c main_call14_v0⟩, ⟨S50x64, A m c main_call14_v1⟩] concatenates_S14x64_S50x64_S64x64_d0 := by
    have h := binaryL (fun b => m (c, b)) 49 (by norm_num) (a := main_call14_v0) (b := main_call14_v1) (y := main_v19)
      (f := fun u v => concatenate S64x64 0 [⟨S14x64, u⟩, ⟨S50x64, v⟩] concatenates_S14x64_S50x64_S64x64_d0) (hop := rfl)
    exact h
  exact roll_of e0 e1 e2 rfl rfl ⟨14, by norm_num⟩ rfl i j

theorem roll_15 (i j : Fin 64) : A m c main_v20 (ix2 i j) = A m c main_v4 (ix2 (rollRow i ⟨15, by norm_num⟩) j) := by
  have e0 : A m c main_call15_v0 = extractStridedSlice S15x64 ![49, 0] (A m c main_v4) slices_S64x64_S15x64_49_0 := by
    have h := unaryL (fun b => m (c, b)) 50 (by norm_num) (x := main_v4) (y := main_call15_v0)
      (f := fun u => extractStridedSlice S15x64 ![49, 0] u slices_S64x64_S15x64_49_0) (hop := rfl)
    exact h
  have e1 : A m c main_call15_v1 = extractStridedSlice S49x64 ![0, 0] (A m c main_v4) slices_S64x64_S49x64_0_0 := by
    have h := unaryL (fun b => m (c, b)) 51 (by norm_num) (x := main_v4) (y := main_call15_v1)
      (f := fun u => extractStridedSlice S49x64 ![0, 0] u slices_S64x64_S49x64_0_0) (hop := rfl)
    exact h
  have e2 : A m c main_v20 = concatenate S64x64 0 [⟨S15x64, A m c main_call15_v0⟩, ⟨S49x64, A m c main_call15_v1⟩] concatenates_S15x64_S49x64_S64x64_d0 := by
    have h := binaryL (fun b => m (c, b)) 52 (by norm_num) (a := main_call15_v0) (b := main_call15_v1) (y := main_v20)
      (f := fun u v => concatenate S64x64 0 [⟨S15x64, u⟩, ⟨S49x64, v⟩] concatenates_S15x64_S49x64_S64x64_d0) (hop := rfl)
    exact h
  exact roll_of e0 e1 e2 rfl rfl ⟨15, by norm_num⟩ rfl i j

theorem roll_16 (i j : Fin 64) : A m c main_v21 (ix2 i j) = A m c main_v4 (ix2 (rollRow i ⟨16, by norm_num⟩) j) := by
  have e0 : A m c main_call16_v0 = extractStridedSlice S16x64 ![48, 0] (A m c main_v4) slices_S64x64_S16x64_48_0 := by
    have h := unaryL (fun b => m (c, b)) 53 (by norm_num) (x := main_v4) (y := main_call16_v0)
      (f := fun u => extractStridedSlice S16x64 ![48, 0] u slices_S64x64_S16x64_48_0) (hop := rfl)
    exact h
  have e1 : A m c main_call16_v1 = extractStridedSlice S48x64 ![0, 0] (A m c main_v4) slices_S64x64_S48x64_0_0 := by
    have h := unaryL (fun b => m (c, b)) 54 (by norm_num) (x := main_v4) (y := main_call16_v1)
      (f := fun u => extractStridedSlice S48x64 ![0, 0] u slices_S64x64_S48x64_0_0) (hop := rfl)
    exact h
  have e2 : A m c main_v21 = concatenate S64x64 0 [⟨S16x64, A m c main_call16_v0⟩, ⟨S48x64, A m c main_call16_v1⟩] concatenates_S16x64_S48x64_S64x64_d0 := by
    have h := binaryL (fun b => m (c, b)) 55 (by norm_num) (a := main_call16_v0) (b := main_call16_v1) (y := main_v21)
      (f := fun u v => concatenate S64x64 0 [⟨S16x64, u⟩, ⟨S48x64, v⟩] concatenates_S16x64_S48x64_S64x64_d0) (hop := rfl)
    exact h
  exact roll_of e0 e1 e2 rfl rfl ⟨16, by norm_num⟩ rfl i j

theorem roll_17 (i j : Fin 64) : A m c main_v22 (ix2 i j) = A m c main_v4 (ix2 (rollRow i ⟨17, by norm_num⟩) j) := by
  have e0 : A m c main_call17_v0 = extractStridedSlice S17x64 ![47, 0] (A m c main_v4) slices_S64x64_S17x64_47_0 := by
    have h := unaryL (fun b => m (c, b)) 56 (by norm_num) (x := main_v4) (y := main_call17_v0)
      (f := fun u => extractStridedSlice S17x64 ![47, 0] u slices_S64x64_S17x64_47_0) (hop := rfl)
    exact h
  have e1 : A m c main_call17_v1 = extractStridedSlice S47x64 ![0, 0] (A m c main_v4) slices_S64x64_S47x64_0_0 := by
    have h := unaryL (fun b => m (c, b)) 57 (by norm_num) (x := main_v4) (y := main_call17_v1)
      (f := fun u => extractStridedSlice S47x64 ![0, 0] u slices_S64x64_S47x64_0_0) (hop := rfl)
    exact h
  have e2 : A m c main_v22 = concatenate S64x64 0 [⟨S17x64, A m c main_call17_v0⟩, ⟨S47x64, A m c main_call17_v1⟩] concatenates_S17x64_S47x64_S64x64_d0 := by
    have h := binaryL (fun b => m (c, b)) 58 (by norm_num) (a := main_call17_v0) (b := main_call17_v1) (y := main_v22)
      (f := fun u v => concatenate S64x64 0 [⟨S17x64, u⟩, ⟨S47x64, v⟩] concatenates_S17x64_S47x64_S64x64_d0) (hop := rfl)
    exact h
  exact roll_of e0 e1 e2 rfl rfl ⟨17, by norm_num⟩ rfl i j

theorem roll_18 (i j : Fin 64) : A m c main_v23 (ix2 i j) = A m c main_v4 (ix2 (rollRow i ⟨18, by norm_num⟩) j) := by
  have e0 : A m c main_call18_v0 = extractStridedSlice S18x64 ![46, 0] (A m c main_v4) slices_S64x64_S18x64_46_0 := by
    have h := unaryL (fun b => m (c, b)) 59 (by norm_num) (x := main_v4) (y := main_call18_v0)
      (f := fun u => extractStridedSlice S18x64 ![46, 0] u slices_S64x64_S18x64_46_0) (hop := rfl)
    exact h
  have e1 : A m c main_call18_v1 = extractStridedSlice S46x64 ![0, 0] (A m c main_v4) slices_S64x64_S46x64_0_0 := by
    have h := unaryL (fun b => m (c, b)) 60 (by norm_num) (x := main_v4) (y := main_call18_v1)
      (f := fun u => extractStridedSlice S46x64 ![0, 0] u slices_S64x64_S46x64_0_0) (hop := rfl)
    exact h
  have e2 : A m c main_v23 = concatenate S64x64 0 [⟨S18x64, A m c main_call18_v0⟩, ⟨S46x64, A m c main_call18_v1⟩] concatenates_S18x64_S46x64_S64x64_d0 := by
    have h := binaryL (fun b => m (c, b)) 61 (by norm_num) (a := main_call18_v0) (b := main_call18_v1) (y := main_v23)
      (f := fun u v => concatenate S64x64 0 [⟨S18x64, u⟩, ⟨S46x64, v⟩] concatenates_S18x64_S46x64_S64x64_d0) (hop := rfl)
    exact h
  exact roll_of e0 e1 e2 rfl rfl ⟨18, by norm_num⟩ rfl i j

theorem roll_19 (i j : Fin 64) : A m c main_v24 (ix2 i j) = A m c main_v4 (ix2 (rollRow i ⟨19, by norm_num⟩) j) := by
  have e0 : A m c main_call19_v0 = extractStridedSlice S19x64 ![45, 0] (A m c main_v4) slices_S64x64_S19x64_45_0 := by
    have h := unaryL (fun b => m (c, b)) 62 (by norm_num) (x := main_v4) (y := main_call19_v0)
      (f := fun u => extractStridedSlice S19x64 ![45, 0] u slices_S64x64_S19x64_45_0) (hop := rfl)
    exact h
  have e1 : A m c main_call19_v1 = extractStridedSlice S45x64 ![0, 0] (A m c main_v4) slices_S64x64_S45x64_0_0 := by
    have h := unaryL (fun b => m (c, b)) 63 (by norm_num) (x := main_v4) (y := main_call19_v1)
      (f := fun u => extractStridedSlice S45x64 ![0, 0] u slices_S64x64_S45x64_0_0) (hop := rfl)
    exact h
  have e2 : A m c main_v24 = concatenate S64x64 0 [⟨S19x64, A m c main_call19_v0⟩, ⟨S45x64, A m c main_call19_v1⟩] concatenates_S19x64_S45x64_S64x64_d0 := by
    have h := binaryL (fun b => m (c, b)) 64 (by norm_num) (a := main_call19_v0) (b := main_call19_v1) (y := main_v24)
      (f := fun u v => concatenate S64x64 0 [⟨S19x64, u⟩, ⟨S45x64, v⟩] concatenates_S19x64_S45x64_S64x64_d0) (hop := rfl)
    exact h
  exact roll_of e0 e1 e2 rfl rfl ⟨19, by norm_num⟩ rfl i j

theorem roll_20 (i j : Fin 64) : A m c main_v25 (ix2 i j) = A m c main_v4 (ix2 (rollRow i ⟨20, by norm_num⟩) j) := by
  have e0 : A m c main_call20_v0 = extractStridedSlice S20x64 ![44, 0] (A m c main_v4) slices_S64x64_S20x64_44_0 := by
    have h := unaryL (fun b => m (c, b)) 65 (by norm_num) (x := main_v4) (y := main_call20_v0)
      (f := fun u => extractStridedSlice S20x64 ![44, 0] u slices_S64x64_S20x64_44_0) (hop := rfl)
    exact h
  have e1 : A m c main_call20_v1 = extractStridedSlice S44x64 ![0, 0] (A m c main_v4) slices_S64x64_S44x64_0_0 := by
    have h := unaryL (fun b => m (c, b)) 66 (by norm_num) (x := main_v4) (y := main_call20_v1)
      (f := fun u => extractStridedSlice S44x64 ![0, 0] u slices_S64x64_S44x64_0_0) (hop := rfl)
    exact h
  have e2 : A m c main_v25 = concatenate S64x64 0 [⟨S20x64, A m c main_call20_v0⟩, ⟨S44x64, A m c main_call20_v1⟩] concatenates_S20x64_S44x64_S64x64_d0 := by
    have h := binaryL (fun b => m (c, b)) 67 (by norm_num) (a := main_call20_v0) (b := main_call20_v1) (y := main_v25)
      (f := fun u v => concatenate S64x64 0 [⟨S20x64, u⟩, ⟨S44x64, v⟩] concatenates_S20x64_S44x64_S64x64_d0) (hop := rfl)
    exact h
  exact roll_of e0 e1 e2 rfl rfl ⟨20, by norm_num⟩ rfl i j

theorem roll_21 (i j : Fin 64) : A m c main_v26 (ix2 i j) = A m c main_v4 (ix2 (rollRow i ⟨21, by norm_num⟩) j) := by
  have e0 : A m c main_call21_v0 = extractStridedSlice S21x64 ![43, 0] (A m c main_v4) slices_S64x64_S21x64_43_0 := by
    have h := unaryL (fun b => m (c, b)) 68 (by norm_num) (x := main_v4) (y := main_call21_v0)
      (f := fun u => extractStridedSlice S21x64 ![43, 0] u slices_S64x64_S21x64_43_0) (hop := rfl)
    exact h
  have e1 : A m c main_call21_v1 = extractStridedSlice S43x64 ![0, 0] (A m c main_v4) slices_S64x64_S43x64_0_0 := by
    have h := unaryL (fun b => m (c, b)) 69 (by norm_num) (x := main_v4) (y := main_call21_v1)
      (f := fun u => extractStridedSlice S43x64 ![0, 0] u slices_S64x64_S43x64_0_0) (hop := rfl)
    exact h
  have e2 : A m c main_v26 = concatenate S64x64 0 [⟨S21x64, A m c main_call21_v0⟩, ⟨S43x64, A m c main_call21_v1⟩] concatenates_S21x64_S43x64_S64x64_d0 := by
    have h := binaryL (fun b => m (c, b)) 70 (by norm_num) (a := main_call21_v0) (b := main_call21_v1) (y := main_v26)
      (f := fun u v => concatenate S64x64 0 [⟨S21x64, u⟩, ⟨S43x64, v⟩] concatenates_S21x64_S43x64_S64x64_d0) (hop := rfl)
    exact h
  exact roll_of e0 e1 e2 rfl rfl ⟨21, by norm_num⟩ rfl i j

theorem roll_22 (i j : Fin 64) : A m c main_v27 (ix2 i j) = A m c main_v4 (ix2 (rollRow i ⟨22, by norm_num⟩) j) := by
  have e0 : A m c main_call22_v0 = extractStridedSlice S22x64 ![42, 0] (A m c main_v4) slices_S64x64_S22x64_42_0 := by
    have h := unaryL (fun b => m (c, b)) 71 (by norm_num) (x := main_v4) (y := main_call22_v0)
      (f := fun u => extractStridedSlice S22x64 ![42, 0] u slices_S64x64_S22x64_42_0) (hop := rfl)
    exact h
  have e1 : A m c main_call22_v1 = extractStridedSlice S42x64 ![0, 0] (A m c main_v4) slices_S64x64_S42x64_0_0 := by
    have h := unaryL (fun b => m (c, b)) 72 (by norm_num) (x := main_v4) (y := main_call22_v1)
      (f := fun u => extractStridedSlice S42x64 ![0, 0] u slices_S64x64_S42x64_0_0) (hop := rfl)
    exact h
  have e2 : A m c main_v27 = concatenate S64x64 0 [⟨S22x64, A m c main_call22_v0⟩, ⟨S42x64, A m c main_call22_v1⟩] concatenates_S22x64_S42x64_S64x64_d0 := by
    have h := binaryL (fun b => m (c, b)) 73 (by norm_num) (a := main_call22_v0) (b := main_call22_v1) (y := main_v27)
      (f := fun u v => concatenate S64x64 0 [⟨S22x64, u⟩, ⟨S42x64, v⟩] concatenates_S22x64_S42x64_S64x64_d0) (hop := rfl)
    exact h
  exact roll_of e0 e1 e2 rfl rfl ⟨22, by norm_num⟩ rfl i j

theorem roll_23 (i j : Fin 64) : A m c main_v28 (ix2 i j) = A m c main_v4 (ix2 (rollRow i ⟨23, by norm_num⟩) j) := by
  have e0 : A m c main_call23_v0 = extractStridedSlice S23x64 ![41, 0] (A m c main_v4) slices_S64x64_S23x64_41_0 := by
    have h := unaryL (fun b => m (c, b)) 74 (by norm_num) (x := main_v4) (y := main_call23_v0)
      (f := fun u => extractStridedSlice S23x64 ![41, 0] u slices_S64x64_S23x64_41_0) (hop := rfl)
    exact h
  have e1 : A m c main_call23_v1 = extractStridedSlice S41x64 ![0, 0] (A m c main_v4) slices_S64x64_S41x64_0_0 := by
    have h := unaryL (fun b => m (c, b)) 75 (by norm_num) (x := main_v4) (y := main_call23_v1)
      (f := fun u => extractStridedSlice S41x64 ![0, 0] u slices_S64x64_S41x64_0_0) (hop := rfl)
    exact h
  have e2 : A m c main_v28 = concatenate S64x64 0 [⟨S23x64, A m c main_call23_v0⟩, ⟨S41x64, A m c main_call23_v1⟩] concatenates_S23x64_S41x64_S64x64_d0 := by
    have h := binaryL (fun b => m (c, b)) 76 (by norm_num) (a := main_call23_v0) (b := main_call23_v1) (y := main_v28)
      (f := fun u v => concatenate S64x64 0 [⟨S23x64, u⟩, ⟨S41x64, v⟩] concatenates_S23x64_S41x64_S64x64_d0) (hop := rfl)
    exact h
  exact roll_of e0 e1 e2 rfl rfl ⟨23, by norm_num⟩ rfl i j

theorem roll_24 (i j : Fin 64) : A m c main_v29 (ix2 i j) = A m c main_v4 (ix2 (rollRow i ⟨24, by norm_num⟩) j) := by
  have e0 : A m c main_call24_v0 = extractStridedSlice S24x64 ![40, 0] (A m c main_v4) slices_S64x64_S24x64_40_0 := by
    have h := unaryL (fun b => m (c, b)) 77 (by norm_num) (x := main_v4) (y := main_call24_v0)
      (f := fun u => extractStridedSlice S24x64 ![40, 0] u slices_S64x64_S24x64_40_0) (hop := rfl)
    exact h
  have e1 : A m c main_call24_v1 = extractStridedSlice S40x64 ![0, 0] (A m c main_v4) slices_S64x64_S40x64_0_0 := by
    have h := unaryL (fun b => m (c, b)) 78 (by norm_num) (x := main_v4) (y := main_call24_v1)
      (f := fun u => extractStridedSlice S40x64 ![0, 0] u slices_S64x64_S40x64_0_0) (hop := rfl)
    exact h
  have e2 : A m c main_v29 = concatenate S64x64 0 [⟨S24x64, A m c main_call24_v0⟩, ⟨S40x64, A m c main_call24_v1⟩] concatenates_S24x64_S40x64_S64x64_d0 := by
    have h := binaryL (fun b => m (c, b)) 79 (by norm_num) (a := main_call24_v0) (b := main_call24_v1) (y := main_v29)
      (f := fun u v => concatenate S64x64 0 [⟨S24x64, u⟩, ⟨S40x64, v⟩] concatenates_S24x64_S40x64_S64x64_d0) (hop := rfl)
    exact h
  exact roll_of e0 e1 e2 rfl rfl ⟨24, by norm_num⟩ rfl i j

theorem roll_25 (i j : Fin 64) : A m c main_v30 (ix2 i j) = A m c main_v4 (ix2 (rollRow i ⟨25, by norm_num⟩) j) := by
  have e0 : A m c main_call25_v0 = extractStridedSlice S25x64 ![39, 0] (A m c main_v4) slices_S64x64_S25x64_39_0 := by
    have h := unaryL (fun b => m (c, b)) 80 (by norm_num) (x := main_v4) (y := main_call25_v0)
      (f := fun u => extractStridedSlice S25x64 ![39, 0] u slices_S64x64_S25x64_39_0) (hop := rfl)
    exact h
  have e1 : A m c main_call25_v1 = extractStridedSlice S39x64 ![0, 0] (A m c main_v4) slices_S64x64_S39x64_0_0 := by
    have h := unaryL (fun b => m (c, b)) 81 (by norm_num) (x := main_v4) (y := main_call25_v1)
      (f := fun u => extractStridedSlice S39x64 ![0, 0] u slices_S64x64_S39x64_0_0) (hop := rfl)
    exact h
  have e2 : A m c main_v30 = concatenate S64x64 0 [⟨S25x64, A m c main_call25_v0⟩, ⟨S39x64, A m c main_call25_v1⟩] concatenates_S25x64_S39x64_S64x64_d0 := by
    have h := binaryL (fun b => m (c, b)) 82 (by norm_num) (a := main_call25_v0) (b := main_call25_v1) (y := main_v30)
      (f := fun u v => concatenate S64x64 0 [⟨S25x64, u⟩, ⟨S39x64, v⟩] concatenates_S25x64_S39x64_S64x64_d0) (hop := rfl)
    exact h
  exact roll_of e0 e1 e2 rfl rfl ⟨25, by norm_num⟩ rfl i j

theorem roll_26 (i j : Fin 64) : A m c main_v31 (ix2 i j) = A m c main_v4 (ix2 (rollRow i ⟨26, by norm_num⟩) j) := by
  have e0 : A m c main_call26_v0 = extractStridedSlice S26x64 ![38, 0] (A m c main_v4) slices_S64x64_S26x64_38_0 := by
    have h := unaryL (fun b => m (c, b)) 83 (by norm_num) (x := main_v4) (y := main_call26_v0)
      (f := fun u => extractStridedSlice S26x64 ![38, 0] u slices_S64x64_S26x64_38_0) (hop := rfl)
    exact h
  have e1 : A m c main_call26_v1 = extractStridedSlice S38x64 ![0, 0] (A m c main_v4) slices_S64x64_S38x64_0_0 := by
    have h := unaryL (fun b => m (c, b)) 84 (by norm_num) (x := main_v4) (y := main_call26_v1)
      (f := fun u => extractStridedSlice S38x64 ![0, 0] u slices_S64x64_S38x64_0_0) (hop := rfl)
    exact h
  have e2 : A m c main_v31 = concatenate S64x64 0 [⟨S26x64, A m c main_call26_v0⟩, ⟨S38x64, A m c main_call26_v1⟩] concatenates_S26x64_S38x64_S64x64_d0 := by
    have h := binaryL (fun b => m (c, b)) 85 (by norm_num) (a := main_call26_v0) (b := main_call26_v1) (y := main_v31)
      (f := fun u v => concatenate S64x64 0 [⟨S26x64, u⟩, ⟨S38x64, v⟩] concatenates_S26x64_S38x64_S64x64_d0) (hop := rfl)
    exact h
  exact roll_of e0 e1 e2 rfl rfl ⟨26, by norm_num⟩ rfl i j

theorem roll_27 (i j : Fin 64) : A m c main_v32 (ix2 i j) = A m c main_v4 (ix2 (rollRow i ⟨27, by norm_num⟩) j) := by
  have e0 : A m c main_call27_v0 = extractStridedSlice S27x64 ![37, 0] (A m c main_v4) slices_S64x64_S27x64_37_0 := by
    have h := unaryL (fun b => m (c, b)) 86 (by norm_num) (x := main_v4) (y := main_call27_v0)
      (f := fun u => extractStridedSlice S27x64 ![37, 0] u slices_S64x64_S27x64_37_0) (hop := rfl)
    exact h
  have e1 : A m c main_call27_v1 = extractStridedSlice S37x64 ![0, 0] (A m c main_v4) slices_S64x64_S37x64_0_0 := by
    have h := unaryL (fun b => m (c, b)) 87 (by norm_num) (x := main_v4) (y := main_call27_v1)
      (f := fun u => extractStridedSlice S37x64 ![0, 0] u slices_S64x64_S37x64_0_0) (hop := rfl)
    exact h
  have e2 : A m c main_v32 = concatenate S64x64 0 [⟨S27x64, A m c main_call27_v0⟩, ⟨S37x64, A m c main_call27_v1⟩] concatenates_S27x64_S37x64_S64x64_d0 := by
    have h := binaryL (fun b => m (c, b)) 88 (by norm_num) (a := main_call27_v0) (b := main_call27_v1) (y := main_v32)
      (f := fun u v => concatenate S64x64 0 [⟨S27x64, u⟩, ⟨S37x64, v⟩] concatenates_S27x64_S37x64_S64x64_d0) (hop := rfl)
    exact h
  exact roll_of e0 e1 e2 rfl rfl ⟨27, by norm_num⟩ rfl i j

theorem roll_28 (i j : Fin 64) : A m c main_v33 (ix2 i j) = A m c main_v4 (ix2 (rollRow i ⟨28, by norm_num⟩) j) := by
  have e0 : A m c main_call28_v0 = extractStridedSlice S28x64 ![36, 0] (A m c main_v4) slices_S64x64_S28x64_36_0 := by
    have h := unaryL (fun b => m (c, b)) 89 (by norm_num) (x := main_v4) (y := main_call28_v0)
      (f := fun u => extractStridedSlice S28x64 ![36, 0] u slices_S64x64_S28x64_36_0) (hop := rfl)
    exact h
  have e1 : A m c main_call28_v1 = extractStridedSlice S36x64 ![0, 0] (A m c main_v4) slices_S64x64_S36x64_0_0 := by
    have h := unaryL (fun b => m (c, b)) 90 (by norm_num) (x := main_v4) (y := main_call28_v1)
      (f := fun u => extractStridedSlice S36x64 ![0, 0] u slices_S64x64_S36x64_0_0) (hop := rfl)
    exact h
  have e2 : A m c main_v33 = concatenate S64x64 0 [⟨S28x64, A m c main_call28_v0⟩, ⟨S36x64, A m c main_call28_v1⟩] concatenates_S28x64_S36x64_S64x64_d0 := by
    have h := binaryL (fun b => m (c, b)) 91 (by norm_num) (a := main_call28_v0) (b := main_call28_v1) (y := main_v33)
      (f := fun u v => concatenate S64x64 0 [⟨S28x64, u⟩, ⟨S36x64, v⟩] concatenates_S28x64_S36x64_S64x64_d0) (hop := rfl)
    exact h
  exact roll_of e0 e1 e2 rfl rfl ⟨28, by norm_num⟩ rfl i j

theorem roll_29 (i j : Fin 64) : A m c main_v34 (ix2 i j) = A m c main_v4 (ix2 (rollRow i ⟨29, by norm_num⟩) j) := by
  have e0 : A m c main_call29_v0 = extractStridedSlice S29x64 ![35, 0] (A m c main_v4) slices_S64x64_S29x64_35_0 := by
    have h := unaryL (fun b => m (c, b)) 92 (by norm_num) (x := main_v4) (y := main_call29_v0)
      (f := fun u => extractStridedSlice S29x64 ![35, 0] u slices_S64x64_S29x64_35_0) (hop := rfl)
    exact h
  have e1 : A m c main_call29_v1 = extractStridedSlice S35x64 ![0, 0] (A m c main_v4) slices_S64x64_S35x64_0_0 := by
    have h := unaryL (fun b => m (c, b)) 93 (by norm_num) (x := main_v4) (y := main_call29_v1)
      (f := fun u => extractStridedSlice S35x64 ![0, 0] u slices_S64x64_S35x64_0_0) (hop := rfl)
    exact h
  have e2 : A m c main_v34 = concatenate S64x64 0 [⟨S29x64, A m c main_call29_v0⟩, ⟨S35x64, A m c main_call29_v1⟩] concatenates_S29x64_S35x64_S64x64_d0 := by
    have h := binaryL (fun b => m (c, b)) 94 (by norm_num) (a := main_call29_v0) (b := main_call29_v1) (y := main_v34)
      (f := fun u v => concatenate S64x64 0 [⟨S29x64, u⟩, ⟨S35x64, v⟩] concatenates_S29x64_S35x64_S64x64_d0) (hop := rfl)
    exact h
  exact roll_of e0 e1 e2 rfl rfl ⟨29, by norm_num⟩ rfl i j

theorem roll_30 (i j : Fin 64) : A m c main_v35 (ix2 i j) = A m c main_v4 (ix2 (rollRow i ⟨30, by norm_num⟩) j) := by
  have e0 : A m c main_call30_v0 = extractStridedSlice S30x64 ![34, 0] (A m c main_v4) slices_S64x64_S30x64_34_0 := by
    have h := unaryL (fun b => m (c, b)) 95 (by norm_num) (x := main_v4) (y := main_call30_v0)
      (f := fun u => extractStridedSlice S30x64 ![34, 0] u slices_S64x64_S30x64_34_0) (hop := rfl)
    exact h
  have e1 : A m c main_call30_v1 = extractStridedSlice S34x64 ![0, 0] (A m c main_v4) slices_S64x64_S34x64_0_0 := by
    have h := unaryL (fun b => m (c, b)) 96 (by norm_num) (x := main_v4) (y := main_call30_v1)
      (f := fun u => extractStridedSlice S34x64 ![0, 0] u slices_S64x64_S34x64_0_0) (hop := rfl)
    exact h
  have e2 : A m c main_v35 = concatenate S64x64 0 [⟨S30x64, A m c main_call30_v0⟩, ⟨S34x64, A m c main_call30_v1⟩] concatenates_S30x64_S34x64_S64x64_d0 := by
    have h := binaryL (fun b => m (c, b)) 97 (by norm_num) (a := main_call30_v0) (b := main_call30_v1) (y := main_v35)
      (f := fun u v => concatenate S64x64 0 [⟨S30x64, u⟩, ⟨S34x64, v⟩] concatenates_S30x64_S34x64_S64x64_d0) (hop := rfl)
    exact h
  exact roll_of e0 e1 e2 rfl rfl ⟨30, by norm_num⟩ rfl i j

/-- The table is its first 16 channels beside its last 15. -/
theorem v69_eq : A m c main_v69 = concatenate S64x64x31 2 [⟨S64x64x16, A m c main_v67⟩, ⟨S64x64x15, A m c main_v68⟩]
    concatenates_S64x64x16_S64x64x15_S64x64x31_d2 := by
  have h := binaryL (fun b => m (c, b)) 131 (by norm_num) (a := main_v67) (b := main_v68) (y := main_v69)
    (f := fun u v => concatenate S64x64x31 2 [⟨S64x64x16, u⟩, ⟨S64x64x15, v⟩] concatenates_S64x64x16_S64x64x15_S64x64x31_d2)
    (hop := rfl)
  exact h

/-- The first 16 channels, one unit-width slab each. -/
theorem v67_eq : A m c main_v67 = concatenate S64x64x16 2
    [⟨S64x64x1, A m c main_v36⟩, ⟨S64x64x1, A m c main_v37⟩, ⟨S64x64x1, A m c main_v38⟩, ⟨S64x64x1, A m c main_v39⟩, ⟨S64x64x1, A m c main_v40⟩, ⟨S64x64x1, A m c main_v41⟩, ⟨S64x64x1, A m c main_v42⟩, ⟨S64x64x1, A m c main_v43⟩, ⟨S64x64x1, A m c main_v44⟩, ⟨S64x64x1, A m c main_v45⟩, ⟨S64x64x1, A m c main_v46⟩, ⟨S64x64x1, A m c main_v47⟩, ⟨S64x64x1, A m c main_v48⟩, ⟨S64x64x1, A m c main_v49⟩, ⟨S64x64x1, A m c main_v50⟩, ⟨S64x64x1, A m c main_v51⟩]
    concatenates_S64x64x1_S64x64x1_S64x64x1_S64x64x1_S64x64x1_S64x64x1_S64x64x1_S64x64x1_S64x64x1_S64x64x1_S64x64x1_S64x64x1_S64x64x1_S64x64x1_S64x64x1_S64x64x1_S64x64x16_d2 := by
  have h := naryL (fun b => m (c, b)) 129 (by norm_num)
    (xs := ![main_v36, main_v37, main_v38, main_v39, main_v40, main_v41, main_v42, main_v43, main_v44, main_v45, main_v46, main_v47, main_v48, main_v49, main_v50, main_v51]) (y := main_v67)
    (f := fun u => concatenate S64x64x16 2
      [⟨S64x64x1, u 0⟩, ⟨S64x64x1, u 1⟩, ⟨S64x64x1, u 2⟩, ⟨S64x64x1, u 3⟩, ⟨S64x64x1, u 4⟩, ⟨S64x64x1, u 5⟩, ⟨S64x64x1, u 6⟩, ⟨S64x64x1, u 7⟩, ⟨S64x64x1, u 8⟩, ⟨S64x64x1, u 9⟩, ⟨S64x64x1, u 10⟩, ⟨S64x64x1, u 11⟩, ⟨S64x64x1, u 12⟩, ⟨S64x64x1, u 13⟩, ⟨S64x64x1, u 14⟩, ⟨S64x64x1, u 15⟩]
      concatenates_S64x64x1_S64x64x1_S64x64x1_S64x64x1_S64x64x1_S64x64x1_S64x64x1_S64x64x1_S64x64x1_S64x64x1_S64x64x1_S64x64x1_S64x64x1_S64x64x1_S64x64x1_S64x64x1_S64x64x16_d2)
    (hop := rfl)
  exact h

/-- The last 15 channels, one unit-width slab each. -/
theorem v68_eq : A m c main_v68 = concatenate S64x64x15 2
    [⟨S64x64x1, A m c main_v52⟩, ⟨S64x64x1, A m c main_v53⟩, ⟨S64x64x1, A m c main_v54⟩, ⟨S64x64x1, A m c main_v55⟩, ⟨S64x64x1, A m c main_v56⟩, ⟨S64x64x1, A m c main_v57⟩, ⟨S64x64x1, A m c main_v58⟩, ⟨S64x64x1, A m c main_v59⟩, ⟨S64x64x1, A m c main_v60⟩, ⟨S64x64x1, A m c main_v61⟩, ⟨S64x64x1, A m c main_v62⟩, ⟨S64x64x1, A m c main_v63⟩, ⟨S64x64x1, A m c main_v64⟩, ⟨S64x64x1, A m c main_v65⟩, ⟨S64x64x1, A m c main_v66⟩]
    concatenates_S64x64x1_S64x64x1_S64x64x1_S64x64x1_S64x64x1_S64x64x1_S64x64x1_S64x64x1_S64x64x1_S64x64x1_S64x64x1_S64x64x1_S64x64x1_S64x64x1_S64x64x1_S64x64x15_d2 := by
  have h := naryL (fun b => m (c, b)) 130 (by norm_num)
    (xs := ![main_v52, main_v53, main_v54, main_v55, main_v56, main_v57, main_v58, main_v59, main_v60, main_v61, main_v62, main_v63, main_v64, main_v65, main_v66]) (y := main_v68)
    (f := fun u => concatenate S64x64x15 2
      [⟨S64x64x1, u 0⟩, ⟨S64x64x1, u 1⟩, ⟨S64x64x1, u 2⟩, ⟨S64x64x1, u 3⟩, ⟨S64x64x1, u 4⟩, ⟨S64x64x1, u 5⟩, ⟨S64x64x1, u 6⟩, ⟨S64x64x1, u 7⟩, ⟨S64x64x1, u 8⟩, ⟨S64x64x1, u 9⟩, ⟨S64x64x1, u 10⟩, ⟨S64x64x1, u 11⟩, ⟨S64x64x1, u 12⟩, ⟨S64x64x1, u 13⟩, ⟨S64x64x1, u 14⟩]
      concatenates_S64x64x1_S64x64x1_S64x64x1_S64x64x1_S64x64x1_S64x64x1_S64x64x1_S64x64x1_S64x64x1_S64x64x1_S64x64x1_S64x64x1_S64x64x1_S64x64x1_S64x64x1_S64x64x15_d2)
    (hop := rfl)
  exact h

/-- A channel below 16 is read in the first block. -/
theorem read_lo (i j : Fin 64) (l : Fin 31) (l₁ : Fin 16) (hl : l₁.val = l.val) :
    A m c main_v69 (ix3 i j l) = A m c main_v67 (ix3 i j l₁) :=
  (congrFun (v69_eq m c) _).trans (pairLast_left (A m c main_v67) (A m c main_v68) _ i j l l₁ hl)

/-- A channel from 16 on is read in the second block, 16 less. -/
theorem read_hi (i j : Fin 64) (l : Fin 31) (l₂ : Fin 15) (hl : l₂.val + 16 = l.val) :
    A m c main_v69 (ix3 i j l) = A m c main_v68 (ix3 i j l₂) :=
  (congrFun (v69_eq m c) _).trans (pairLast_right (A m c main_v67) (A m c main_v68) _ i j l l₂ hl)

/-- A slab that is a square with a unit axis added, the square a roll of main_v4: the slab at (i, j, 0). -/
theorem slab_of {s : (⟨3, ![64, 64, 1]⟩ : Shape).Idx → EReal} {y : (⟨2, ![64, 64]⟩ : Shape).Idx → EReal}
    {hb : (⟨2, ![64, 64]⟩ : Shape).BroadcastsInDim ⟨3, ![64, 64, 1]⟩ (![0, 1] : Fin 2 → Fin 3)}
    (es : s = broadcastInDim ⟨3, ![64, 64, 1]⟩ (![0, 1] : Fin 2 → Fin 3) hb y) (i j : Fin 64) (cc : Fin 31)
    (hy : y (ix2 i j) = A m c main_v4 (ix2 (rollRow i cc) j)) :
    s (ix3 i j (0 : Fin 1)) = A m c main_v4 (ix2 (rollRow i cc) j) := by
  subst es
  exact (bcastLast_at y hb i j).trans hy

theorem chan_0 (i j : Fin 64) :
    A m c main_v69 (ix3 i j ⟨0, by norm_num⟩) = A m c main_v4 (ix2 (rollRow i ⟨0, by norm_num⟩) j) := by
  have es : A m c main_v36 = broadcastInDim S64x64x1 ![0, 1] bcast_S64x64_S64x64x1_0_1 (A m c main_v5) := by
    have h := unaryL (fun b => m (c, b)) 98 (by norm_num) (x := main_v5) (y := main_v36)
      (f := fun u => broadcastInDim S64x64x1 ![0, 1] bcast_S64x64_S64x64x1_0_1 u) (hop := rfl)
    exact h
  refine (read_lo m c i j ⟨0, by norm_num⟩ ⟨0, by norm_num⟩ rfl).trans ?_
  refine ((congrFun (v67_eq m c) _).trans
    (unitSlabs_all_at _ _ i j ⟨0, by norm_num⟩ (A m c main_v36) rfl (by simp))).trans ?_
  exact slab_of m c es i j ⟨0, by norm_num⟩ (roll_0 m c i j)

theorem chan_1 (i j : Fin 64) :
    A m c main_v69 (ix3 i j ⟨1, by norm_num⟩) = A m c main_v4 (ix2 (rollRow i ⟨1, by norm_num⟩) j) := by
  have es : A m c main_v37 = broadcastInDim S64x64x1 ![0, 1] bcast_S64x64_S64x64x1_0_1 (A m c main_v6) := by
    have h := unaryL (fun b => m (c, b)) 99 (by norm_num) (x := main_v6) (y := main_v37)
      (f := fun u => broadcastInDim S64x64x1 ![0, 1] bcast_S64x64_S64x64x1_0_1 u) (hop := rfl)
    exact h
  refine (read_lo m c i j ⟨1, by norm_num⟩ ⟨1, by norm_num⟩ rfl).trans ?_
  refine ((congrFun (v67_eq m c) _).trans
    (unitSlabs_all_at _ _ i j ⟨1, by norm_num⟩ (A m c main_v37) rfl (by simp))).trans ?_
  exact slab_of m c es i j ⟨1, by norm_num⟩ (roll_1 m c i j)

theorem chan_2 (i j : Fin 64) :
    A m c main_v69 (ix3 i j ⟨2, by norm_num⟩) = A m c main_v4 (ix2 (rollRow i ⟨2, by norm_num⟩) j) := by
  have es : A m c main_v38 = broadcastInDim S64x64x1 ![0, 1] bcast_S64x64_S64x64x1_0_1 (A m c main_v7) := by
    have h := unaryL (fun b => m (c, b)) 100 (by norm_num) (x := main_v7) (y := main_v38)
      (f := fun u => broadcastInDim S64x64x1 ![0, 1] bcast_S64x64_S64x64x1_0_1 u) (hop := rfl)
    exact h
  refine (read_lo m c i j ⟨2, by norm_num⟩ ⟨2, by norm_num⟩ rfl).trans ?_
  refine ((congrFun (v67_eq m c) _).trans
    (unitSlabs_all_at _ _ i j ⟨2, by norm_num⟩ (A m c main_v38) rfl (by simp))).trans ?_
  exact slab_of m c es i j ⟨2, by norm_num⟩ (roll_2 m c i j)

theorem chan_3 (i j : Fin 64) :
    A m c main_v69 (ix3 i j ⟨3, by norm_num⟩) = A m c main_v4 (ix2 (rollRow i ⟨3, by norm_num⟩) j) := by
  have es : A m c main_v39 = broadcastInDim S64x64x1 ![0, 1] bcast_S64x64_S64x64x1_0_1 (A m c main_v8) := by
    have h := unaryL (fun b => m (c, b)) 101 (by norm_num) (x := main_v8) (y := main_v39)
      (f := fun u => broadcastInDim S64x64x1 ![0, 1] bcast_S64x64_S64x64x1_0_1 u) (hop := rfl)
    exact h
  refine (read_lo m c i j ⟨3, by norm_num⟩ ⟨3, by norm_num⟩ rfl).trans ?_
  refine ((congrFun (v67_eq m c) _).trans
    (unitSlabs_all_at _ _ i j ⟨3, by norm_num⟩ (A m c main_v39) rfl (by simp))).trans ?_
  exact slab_of m c es i j ⟨3, by norm_num⟩ (roll_3 m c i j)

theorem chan_4 (i j : Fin 64) :
    A m c main_v69 (ix3 i j ⟨4, by norm_num⟩) = A m c main_v4 (ix2 (rollRow i ⟨4, by norm_num⟩) j) := by
  have es : A m c main_v40 = broadcastInDim S64x64x1 ![0, 1] bcast_S64x64_S64x64x1_0_1 (A m c main_v9) := by
    have h := unaryL (fun b => m (c, b)) 102 (by norm_num) (x := main_v9) (y := main_v40)
      (f := fun u => broadcastInDim S64x64x1 ![0, 1] bcast_S64x64_S64x64x1_0_1 u) (hop := rfl)
    exact h
  refine (read_lo m c i j ⟨4, by norm_num⟩ ⟨4, by norm_num⟩ rfl).trans ?_
  refine ((congrFun (v67_eq m c) _).trans
    (unitSlabs_all_at _ _ i j ⟨4, by norm_num⟩ (A m c main_v40) rfl (by simp))).trans ?_
  exact slab_of m c es i j ⟨4, by norm_num⟩ (roll_4 m c i j)

theorem chan_5 (i j : Fin 64) :
    A m c main_v69 (ix3 i j ⟨5, by norm_num⟩) = A m c main_v4 (ix2 (rollRow i ⟨5, by norm_num⟩) j) := by
  have es : A m c main_v41 = broadcastInDim S64x64x1 ![0, 1] bcast_S64x64_S64x64x1_0_1 (A m c main_v10) := by
    have h := unaryL (fun b => m (c, b)) 103 (by norm_num) (x := main_v10) (y := main_v41)
      (f := fun u => broadcastInDim S64x64x1 ![0, 1] bcast_S64x64_S64x64x1_0_1 u) (hop := rfl)
    exact h
  refine (read_lo m c i j ⟨5, by norm_num⟩ ⟨5, by norm_num⟩ rfl).trans ?_
  refine ((congrFun (v67_eq m c) _).trans
    (unitSlabs_all_at _ _ i j ⟨5, by norm_num⟩ (A m c main_v41) rfl (by simp))).trans ?_
  exact slab_of m c es i j ⟨5, by norm_num⟩ (roll_5 m c i j)

theorem chan_6 (i j : Fin 64) :
    A m c main_v69 (ix3 i j ⟨6, by norm_num⟩) = A m c main_v4 (ix2 (rollRow i ⟨6, by norm_num⟩) j) := by
  have es : A m c main_v42 = broadcastInDim S64x64x1 ![0, 1] bcast_S64x64_S64x64x1_0_1 (A m c main_v11) := by
    have h := unaryL (fun b => m (c, b)) 104 (by norm_num) (x := main_v11) (y := main_v42)
      (f := fun u => broadcastInDim S64x64x1 ![0, 1] bcast_S64x64_S64x64x1_0_1 u) (hop := rfl)
    exact h
  refine (read_lo m c i j ⟨6, by norm_num⟩ ⟨6, by norm_num⟩ rfl).trans ?_
  refine ((congrFun (v67_eq m c) _).trans
    (unitSlabs_all_at _ _ i j ⟨6, by norm_num⟩ (A m c main_v42) rfl (by simp))).trans ?_
  exact slab_of m c es i j ⟨6, by norm_num⟩ (roll_6 m c i j)

theorem chan_7 (i j : Fin 64) :
    A m c main_v69 (ix3 i j ⟨7, by norm_num⟩) = A m c main_v4 (ix2 (rollRow i ⟨7, by norm_num⟩) j) := by
  have es : A m c main_v43 = broadcastInDim S64x64x1 ![0, 1] bcast_S64x64_S64x64x1_0_1 (A m c main_v12) := by
    have h := unaryL (fun b => m (c, b)) 105 (by norm_num) (x := main_v12) (y := main_v43)
      (f := fun u => broadcastInDim S64x64x1 ![0, 1] bcast_S64x64_S64x64x1_0_1 u) (hop := rfl)
    exact h
  refine (read_lo m c i j ⟨7, by norm_num⟩ ⟨7, by norm_num⟩ rfl).trans ?_
  refine ((congrFun (v67_eq m c) _).trans
    (unitSlabs_all_at _ _ i j ⟨7, by norm_num⟩ (A m c main_v43) rfl (by simp))).trans ?_
  exact slab_of m c es i j ⟨7, by norm_num⟩ (roll_7 m c i j)

theorem chan_8 (i j : Fin 64) :
    A m c main_v69 (ix3 i j ⟨8, by norm_num⟩) = A m c main_v4 (ix2 (rollRow i ⟨8, by norm_num⟩) j) := by
  have es : A m c main_v44 = broadcastInDim S64x64x1 ![0, 1] bcast_S64x64_S64x64x1_0_1 (A m c main_v13) := by
    have h := unaryL (fun b => m (c, b)) 106 (by norm_num) (x := main_v13) (y := main_v44)
      (f := fun u => broadcastInDim S64x64x1 ![0, 1] bcast_S64x64_S64x64x1_0_1 u) (hop := rfl)
    exact h
  refine (read_lo m c i j ⟨8, by norm_num⟩ ⟨8, by norm_num⟩ rfl).trans ?_
  refine ((congrFun (v67_eq m c) _).trans
    (unitSlabs_all_at _ _ i j ⟨8, by norm_num⟩ (A m c main_v44) rfl (by simp))).trans ?_
  exact slab_of m c es i j ⟨8, by norm_num⟩ (roll_8 m c i j)

theorem chan_9 (i j : Fin 64) :
    A m c main_v69 (ix3 i j ⟨9, by norm_num⟩) = A m c main_v4 (ix2 (rollRow i ⟨9, by norm_num⟩) j) := by
  have es : A m c main_v45 = broadcastInDim S64x64x1 ![0, 1] bcast_S64x64_S64x64x1_0_1 (A m c main_v14) := by
    have h := unaryL (fun b => m (c, b)) 107 (by norm_num) (x := main_v14) (y := main_v45)
      (f := fun u => broadcastInDim S64x64x1 ![0, 1] bcast_S64x64_S64x64x1_0_1 u) (hop := rfl)
    exact h
  refine (read_lo m c i j ⟨9, by norm_num⟩ ⟨9, by norm_num⟩ rfl).trans ?_
  refine ((congrFun (v67_eq m c) _).trans
    (unitSlabs_all_at _ _ i j ⟨9, by norm_num⟩ (A m c main_v45) rfl (by simp))).trans ?_
  exact slab_of m c es i j ⟨9, by norm_num⟩ (roll_9 m c i j)

theorem chan_10 (i j : Fin 64) :
    A m c main_v69 (ix3 i j ⟨10, by norm_num⟩) = A m c main_v4 (ix2 (rollRow i ⟨10, by norm_num⟩) j) := by
  have es : A m c main_v46 = broadcastInDim S64x64x1 ![0, 1] bcast_S64x64_S64x64x1_0_1 (A m c main_v15) := by
    have h := unaryL (fun b => m (c, b)) 108 (by norm_num) (x := main_v15) (y := main_v46)
      (f := fun u => broadcastInDim S64x64x1 ![0, 1] bcast_S64x64_S64x64x1_0_1 u) (hop := rfl)
    exact h
  refine (read_lo m c i j ⟨10, by norm_num⟩ ⟨10, by norm_num⟩ rfl).trans ?_
  refine ((congrFun (v67_eq m c) _).trans
    (unitSlabs_all_at _ _ i j ⟨10, by norm_num⟩ (A m c main_v46) rfl (by simp))).trans ?_
  exact slab_of m c es i j ⟨10, by norm_num⟩ (roll_10 m c i j)

theorem chan_11 (i j : Fin 64) :
    A m c main_v69 (ix3 i j ⟨11, by norm_num⟩) = A m c main_v4 (ix2 (rollRow i ⟨11, by norm_num⟩) j) := by
  have es : A m c main_v47 = broadcastInDim S64x64x1 ![0, 1] bcast_S64x64_S64x64x1_0_1 (A m c main_v16) := by
    have h := unaryL (fun b => m (c, b)) 109 (by norm_num) (x := main_v16) (y := main_v47)
      (f := fun u => broadcastInDim S64x64x1 ![0, 1] bcast_S64x64_S64x64x1_0_1 u) (hop := rfl)
    exact h
  refine (read_lo m c i j ⟨11, by norm_num⟩ ⟨11, by norm_num⟩ rfl).trans ?_
  refine ((congrFun (v67_eq m c) _).trans
    (unitSlabs_all_at _ _ i j ⟨11, by norm_num⟩ (A m c main_v47) rfl (by simp))).trans ?_
  exact slab_of m c es i j ⟨11, by norm_num⟩ (roll_11 m c i j)

theorem chan_12 (i j : Fin 64) :
    A m c main_v69 (ix3 i j ⟨12, by norm_num⟩) = A m c main_v4 (ix2 (rollRow i ⟨12, by norm_num⟩) j) := by
  have es : A m c main_v48 = broadcastInDim S64x64x1 ![0, 1] bcast_S64x64_S64x64x1_0_1 (A m c main_v17) := by
    have h := unaryL (fun b => m (c, b)) 110 (by norm_num) (x := main_v17) (y := main_v48)
      (f := fun u => broadcastInDim S64x64x1 ![0, 1] bcast_S64x64_S64x64x1_0_1 u) (hop := rfl)
    exact h
  refine (read_lo m c i j ⟨12, by norm_num⟩ ⟨12, by norm_num⟩ rfl).trans ?_
  refine ((congrFun (v67_eq m c) _).trans
    (unitSlabs_all_at _ _ i j ⟨12, by norm_num⟩ (A m c main_v48) rfl (by simp))).trans ?_
  exact slab_of m c es i j ⟨12, by norm_num⟩ (roll_12 m c i j)

theorem chan_13 (i j : Fin 64) :
    A m c main_v69 (ix3 i j ⟨13, by norm_num⟩) = A m c main_v4 (ix2 (rollRow i ⟨13, by norm_num⟩) j) := by
  have es : A m c main_v49 = broadcastInDim S64x64x1 ![0, 1] bcast_S64x64_S64x64x1_0_1 (A m c main_v18) := by
    have h := unaryL (fun b => m (c, b)) 111 (by norm_num) (x := main_v18) (y := main_v49)
      (f := fun u => broadcastInDim S64x64x1 ![0, 1] bcast_S64x64_S64x64x1_0_1 u) (hop := rfl)
    exact h
  refine (read_lo m c i j ⟨13, by norm_num⟩ ⟨13, by norm_num⟩ rfl).trans ?_
  refine ((congrFun (v67_eq m c) _).trans
    (unitSlabs_all_at _ _ i j ⟨13, by norm_num⟩ (A m c main_v49) rfl (by simp))).trans ?_
  exact slab_of m c es i j ⟨13, by norm_num⟩ (roll_13 m c i j)

theorem chan_14 (i j : Fin 64) :
    A m c main_v69 (ix3 i j ⟨14, by norm_num⟩) = A m c main_v4 (ix2 (rollRow i ⟨14, by norm_num⟩) j) := by
  have es : A m c main_v50 = broadcastInDim S64x64x1 ![0, 1] bcast_S64x64_S64x64x1_0_1 (A m c main_v19) := by
    have h := unaryL (fun b => m (c, b)) 112 (by norm_num) (x := main_v19) (y := main_v50)
      (f := fun u => broadcastInDim S64x64x1 ![0, 1] bcast_S64x64_S64x64x1_0_1 u) (hop := rfl)
    exact h
  refine (read_lo m c i j ⟨14, by norm_num⟩ ⟨14, by norm_num⟩ rfl).trans ?_
  refine ((congrFun (v67_eq m c) _).trans
    (unitSlabs_all_at _ _ i j ⟨14, by norm_num⟩ (A m c main_v50) rfl (by simp))).trans ?_
  exact slab_of m c es i j ⟨14, by norm_num⟩ (roll_14 m c i j)

theorem chan_15 (i j : Fin 64) :
    A m c main_v69 (ix3 i j ⟨15, by norm_num⟩) = A m c main_v4 (ix2 (rollRow i ⟨15, by norm_num⟩) j) := by
  have es : A m c main_v51 = broadcastInDim S64x64x1 ![0, 1] bcast_S64x64_S64x64x1_0_1 (A m c main_v20) := by
    have h := unaryL (fun b => m (c, b)) 113 (by norm_num) (x := main_v20) (y := main_v51)
      (f := fun u => broadcastInDim S64x64x1 ![0, 1] bcast_S64x64_S64x64x1_0_1 u) (hop := rfl)
    exact h
  refine (read_lo m c i j ⟨15, by norm_num⟩ ⟨15, by norm_num⟩ rfl).trans ?_
  refine ((congrFun (v67_eq m c) _).trans
    (unitSlabs_all_at _ _ i j ⟨15, by norm_num⟩ (A m c main_v51) rfl (by simp))).trans ?_
  exact slab_of m c es i j ⟨15, by norm_num⟩ (roll_15 m c i j)

theorem chan_16 (i j : Fin 64) :
    A m c main_v69 (ix3 i j ⟨16, by norm_num⟩) = A m c main_v4 (ix2 (rollRow i ⟨16, by norm_num⟩) j) := by
  have es : A m c main_v52 = broadcastInDim S64x64x1 ![0, 1] bcast_S64x64_S64x64x1_0_1 (A m c main_v21) := by
    have h := unaryL (fun b => m (c, b)) 114 (by norm_num) (x := main_v21) (y := main_v52)
      (f := fun u => broadcastInDim S64x64x1 ![0, 1] bcast_S64x64_S64x64x1_0_1 u) (hop := rfl)
    exact h
  refine (read_hi m c i j ⟨16, by norm_num⟩ ⟨0, by norm_num⟩ rfl).trans ?_
  refine ((congrFun (v68_eq m c) _).trans
    (unitSlabs_all_at _ _ i j ⟨0, by norm_num⟩ (A m c main_v52) rfl (by simp))).trans ?_
  exact slab_of m c es i j ⟨16, by norm_num⟩ (roll_16 m c i j)

theorem chan_17 (i j : Fin 64) :
    A m c main_v69 (ix3 i j ⟨17, by norm_num⟩) = A m c main_v4 (ix2 (rollRow i ⟨17, by norm_num⟩) j) := by
  have es : A m c main_v53 = broadcastInDim S64x64x1 ![0, 1] bcast_S64x64_S64x64x1_0_1 (A m c main_v22) := by
    have h := unaryL (fun b => m (c, b)) 115 (by norm_num) (x := main_v22) (y := main_v53)
      (f := fun u => broadcastInDim S64x64x1 ![0, 1] bcast_S64x64_S64x64x1_0_1 u) (hop := rfl)
    exact h
  refine (read_hi m c i j ⟨17, by norm_num⟩ ⟨1, by norm_num⟩ rfl).trans ?_
  refine ((congrFun (v68_eq m c) _).trans
    (unitSlabs_all_at _ _ i j ⟨1, by norm_num⟩ (A m c main_v53) rfl (by simp))).trans ?_
  exact slab_of m c es i j ⟨17, by norm_num⟩ (roll_17 m c i j)

theorem chan_18 (i j : Fin 64) :
    A m c main_v69 (ix3 i j ⟨18, by norm_num⟩) = A m c main_v4 (ix2 (rollRow i ⟨18, by norm_num⟩) j) := by
  have es : A m c main_v54 = broadcastInDim S64x64x1 ![0, 1] bcast_S64x64_S64x64x1_0_1 (A m c main_v23) := by
    have h := unaryL (fun b => m (c, b)) 116 (by norm_num) (x := main_v23) (y := main_v54)
      (f := fun u => broadcastInDim S64x64x1 ![0, 1] bcast_S64x64_S64x64x1_0_1 u) (hop := rfl)
    exact h
  refine (read_hi m c i j ⟨18, by norm_num⟩ ⟨2, by norm_num⟩ rfl).trans ?_
  refine ((congrFun (v68_eq m c) _).trans
    (unitSlabs_all_at _ _ i j ⟨2, by norm_num⟩ (A m c main_v54) rfl (by simp))).trans ?_
  exact slab_of m c es i j ⟨18, by norm_num⟩ (roll_18 m c i j)

theorem chan_19 (i j : Fin 64) :
    A m c main_v69 (ix3 i j ⟨19, by norm_num⟩) = A m c main_v4 (ix2 (rollRow i ⟨19, by norm_num⟩) j) := by
  have es : A m c main_v55 = broadcastInDim S64x64x1 ![0, 1] bcast_S64x64_S64x64x1_0_1 (A m c main_v24) := by
    have h := unaryL (fun b => m (c, b)) 117 (by norm_num) (x := main_v24) (y := main_v55)
      (f := fun u => broadcastInDim S64x64x1 ![0, 1] bcast_S64x64_S64x64x1_0_1 u) (hop := rfl)
    exact h
  refine (read_hi m c i j ⟨19, by norm_num⟩ ⟨3, by norm_num⟩ rfl).trans ?_
  refine ((congrFun (v68_eq m c) _).trans
    (unitSlabs_all_at _ _ i j ⟨3, by norm_num⟩ (A m c main_v55) rfl (by simp))).trans ?_
  exact slab_of m c es i j ⟨19, by norm_num⟩ (roll_19 m c i j)

theorem chan_20 (i j : Fin 64) :
    A m c main_v69 (ix3 i j ⟨20, by norm_num⟩) = A m c main_v4 (ix2 (rollRow i ⟨20, by norm_num⟩) j) := by
  have es : A m c main_v56 = broadcastInDim S64x64x1 ![0, 1] bcast_S64x64_S64x64x1_0_1 (A m c main_v25) := by
    have h := unaryL (fun b => m (c, b)) 118 (by norm_num) (x := main_v25) (y := main_v56)
      (f := fun u => broadcastInDim S64x64x1 ![0, 1] bcast_S64x64_S64x64x1_0_1 u) (hop := rfl)
    exact h
  refine (read_hi m c i j ⟨20, by norm_num⟩ ⟨4, by norm_num⟩ rfl).trans ?_
  refine ((congrFun (v68_eq m c) _).trans
    (unitSlabs_all_at _ _ i j ⟨4, by norm_num⟩ (A m c main_v56) rfl (by simp))).trans ?_
  exact slab_of m c es i j ⟨20, by norm_num⟩ (roll_20 m c i j)

theorem chan_21 (i j : Fin 64) :
    A m c main_v69 (ix3 i j ⟨21, by norm_num⟩) = A m c main_v4 (ix2 (rollRow i ⟨21, by norm_num⟩) j) := by
  have es : A m c main_v57 = broadcastInDim S64x64x1 ![0, 1] bcast_S64x64_S64x64x1_0_1 (A m c main_v26) := by
    have h := unaryL (fun b => m (c, b)) 119 (by norm_num) (x := main_v26) (y := main_v57)
      (f := fun u => broadcastInDim S64x64x1 ![0, 1] bcast_S64x64_S64x64x1_0_1 u) (hop := rfl)
    exact h
  refine (read_hi m c i j ⟨21, by norm_num⟩ ⟨5, by norm_num⟩ rfl).trans ?_
  refine ((congrFun (v68_eq m c) _).trans
    (unitSlabs_all_at _ _ i j ⟨5, by norm_num⟩ (A m c main_v57) rfl (by simp))).trans ?_
  exact slab_of m c es i j ⟨21, by norm_num⟩ (roll_21 m c i j)

theorem chan_22 (i j : Fin 64) :
    A m c main_v69 (ix3 i j ⟨22, by norm_num⟩) = A m c main_v4 (ix2 (rollRow i ⟨22, by norm_num⟩) j) := by
  have es : A m c main_v58 = broadcastInDim S64x64x1 ![0, 1] bcast_S64x64_S64x64x1_0_1 (A m c main_v27) := by
    have h := unaryL (fun b => m (c, b)) 120 (by norm_num) (x := main_v27) (y := main_v58)
      (f := fun u => broadcastInDim S64x64x1 ![0, 1] bcast_S64x64_S64x64x1_0_1 u) (hop := rfl)
    exact h
  refine (read_hi m c i j ⟨22, by norm_num⟩ ⟨6, by norm_num⟩ rfl).trans ?_
  refine ((congrFun (v68_eq m c) _).trans
    (unitSlabs_all_at _ _ i j ⟨6, by norm_num⟩ (A m c main_v58) rfl (by simp))).trans ?_
  exact slab_of m c es i j ⟨22, by norm_num⟩ (roll_22 m c i j)

theorem chan_23 (i j : Fin 64) :
    A m c main_v69 (ix3 i j ⟨23, by norm_num⟩) = A m c main_v4 (ix2 (rollRow i ⟨23, by norm_num⟩) j) := by
  have es : A m c main_v59 = broadcastInDim S64x64x1 ![0, 1] bcast_S64x64_S64x64x1_0_1 (A m c main_v28) := by
    have h := unaryL (fun b => m (c, b)) 121 (by norm_num) (x := main_v28) (y := main_v59)
      (f := fun u => broadcastInDim S64x64x1 ![0, 1] bcast_S64x64_S64x64x1_0_1 u) (hop := rfl)
    exact h
  refine (read_hi m c i j ⟨23, by norm_num⟩ ⟨7, by norm_num⟩ rfl).trans ?_
  refine ((congrFun (v68_eq m c) _).trans
    (unitSlabs_all_at _ _ i j ⟨7, by norm_num⟩ (A m c main_v59) rfl (by simp))).trans ?_
  exact slab_of m c es i j ⟨23, by norm_num⟩ (roll_23 m c i j)

theorem chan_24 (i j : Fin 64) :
    A m c main_v69 (ix3 i j ⟨24, by norm_num⟩) = A m c main_v4 (ix2 (rollRow i ⟨24, by norm_num⟩) j) := by
  have es : A m c main_v60 = broadcastInDim S64x64x1 ![0, 1] bcast_S64x64_S64x64x1_0_1 (A m c main_v29) := by
    have h := unaryL (fun b => m (c, b)) 122 (by norm_num) (x := main_v29) (y := main_v60)
      (f := fun u => broadcastInDim S64x64x1 ![0, 1] bcast_S64x64_S64x64x1_0_1 u) (hop := rfl)
    exact h
  refine (read_hi m c i j ⟨24, by norm_num⟩ ⟨8, by norm_num⟩ rfl).trans ?_
  refine ((congrFun (v68_eq m c) _).trans
    (unitSlabs_all_at _ _ i j ⟨8, by norm_num⟩ (A m c main_v60) rfl (by simp))).trans ?_
  exact slab_of m c es i j ⟨24, by norm_num⟩ (roll_24 m c i j)

theorem chan_25 (i j : Fin 64) :
    A m c main_v69 (ix3 i j ⟨25, by norm_num⟩) = A m c main_v4 (ix2 (rollRow i ⟨25, by norm_num⟩) j) := by
  have es : A m c main_v61 = broadcastInDim S64x64x1 ![0, 1] bcast_S64x64_S64x64x1_0_1 (A m c main_v30) := by
    have h := unaryL (fun b => m (c, b)) 123 (by norm_num) (x := main_v30) (y := main_v61)
      (f := fun u => broadcastInDim S64x64x1 ![0, 1] bcast_S64x64_S64x64x1_0_1 u) (hop := rfl)
    exact h
  refine (read_hi m c i j ⟨25, by norm_num⟩ ⟨9, by norm_num⟩ rfl).trans ?_
  refine ((congrFun (v68_eq m c) _).trans
    (unitSlabs_all_at _ _ i j ⟨9, by norm_num⟩ (A m c main_v61) rfl (by simp))).trans ?_
  exact slab_of m c es i j ⟨25, by norm_num⟩ (roll_25 m c i j)

theorem chan_26 (i j : Fin 64) :
    A m c main_v69 (ix3 i j ⟨26, by norm_num⟩) = A m c main_v4 (ix2 (rollRow i ⟨26, by norm_num⟩) j) := by
  have es : A m c main_v62 = broadcastInDim S64x64x1 ![0, 1] bcast_S64x64_S64x64x1_0_1 (A m c main_v31) := by
    have h := unaryL (fun b => m (c, b)) 124 (by norm_num) (x := main_v31) (y := main_v62)
      (f := fun u => broadcastInDim S64x64x1 ![0, 1] bcast_S64x64_S64x64x1_0_1 u) (hop := rfl)
    exact h
  refine (read_hi m c i j ⟨26, by norm_num⟩ ⟨10, by norm_num⟩ rfl).trans ?_
  refine ((congrFun (v68_eq m c) _).trans
    (unitSlabs_all_at _ _ i j ⟨10, by norm_num⟩ (A m c main_v62) rfl (by simp))).trans ?_
  exact slab_of m c es i j ⟨26, by norm_num⟩ (roll_26 m c i j)

theorem chan_27 (i j : Fin 64) :
    A m c main_v69 (ix3 i j ⟨27, by norm_num⟩) = A m c main_v4 (ix2 (rollRow i ⟨27, by norm_num⟩) j) := by
  have es : A m c main_v63 = broadcastInDim S64x64x1 ![0, 1] bcast_S64x64_S64x64x1_0_1 (A m c main_v32) := by
    have h := unaryL (fun b => m (c, b)) 125 (by norm_num) (x := main_v32) (y := main_v63)
      (f := fun u => broadcastInDim S64x64x1 ![0, 1] bcast_S64x64_S64x64x1_0_1 u) (hop := rfl)
    exact h
  refine (read_hi m c i j ⟨27, by norm_num⟩ ⟨11, by norm_num⟩ rfl).trans ?_
  refine ((congrFun (v68_eq m c) _).trans
    (unitSlabs_all_at _ _ i j ⟨11, by norm_num⟩ (A m c main_v63) rfl (by simp))).trans ?_
  exact slab_of m c es i j ⟨27, by norm_num⟩ (roll_27 m c i j)

theorem chan_28 (i j : Fin 64) :
    A m c main_v69 (ix3 i j ⟨28, by norm_num⟩) = A m c main_v4 (ix2 (rollRow i ⟨28, by norm_num⟩) j) := by
  have es : A m c main_v64 = broadcastInDim S64x64x1 ![0, 1] bcast_S64x64_S64x64x1_0_1 (A m c main_v33) := by
    have h := unaryL (fun b => m (c, b)) 126 (by norm_num) (x := main_v33) (y := main_v64)
      (f := fun u => broadcastInDim S64x64x1 ![0, 1] bcast_S64x64_S64x64x1_0_1 u) (hop := rfl)
    exact h
  refine (read_hi m c i j ⟨28, by norm_num⟩ ⟨12, by norm_num⟩ rfl).trans ?_
  refine ((congrFun (v68_eq m c) _).trans
    (unitSlabs_all_at _ _ i j ⟨12, by norm_num⟩ (A m c main_v64) rfl (by simp))).trans ?_
  exact slab_of m c es i j ⟨28, by norm_num⟩ (roll_28 m c i j)

theorem chan_29 (i j : Fin 64) :
    A m c main_v69 (ix3 i j ⟨29, by norm_num⟩) = A m c main_v4 (ix2 (rollRow i ⟨29, by norm_num⟩) j) := by
  have es : A m c main_v65 = broadcastInDim S64x64x1 ![0, 1] bcast_S64x64_S64x64x1_0_1 (A m c main_v34) := by
    have h := unaryL (fun b => m (c, b)) 127 (by norm_num) (x := main_v34) (y := main_v65)
      (f := fun u => broadcastInDim S64x64x1 ![0, 1] bcast_S64x64_S64x64x1_0_1 u) (hop := rfl)
    exact h
  refine (read_hi m c i j ⟨29, by norm_num⟩ ⟨13, by norm_num⟩ rfl).trans ?_
  refine ((congrFun (v68_eq m c) _).trans
    (unitSlabs_all_at _ _ i j ⟨13, by norm_num⟩ (A m c main_v65) rfl (by simp))).trans ?_
  exact slab_of m c es i j ⟨29, by norm_num⟩ (roll_29 m c i j)

theorem chan_30 (i j : Fin 64) :
    A m c main_v69 (ix3 i j ⟨30, by norm_num⟩) = A m c main_v4 (ix2 (rollRow i ⟨30, by norm_num⟩) j) := by
  have es : A m c main_v66 = broadcastInDim S64x64x1 ![0, 1] bcast_S64x64_S64x64x1_0_1 (A m c main_v35) := by
    have h := unaryL (fun b => m (c, b)) 128 (by norm_num) (x := main_v35) (y := main_v66)
      (f := fun u => broadcastInDim S64x64x1 ![0, 1] bcast_S64x64_S64x64x1_0_1 u) (hop := rfl)
    exact h
  refine (read_hi m c i j ⟨30, by norm_num⟩ ⟨14, by norm_num⟩ rfl).trans ?_
  refine ((congrFun (v68_eq m c) _).trans
    (unitSlabs_all_at _ _ i j ⟨14, by norm_num⟩ (A m c main_v66) rfl (by simp))).trans ?_
  exact slab_of m c es i j ⟨30, by norm_num⟩ (roll_30 m c i j)

/-- Every entry of the table: channel l at (i, j) is the square at row (i − l) mod 64, column j. -/
theorem table_at (i j : Fin 64) (l : Fin 31) :
    A m c main_v69 (ix3 i j l) = A m c main_v4 (ix2 (rollRow i l) j) :=
  match l with
  | ⟨0, _⟩ => chan_0 m c i j
  | ⟨1, _⟩ => chan_1 m c i j
  | ⟨2, _⟩ => chan_2 m c i j
  | ⟨3, _⟩ => chan_3 m c i j
  | ⟨4, _⟩ => chan_4 m c i j
  | ⟨5, _⟩ => chan_5 m c i j
  | ⟨6, _⟩ => chan_6 m c i j
  | ⟨7, _⟩ => chan_7 m c i j
  | ⟨8, _⟩ => chan_8 m c i j
  | ⟨9, _⟩ => chan_9 m c i j
  | ⟨10, _⟩ => chan_10 m c i j
  | ⟨11, _⟩ => chan_11 m c i j
  | ⟨12, _⟩ => chan_12 m c i j
  | ⟨13, _⟩ => chan_13 m c i j
  | ⟨14, _⟩ => chan_14 m c i j
  | ⟨15, _⟩ => chan_15 m c i j
  | ⟨16, _⟩ => chan_16 m c i j
  | ⟨17, _⟩ => chan_17 m c i j
  | ⟨18, _⟩ => chan_18 m c i j
  | ⟨19, _⟩ => chan_19 m c i j
  | ⟨20, _⟩ => chan_20 m c i j
  | ⟨21, _⟩ => chan_21 m c i j
  | ⟨22, _⟩ => chan_22 m c i j
  | ⟨23, _⟩ => chan_23 m c i j
  | ⟨24, _⟩ => chan_24 m c i j
  | ⟨25, _⟩ => chan_25 m c i j
  | ⟨26, _⟩ => chan_26 m c i j
  | ⟨27, _⟩ => chan_27 m c i j
  | ⟨28, _⟩ => chan_28 m c i j
  | ⟨29, _⟩ => chan_29 m c i j
  | ⟨30, _⟩ => chan_30 m c i j
  | ⟨n + 31, h⟩ => absurd h (by omega)

/-- The weight table the program builds before its launch is the table of rolled squares of the mask of the weights. -/
theorem table_eq (m : (ℓ : Loc nD τ sig) → Buf (Elt Ideal) ℓ) (c : Dev nD) :
    (StableHlo.after ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32] : List (List (HloOp τ sig (Elt Ideal)))).flatten (fun b => m (c, b)) main_v69
        : (⟨3, ![64, 64, 31]⟩ : Shape).Idx → EReal)
      = Cert.RollMask.table (Cert.RollMask.mask (m ((c : Thread nD τ).loc main_arg1))
          shapeCasts_S1024_S32x32 shapeCasts_S32x32_S1x32x1x32 bcast_S1x32x1x32_S2x32x2x32_0_1_2_3 shapeCasts_S2x32x2x32_S64x64) := by
  show A m c main_v69 = _
  rw [← v4_eq m c]
  funext q
  rw [eq_ix3 q]
  exact table_at m c (q 0) (q 1) (q 2)

end Cert.KernelIdeal.TableValue

end
-- ==== Proof.RefOps.lean ====
/-
  The reference program as one straight line of operations.

  The program's entry function calls four outlined functions (two remainders, each of which calls a three-way
  choice, and two gathers along an axis). A call executes the callee's body on the caller's operands, every value
  of the body in a buffer of its own, so the whole program is one line of 114 operations, each writing one buffer
  that no other operation writes: the callee's operations are listed at the call site over that call's buffers.
  `written` lists the buffer each operation writes, in the same order.
-/
import proofs.«156092_j55533927137718_2_alg».proof.ReferenceIdeal
import proofs.«156092_j55533927137718_2_alg».proof.Proof.LibStraightLine
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The program's 114 operations in program order, each call's body written out over that call's buffers. -/
abbrev ops : List (HloOp τ sig (Elt F)) :=
  [ StableHlo.nullary main_v0 (iotaInDim S64 32 0),
    StableHlo.nullary main_v1 (iotaInDim S31 32 0),
    StableHlo.unary main_v0 main_v2 (broadcastInDim S64x1 ![0] bcast_S64_S64x1_0 : (⟨S64, .i32⟩ : BufTy).Contents (Elt F) → (⟨S64x1, .i32⟩ : BufTy).Contents (Elt F)),
    StableHlo.unary main_v1 main_v3 (broadcastInDim S1x31 ![1] bcast_S31_S1x31_1 : (⟨S31, .i32⟩ : BufTy).Contents (Elt F) → (⟨S1x31, .i32⟩ : BufTy).Contents (Elt F)),
    StableHlo.unary main_v2 main_v4 (broadcastInDim S64x31 ![0, 1] bcast_S64x1_S64x31_0_1 : (⟨S64x1, .i32⟩ : BufTy).Contents (Elt F) → (⟨S64x31, .i32⟩ : BufTy).Contents (Elt F)),
    StableHlo.unary main_v3 main_v5 (broadcastInDim S64x31 ![0, 1] bcast_S1x31_S64x31_0_1 : (⟨S1x31, .i32⟩ : BufTy).Contents (Elt F) → (⟨S64x31, .i32⟩ : BufTy).Contents (Elt F)),
    StableHlo.binary main_v4 main_v5 main_v6 (addi : (⟨S64x31, .i32⟩ : BufTy).Contents (Elt F) → (⟨S64x31, .i32⟩ : BufTy).Contents (Elt F) → (⟨S64x31, .i32⟩ : BufTy).Contents (Elt F)),
    StableHlo.nullary main_c (constantI S_ 32 64#32),
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S64x31 ![] bcast_S_S64x31),
    StableHlo.TRef.binary (.of main_v6 : StableHlo.TRef sig ⟨S64x31, .i32⟩) main_call0.v3 main_call0.v4 Host.remsi,
    StableHlo.TRef.nullary main_call0.c_1 (constantI S_ 32 0#32),
    StableHlo.TRef.unary main_call0.c_1 main_call0.v5 (broadcastInDim S64x31 ![] bcast_S_S64x31),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S64x31 ![] bcast_S_S64x31),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S64x31 ![] bcast_S_S64x31),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S64x31 ![] bcast_S_S64x31),
    StableHlo.TRef.binary main_call0.v4 main_call0.v13 main_call0.v14 addi,
    StableHlo.TRef.ternary main_call0.v12 main_call0.v14 main_call0.v4 main_call0.v15 select,
    StableHlo.unary main_v7 main_v8 (broadcastInDim S1x64x1x31 ![1, 3] bcast_S64x31_S1x64x1x31_1_3 : (⟨S64x31, .i32⟩ : BufTy).Contents (Elt F) → (⟨S1x64x1x31, .i32⟩ : BufTy).Contents (Elt F)),
    StableHlo.unary main_v8 main_v9 (broadcastInDim S256x64x64x31 ![0, 1, 2, 3] bcast_S1x64x1x31_S256x64x64x31_0_1_2_3 : (⟨S1x64x1x31, .i32⟩ : BufTy).Contents (Elt F) → (⟨S256x64x64x31, .i32⟩ : BufTy).Contents (Elt F)),
    StableHlo.TRef.nullary main_call1.c (constantI S_ 32 0#32),
    StableHlo.TRef.unary main_call1.c main_call1.v0 (broadcastInDim S256x64x64x31 ![] bcast_S_S256x64x64x31),
    StableHlo.TRef.binary (.of main_v9 : StableHlo.TRef sig ⟨S256x64x64x31, .i32⟩) main_call1.v0 main_call1.v1 (cmpi .slt),
    StableHlo.TRef.nullary main_call1.c_0 (constantI S_ 32 64#32),
    StableHlo.TRef.unary main_call1.c_0 main_call1.v2 (broadcastInDim S256x64x64x31 ![] bcast_S_S256x64x64x31),
    StableHlo.TRef.binary (.of main_v9 : StableHlo.TRef sig ⟨S256x64x64x31, .i32⟩) main_call1.v2 main_call1.v3 addi,
    StableHlo.TRef.ternary main_call1.v1 main_call1.v3 (.of main_v9 : StableHlo.TRef sig ⟨S256x64x64x31, .i32⟩) main_call1.v4 select,
    StableHlo.TRef.reshape main_call1.v4 main_call1.v5 rfl shapeCasts_S256x64x64x31_S256x64x64x31x1,
    StableHlo.TRef.nullary main_call1.c_1 (constantI S1 32 63#32),
    StableHlo.TRef.nullary main_call1.c_2 (constantI S_ 32 0#32),
    StableHlo.TRef.unary main_call1.c_2 main_call1.v6 (broadcastInDim S256x64x64x31x1 ![] bcast_S_S256x64x64x31x1),
    StableHlo.TRef.binary main_call1.v5 main_call1.v6 main_call1.v7 (cmpi .sge),
    StableHlo.TRef.unary main_call1.c_1 main_call1.v8 (broadcastInDim S1x1x1x1x1 ![4] bcast_S1_S1x1x1x1x1_4),
    StableHlo.TRef.unary main_call1.v8 main_call1.v9 (broadcastInDim S256x64x64x31x1 ![0, 1, 2, 3, 4] bcast_S1x1x1x1x1_S256x64x64x31x1_0_1_2_3_4),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S256x64x64x31x1_S256x64x64x31_d4 h_S_),
    StableHlo.TRef.binary (.of main_arg0 : StableHlo.TRef sig ⟨S256x64x64x31, .f32⟩) main_call1.v5 main_call1.v13 (fun x i => Host.gather gather_S256x64x64x31_S256x64x64x31x1_S256x64x64x31_n_1_023_023_1_4_1111 x i),
    StableHlo.TRef.nullary main_call1.cst (constant S_ .f32 0x7FC00000#32),
    StableHlo.TRef.unary main_call1.cst main_call1.v14 (broadcastInDim S256x64x64x31 ![] bcast_S_S256x64x64x31),
    StableHlo.TRef.ternary main_call1.v12 main_call1.v13 main_call1.v14 main_call1.v15 select,
    StableHlo.unary main_arg1 main_v11 (Host.sign : (⟨S1024, .f32⟩ : BufTy).Contents (Elt F) → (⟨S1024, .f32⟩ : BufTy).Contents (Elt F)),
    StableHlo.reshape main_v11 main_v12 rfl shapeCasts_S1024_S32x32,
    StableHlo.reshape main_v12 main_v13 rfl shapeCasts_S32x32_S1x32x1x32,
    StableHlo.unary main_v13 main_v14 (broadcastInDim S2x32x2x32 ![0, 1, 2, 3] bcast_S1x32x1x32_S2x32x2x32_0_1_2_3 : (⟨S1x32x1x32, .f32⟩ : BufTy).Contents (Elt F) → (⟨S2x32x2x32, .f32⟩ : BufTy).Contents (Elt F)),
    StableHlo.reshape main_v14 main_v15 rfl shapeCasts_S2x32x2x32_S64x64,
    StableHlo.unary main_v15 main_v16 (broadcastInDim S1x64x64x1 ![1, 2] bcast_S64x64_S1x64x64x1_1_2 : (⟨S64x64, .f32⟩ : BufTy).Contents (Elt F) → (⟨S1x64x64x1, .f32⟩ : BufTy).Contents (Elt F)),
    StableHlo.unary main_v16 main_v17 (broadcastInDim S256x64x64x31 ![0, 1, 2, 3] bcast_S1x64x64x1_S256x64x64x31_0_1_2_3 : (⟨S1x64x64x1, .f32⟩ : BufTy).Contents (Elt F) → (⟨S256x64x64x31, .f32⟩ : BufTy).Contents (Elt F)),
    StableHlo.binary main_v10 main_v17 main_v18 (mulf : (⟨S256x64x64x31, .f32⟩ : BufTy).Contents (Elt F) → (⟨S256x64x64x31, .f32⟩ : BufTy).Contents (Elt F) → (⟨S256x64x64x31, .f32⟩ : BufTy).Contents (Elt F)),
    StableHlo.unary main_v0 main_v19 (broadcastInDim S64x1 ![0] bcast_S64_S64x1_0 : (⟨S64, .i32⟩ : BufTy).Contents (Elt F) → (⟨S64x1, .i32⟩ : BufTy).Contents (Elt F)),
    StableHlo.unary main_v1 main_v20 (broadcastInDim S1x31 ![1] bcast_S31_S1x31_1 : (⟨S31, .i32⟩ : BufTy).Contents (Elt F) → (⟨S1x31, .i32⟩ : BufTy).Contents (Elt F)),
    StableHlo.unary main_v19 main_v21 (broadcastInDim S64x31 ![0, 1] bcast_S64x1_S64x31_0_1 : (⟨S64x1, .i32⟩ : BufTy).Contents (Elt F) → (⟨S64x31, .i32⟩ : BufTy).Contents (Elt F)),
    StableHlo.unary main_v20 main_v22 (broadcastInDim S64x31 ![0, 1] bcast_S1x31_S64x31_0_1 : (⟨S1x31, .i32⟩ : BufTy).Contents (Elt F) → (⟨S64x31, .i32⟩ : BufTy).Contents (Elt F)),
    StableHlo.binary main_v21 main_v22 main_v23 (subi : (⟨S64x31, .i32⟩ : BufTy).Contents (Elt F) → (⟨S64x31, .i32⟩ : BufTy).Contents (Elt F) → (⟨S64x31, .i32⟩ : BufTy).Contents (Elt F)),
    StableHlo.nullary main_c_0 (constantI S_ 32 64#32),
    StableHlo.TRef.unary (.of main_c_0 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S64x31 ![] bcast_S_S64x31),
    StableHlo.TRef.binary (.of main_v23 : StableHlo.TRef sig ⟨S64x31, .i32⟩) main_call2.v3 main_call2.v4 Host.remsi,
    StableHlo.TRef.nullary main_call2.c_1 (constantI S_ 32 0#32),
    StableHlo.TRef.unary main_call2.c_1 main_call2.v5 (broadcastInDim S64x31 ![] bcast_S_S64x31),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S64x31 ![] bcast_S_S64x31),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S64x31 ![] bcast_S_S64x31),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S64x31 ![] bcast_S_S64x31),
    StableHlo.TRef.binary main_call2.v4 main_call2.v13 main_call2.v14 addi,
    StableHlo.TRef.ternary main_call2.v12 main_call2.v14 main_call2.v4 main_call2.v15 select,
    StableHlo.unary main_v24 main_v25 (broadcastInDim S1x64x1x31 ![1, 3] bcast_S64x31_S1x64x1x31_1_3 : (⟨S64x31, .i32⟩ : BufTy).Contents (Elt F) → (⟨S1x64x1x31, .i32⟩ : BufTy).Contents (Elt F)),
    StableHlo.unary main_v25 main_v26 (broadcastInDim S256x64x64x31 ![0, 1, 2, 3] bcast_S1x64x1x31_S256x64x64x31_0_1_2_3 : (⟨S1x64x1x31, .i32⟩ : BufTy).Contents (Elt F) → (⟨S256x64x64x31, .i32⟩ : BufTy).Contents (Elt F)),
    StableHlo.TRef.nullary main_call3.c (constantI S_ 32 0#32),
    StableHlo.TRef.unary main_call3.c main_call3.v0 (broadcastInDim S256x64x64x31 ![] bcast_S_S256x64x64x31),
    StableHlo.TRef.binary (.of main_v26 : StableHlo.TRef sig ⟨S256x64x64x31, .i32⟩) main_call3.v0 main_call3.v1 (cmpi .slt),
    StableHlo.TRef.nullary main_call3.c_0 (constantI S_ 32 64#32),
    StableHlo.TRef.unary main_call3.c_0 main_call3.v2 (broadcastInDim S256x64x64x31 ![] bcast_S_S256x64x64x31),
    StableHlo.TRef.binary (.of main_v26 : StableHlo.TRef sig ⟨S256x64x64x31, .i32⟩) main_call3.v2 main_call3.v3 addi,
    StableHlo.TRef.ternary main_call3.v1 main_call3.v3 (.of main_v26 : StableHlo.TRef sig ⟨S256x64x64x31, .i32⟩) main_call3.v4 select,
    StableHlo.TRef.reshape main_call3.v4 main_call3.v5 rfl shapeCasts_S256x64x64x31_S256x64x64x31x1,
    StableHlo.TRef.nullary main_call3.c_1 (constantI S1 32 63#32),
    StableHlo.TRef.nullary main_call3.c_2 (constantI S_ 32 0#32),
    StableHlo.TRef.unary main_call3.c_2 main_call3.v6 (broadcastInDim S256x64x64x31x1 ![] bcast_S_S256x64x64x31x1),
    StableHlo.TRef.binary main_call3.v5 main_call3.v6 main_call3.v7 (cmpi .sge),
    StableHlo.TRef.unary main_call3.c_1 main_call3.v8 (broadcastInDim S1x1x1x1x1 ![4] bcast_S1_S1x1x1x1x1_4),
    StableHlo.TRef.unary main_call3.v8 main_call3.v9 (broadcastInDim S256x64x64x31x1 ![0, 1, 2, 3, 4] bcast_S1x1x1x1x1_S256x64x64x31x1_0_1_2_3_4),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S256x64x64x31x1_S256x64x64x31_d4 h_S_),
    StableHlo.TRef.binary (.of main_v18 : StableHlo.TRef sig ⟨S256x64x64x31, .f32⟩) main_call3.v5 main_call3.v13 (fun x i => Host.gather gather_S256x64x64x31_S256x64x64x31x1_S256x64x64x31_n_1_023_023_1_4_1111 x i),
    StableHlo.TRef.nullary main_call3.cst (constant S_ .f32 0x7FC00000#32),
    StableHlo.TRef.unary main_call3.cst main_call3.v14 (broadcastInDim S256x64x64x31 ![] bcast_S_S256x64x64x31),
    StableHlo.TRef.ternary main_call3.v12 main_call3.v13 main_call3.v14 main_call3.v15 select,
    StableHlo.nullary main_cst (constant S_ .f32 0x00000000#32),
    StableHlo.binary main_v27 main_cst main_v28 ((fun x v => Host.reduceAdd x v reducesTo_S256x64x64x31_S256x64x64_d3 h_S_) : (⟨S256x64x64x31, .f32⟩ : BufTy).Contents (Elt F) → (⟨S_, .f32⟩ : BufTy).Contents (Elt F) → (⟨S256x64x64, .f32⟩ : BufTy).Contents (Elt F)) ]

/-- The buffer each operation writes, in program order. -/
def written : List (Ref sig .tc) :=
  [ main_v0, main_v1, main_v2, main_v3, main_v4, main_v5, main_v6, main_c,
    main_call0_v0, main_call0_c, main_call0_v1, main_call0_c_0, main_call0_v2, main_call0_v3, main_call0_v4, main_call0_c_1,
    main_call0_v5, main_call0_v6, main_call0_c_2, main_call0_v7, main_call0_v8, main_call0_c_3, main_call0_v9, main_call0_v10,
    main_call0_v11, main_call0_v12, main_call0_v13, main_call0_v14, main_v7, main_v8, main_v9, main_call1_c,
    main_call1_v0, main_call1_v1, main_call1_c_0, main_call1_v2, main_call1_v3, main_call1_v4, main_call1_v5, main_call1_c_1,
    main_call1_c_2, main_call1_v6, main_call1_v7, main_call1_v8, main_call1_v9, main_call1_v10, main_call1_v11, main_call1_c_3,
    main_call1_v12, main_call1_v13, main_call1_cst, main_call1_v14, main_v10, main_v11, main_v12, main_v13,
    main_v14, main_v15, main_v16, main_v17, main_v18, main_v19, main_v20, main_v21,
    main_v22, main_v23, main_c_0, main_call2_v0, main_call2_c, main_call2_v1, main_call2_c_0, main_call2_v2,
    main_call2_v3, main_call2_v4, main_call2_c_1, main_call2_v5, main_call2_v6, main_call2_c_2, main_call2_v7, main_call2_v8,
    main_call2_c_3, main_call2_v9, main_call2_v10, main_call2_v11, main_call2_v12, main_call2_v13, main_call2_v14, main_v24,
    main_v25, main_v26, main_call3_c, main_call3_v0, main_call3_v1, main_call3_c_0, main_call3_v2, main_call3_v3,
    main_call3_v4, main_call3_v5, main_call3_c_1, main_call3_c_2, main_call3_v6, main_call3_v7, main_call3_v8, main_call3_v9,
    main_call3_v10, main_call3_v11, main_call3_c_3, main_call3_v12, main_call3_v13, main_call3_cst, main_call3_v14, main_v27,
    main_cst, main_v28 ]

theorem ops_length : (ops (F := F)).length = 114 := rfl

/-- Operation k writes the k-th buffer of the list and nothing else. -/
theorem ops_writes : Cert.LibStraightLine.WritesAre (ops (F := F)) written := rfl

end Cert.ReferenceIdeal.Hand

end
-- ==== Proof.RefRun.lean ====
/-
  The run of the reference program.

  The entry function, with each call replaced by the callee's body (that is what a call means), is the straight line
  `ops` of 114 one-result operations. A straight line of host operations on a signature that scopes no buffer
  terminates from any memory, each buffer ending at the fold of the operations' results over what the device held at
  launch; the two argument buffers are written by no operation and end as they began.
-/
import proofs.«156092_j55533927137718_2_alg».proof.Proof.RefOps

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

-- the sequencing of one hundred and fourteen operations is unfolded one binder deep per operation
set_option maxRecDepth 8192 in
set_option maxHeartbeats 4000000 in
/-- The entry function is that straight line: a call is the callee's body run on the caller's operands, and
    sequencing an operation before a continuation computes, so both sides unfold to the same chain of single
    operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨nullary_bufs_sub .., nullary_bufs_sub .., unary_bufs_sub .., unary_bufs_sub .., unary_bufs_sub .., unary_bufs_sub ..,
    binary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., unary_bufs_sub ..,
    unary_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., unary_bufs_sub ..,
    reshape_bufs_sub .., reshape_bufs_sub .., unary_bufs_sub .., reshape_bufs_sub .., unary_bufs_sub .., unary_bufs_sub ..,
    binary_bufs_sub .., unary_bufs_sub .., unary_bufs_sub .., unary_bufs_sub .., unary_bufs_sub .., binary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., unary_bufs_sub .., unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., nullary_bufs_sub .., binary_bufs_sub ..⟩

set_option maxRecDepth 8192 in
/-- On every device, for any float values, from any memory with zero counters: every weakly fair execution of the
    entry function terminates with the result buffer at the fold of the 114 operations over the launch contents,
    and the two arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v28) = after ops (fun b => m (c, b)) (main_v28 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v28,
      (h c main_arg0).trans (Cert.LibStraightLine.untouched_at ops_writes (by decide)),
      (h c main_arg1).trans (Cert.LibStraightLine.untouched_at ops_writes (by decide))⟩)
    (run_seq scopedRefs_eq scopedSems_eq defs main (fun _ => ops) main_eq (fun _ => ops_sub) m ρ)

end Cert.ReferenceIdeal.Hand

end
-- ==== Proof.RefIndex.lean ====
/-
  The two index tables of the reference program, read at an entry.

  Both tables are the remainder with the divisor's sign, by 64, of a table of sums or of
  differences of the row number i < 64 and the channel number c < 31, computed on 32-bit words: the truncated
  remainder, corrected by one divisor where it is non-zero and its sign differs from the divisor's. They
  depend on no argument, so they hold whatever the buffers held at launch. Each table is read through the
  straight line one operation at a time; what is left is a statement about words, checked at the 64 × 31 entries.
-/
import proofs.«156092_j55533927137718_2_alg».proof.Proof.RefOps
import Idealize.ShloMosaic.Lib.ValueIdx

noncomputable section

namespace Cert.ReferenceIdeal.Hand

open Cert.ReferenceIdeal Idealize.ShloMosaic Idealize.ShloMosaic.TcCoe Idealize.SL.Sem Idealize.ShloMosaic.StableHlo
open Idealize.ShloMosaic.ValueIdx Cert.LibStraightLine
open Cert.ReferenceIdeal.Facts₀ Cert.ReferenceIdeal.Facts

/-- The remainder with the divisor's sign of the word x by the word d, as the program computes it: a zero divisor
    is replaced by one, the truncated remainder r is taken, and the divisor is added back where r is non-zero and
    of the other sign. -/
def jrem (x d : BitVec 32) : BitVec 32 :=
  let d' := Scalar.select (IntOp.cmpi .eq d 0#32) 1#32 d
  let r := IntOp.remsi .host x d'
  Scalar.select
    (IntOp.andi (IntOp.cmpi .ne (IntOp.cmpi .slt r 0#32) (IntOp.cmpi .slt d' 0#32)) (IntOp.cmpi .ne r 0#32))
    (IntOp.addi r d') r

/-- Of a sum i + c by 64 it is (i + c) mod 64: the sum is below 128 and not negative. -/
theorem jrem_fwd : ∀ (i : Fin 64) (c : Fin 31),
    jrem (IntOp.addi (BitVec.ofNat 32 i.val) (BitVec.ofNat 32 c.val)) 64#32 = BitVec.ofNat 32 ((i.val + c.val) % 64) := by
  decide +kernel

/-- Of a difference i − c by 64 it is (i + 64 − c) mod 64: a negative difference is above −64 and gets 64 added. -/
theorem jrem_bwd : ∀ (i : Fin 64) (c : Fin 31),
    jrem (IntOp.subi (BitVec.ofNat 32 i.val) (BitVec.ofNat 32 c.val)) 64#32
      = BitVec.ofNat 32 ((i.val + 64 - c.val) % 64) := by
  decide +kernel

variable {F : FTy → Type} [FloatOps F] [Cert.ReferenceIdeal.Facts]

/-- The twenty-one values of one remainder call, each its operation's function of earlier ones, give at every
    entry the word function `jrem` of the dividend's entry and 64. -/
theorem rem_chain {A v3 v4 v5 v7 v13 v14 v15 : IVec S64x31 32} {v6 v8 v10 v11 v12 : IVec S64x31 1}
    {d v0 c c0 v2 c1 c2 c3 : IVec S_ 32} {v1 v9 : IVec S_ 1}
    (hd : d = constantI S_ 32 64#32)
    (h0 : v0 = id d) (hc : c = constantI S_ 32 0#32) (h1 : v1 = cmpi .eq v0 c) (hc0 : c0 = constantI S_ 32 1#32)
    (h2 : v2 = select v1 c0 v0) (h3 : v3 = broadcastInDim S64x31 ![] bcast_S_S64x31 v2)
    (h4 : v4 = Host.remsi A v3) (hc1 : c1 = constantI S_ 32 0#32)
    (h5 : v5 = broadcastInDim S64x31 ![] bcast_S_S64x31 c1) (h6 : v6 = cmpi .ne v4 v5)
    (hc2 : c2 = constantI S_ 32 0#32) (h7 : v7 = broadcastInDim S64x31 ![] bcast_S_S64x31 c2)
    (h8 : v8 = cmpi .slt v4 v7) (hc3 : c3 = constantI S_ 32 0#32) (h9 : v9 = cmpi .slt v2 c3)
    (h10 : v10 = broadcastInDim S64x31 ![] bcast_S_S64x31 v9) (h11 : v11 = cmpi .ne v8 v10)
    (h12 : v12 = andi v11 v6) (h13 : v13 = broadcastInDim S64x31 ![] bcast_S_S64x31 v2)
    (h14 : v14 = addi v4 v13) (h15 : v15 = select v12 v14 v4) (j : S64x31.Idx) :
    v15 j = jrem (A j) 64#32 := by
  subst hd h0 hc h1 hc0 h2 h3 h4 hc1 h5 h6 hc2 h7 h8 hc3 h9 h10 h11 h12 h13 h14 h15
  rfl

theorem lt_len {k : Nat} (h : k < 114) : k < (ops (F := F)).length := h

local macro "nw " k:num : term => `(not_written ops_writes $k (by decide))

variable (V : Valuation τ sig (Elt F))

/-- The table of sums at an entry: the row number plus the channel number, as words. -/
theorem sum_at (i : Fin 64) (c : Fin 31) :
    (after ops V (main_v6 : DevRef τ sig) : S64x31.Idx → BitVec 32) (ix2 i c)
      = IntOp.addi (BitVec.ofNat 32 i.val) (BitVec.ofNat 32 c.val) := by
  have e0 := nullary_at (ops := ops (F := F)) (V := V) (hy := ⟨by decide, rfl⟩) (y := main_v0) (v := iotaInDim S64 32 0) 0 (lt_len (by decide)) rfl (nw 1)
  have e1 := nullary_at (ops := ops (F := F)) (V := V) (hy := ⟨by decide, rfl⟩) (y := main_v1) (v := iotaInDim S31 32 0) 1 (lt_len (by decide)) rfl (nw 2)
  have e2 := unary_at (ops := ops (F := F)) (V := V) (hx := ⟨by decide, rfl⟩) (hy := ⟨by decide, rfl⟩) (x := main_v0) (y := main_v2) (f := broadcastInDim S64x1 ![0] bcast_S64_S64x1_0) 2 (lt_len (by decide)) rfl (nw 3) (nw 2)
  have e3 := unary_at (ops := ops (F := F)) (V := V) (hx := ⟨by decide, rfl⟩) (hy := ⟨by decide, rfl⟩) (x := main_v1) (y := main_v3) (f := broadcastInDim S1x31 ![1] bcast_S31_S1x31_1) 3 (lt_len (by decide)) rfl (nw 4) (nw 3)
  have e4 := unary_at (ops := ops (F := F)) (V := V) (hx := ⟨by decide, rfl⟩) (hy := ⟨by decide, rfl⟩) (x := main_v2) (y := main_v4) (f := broadcastInDim S64x31 ![0, 1] bcast_S64x1_S64x31_0_1) 4 (lt_len (by decide)) rfl (nw 5) (nw 4)
  have e5 := unary_at (ops := ops (F := F)) (V := V) (hx := ⟨by decide, rfl⟩) (hy := ⟨by decide, rfl⟩) (x := main_v3) (y := main_v5) (f := broadcastInDim S64x31 ![0, 1] bcast_S1x31_S64x31_0_1) 5 (lt_len (by decide)) rfl (nw 6) (nw 5)
  have e6 := binary_at (ops := ops (F := F)) (V := V) (ha := ⟨by decide, rfl⟩) (hb := ⟨by decide, rfl⟩) (hy := ⟨by decide, rfl⟩) (a := main_v4) (b := main_v5) (y := main_v6) (f := addi) 6 (lt_len (by decide)) rfl (nw 7) (nw 6) (nw 6)
  rw [e6, e4, e5, e2, e3, e0, e1]
  rfl

/-- The table of differences at an entry: the row number minus the channel number, as words. -/
theorem diff_at (i : Fin 64) (c : Fin 31) :
    (after ops V (main_v23 : DevRef τ sig) : S64x31.Idx → BitVec 32) (ix2 i c)
      = IntOp.subi (BitVec.ofNat 32 i.val) (BitVec.ofNat 32 c.val) := by
  have e0 := nullary_at (ops := ops (F := F)) (V := V) (hy := ⟨by decide, rfl⟩) (y := main_v0) (v := iotaInDim S64 32 0) 0 (lt_len (by decide)) rfl (nw 1)
  have e1 := nullary_at (ops := ops (F := F)) (V := V) (hy := ⟨by decide, rfl⟩) (y := main_v1) (v := iotaInDim S31 32 0) 1 (lt_len (by decide)) rfl (nw 2)
  have e2 := unary_at (ops := ops (F := F)) (V := V) (hx := ⟨by decide, rfl⟩) (hy := ⟨by decide, rfl⟩) (x := main_v0) (y := main_v19) (f := broadcastInDim S64x1 ![0] bcast_S64_S64x1_0) 61 (lt_len (by decide)) rfl (nw 62) (nw 61)
  have e3 := unary_at (ops := ops (F := F)) (V := V) (hx := ⟨by decide, rfl⟩) (hy := ⟨by decide, rfl⟩) (x := main_v1) (y := main_v20) (f := broadcastInDim S1x31 ![1] bcast_S31_S1x31_1) 62 (lt_len (by decide)) rfl (nw 63) (nw 62)
  have e4 := unary_at (ops := ops (F := F)) (V := V) (hx := ⟨by decide, rfl⟩) (hy := ⟨by decide, rfl⟩) (x := main_v19) (y := main_v21) (f := broadcastInDim S64x31 ![0, 1] bcast_S64x1_S64x31_0_1) 63 (lt_len (by decide)) rfl (nw 64) (nw 63)
  have e5 := unary_at (ops := ops (F := F)) (V := V) (hx := ⟨by decide, rfl⟩) (hy := ⟨by decide, rfl⟩) (x := main_v20) (y := main_v22) (f := broadcastInDim S64x31 ![0, 1] bcast_S1x31_S64x31_0_1) 64 (lt_len (by decide)) rfl (nw 65) (nw 64)
  have e6 := binary_at (ops := ops (F := F)) (V := V) (ha := ⟨by decide, rfl⟩) (hb := ⟨by decide, rfl⟩) (hy := ⟨by decide, rfl⟩) (a := main_v21) (b := main_v22) (y := main_v23) (f := subi) 65 (lt_len (by decide)) rfl (nw 66) (nw 65) (nw 65)
  rw [e6, e4, e5, e2, e3, e0, e1]
  rfl

/-- The forward table at (i, c) is the word (i + c) mod 64. -/
theorem fwd_word (i : Fin 64) (c : Fin 31) :
    (after ops V (main_v7 : DevRef τ sig) : S64x31.Idx → BitVec 32) (ix2 i c)
      = BitVec.ofNat 32 ((i.val + c.val) % 64) := by
  refine (rem_chain (A := after ops V (main_v6 : DevRef τ sig))
    (nullary_at (ops := ops (F := F)) (V := V) (hy := ⟨by decide, rfl⟩) (y := main_c) (v := constantI S_ 32 64#32) 7 (lt_len (by decide)) rfl (nw 8))
    (unary_at (ops := ops (F := F)) (V := V) (hx := ⟨by decide, rfl⟩) (hy := ⟨by decide, rfl⟩) (x := main_c) (y := main_call0_v0) (f := id) 8 (lt_len (by decide)) rfl (nw 9) (nw 8))
    (nullary_at (ops := ops (F := F)) (V := V) (hy := ⟨by decide, rfl⟩) (y := main_call0_c) (v := constantI S_ 32 0#32) 9 (lt_len (by decide)) rfl (nw 10))
    (binary_at (ops := ops (F := F)) (V := V) (ha := ⟨by decide, rfl⟩) (hb := ⟨by decide, rfl⟩) (hy := ⟨by decide, rfl⟩) (a := main_call0_v0) (b := main_call0_c) (y := main_call0_v1) (f := cmpi .eq) 10 (lt_len (by decide)) rfl (nw 11) (nw 10) (nw 10))
    (nullary_at (ops := ops (F := F)) (V := V) (hy := ⟨by decide, rfl⟩) (y := main_call0_c_0) (v := constantI S_ 32 1#32) 11 (lt_len (by decide)) rfl (nw 12))
    (ternary_at (ops := ops (F := F)) (V := V) (hc := ⟨by decide, rfl⟩) (ha := ⟨by decide, rfl⟩) (hb := ⟨by decide, rfl⟩) (hy := ⟨by decide, rfl⟩) (c := main_call0_v1) (a := main_call0_c_0) (b := main_call0_v0) (y := main_call0_v2) (f := select) 12 (lt_len (by decide)) rfl (nw 13) (nw 12) (nw 12) (nw 12))
    (unary_at (ops := ops (F := F)) (V := V) (hx := ⟨by decide, rfl⟩) (hy := ⟨by decide, rfl⟩) (x := main_call0_v2) (y := main_call0_v3) (f := broadcastInDim S64x31 ![] bcast_S_S64x31) 13 (lt_len (by decide)) rfl (nw 14) (nw 13))
    (binary_at (ops := ops (F := F)) (V := V) (ha := ⟨by decide, rfl⟩) (hb := ⟨by decide, rfl⟩) (hy := ⟨by decide, rfl⟩) (a := main_v6) (b := main_call0_v3) (y := main_call0_v4) (f := Host.remsi) 14 (lt_len (by decide)) rfl (nw 15) (nw 14) (nw 14))
    (nullary_at (ops := ops (F := F)) (V := V) (hy := ⟨by decide, rfl⟩) (y := main_call0_c_1) (v := constantI S_ 32 0#32) 15 (lt_len (by decide)) rfl (nw 16))
    (unary_at (ops := ops (F := F)) (V := V) (hx := ⟨by decide, rfl⟩) (hy := ⟨by decide, rfl⟩) (x := main_call0_c_1) (y := main_call0_v5) (f := broadcastInDim S64x31 ![] bcast_S_S64x31) 16 (lt_len (by decide)) rfl (nw 17) (nw 16))
    (binary_at (ops := ops (F := F)) (V := V) (ha := ⟨by decide, rfl⟩) (hb := ⟨by decide, rfl⟩) (hy := ⟨by decide, rfl⟩) (a := main_call0_v4) (b := main_call0_v5) (y := main_call0_v6) (f := cmpi .ne) 17 (lt_len (by decide)) rfl (nw 18) (nw 17) (nw 17))
    (nullary_at (ops := ops (F := F)) (V := V) (hy := ⟨by decide, rfl⟩) (y := main_call0_c_2) (v := constantI S_ 32 0#32) 18 (lt_len (by decide)) rfl (nw 19))
    (unary_at (ops := ops (F := F)) (V := V) (hx := ⟨by decide, rfl⟩) (hy := ⟨by decide, rfl⟩) (x := main_call0_c_2) (y := main_call0_v7) (f := broadcastInDim S64x31 ![] bcast_S_S64x31) 19 (lt_len (by decide)) rfl (nw 20) (nw 19))
    (binary_at (ops := ops (F := F)) (V := V) (ha := ⟨by decide, rfl⟩) (hb := ⟨by decide, rfl⟩) (hy := ⟨by decide, rfl⟩) (a := main_call0_v4) (b := main_call0_v7) (y := main_call0_v8) (f := cmpi .slt) 20 (lt_len (by decide)) rfl (nw 21) (nw 20) (nw 20))
    (nullary_at (ops := ops (F := F)) (V := V) (hy := ⟨by decide, rfl⟩) (y := main_call0_c_3) (v := constantI S_ 32 0#32) 21 (lt_len (by decide)) rfl (nw 22))
    (binary_at (ops := ops (F := F)) (V := V) (ha := ⟨by decide, rfl⟩) (hb := ⟨by decide, rfl⟩) (hy := ⟨by decide, rfl⟩) (a := main_call0_v2) (b := main_call0_c_3) (y := main_call0_v9) (f := cmpi .slt) 22 (lt_len (by decide)) rfl (nw 23) (nw 22) (nw 22))
    (unary_at (ops := ops (F := F)) (V := V) (hx := ⟨by decide, rfl⟩) (hy := ⟨by decide, rfl⟩) (x := main_call0_v9) (y := main_call0_v10) (f := broadcastInDim S64x31 ![] bcast_S_S64x31) 23 (lt_len (by decide)) rfl (nw 24) (nw 23))
    (binary_at (ops := ops (F := F)) (V := V) (ha := ⟨by decide, rfl⟩) (hb := ⟨by decide, rfl⟩) (hy := ⟨by decide, rfl⟩) (a := main_call0_v8) (b := main_call0_v10) (y := main_call0_v11) (f := cmpi .ne) 24 (lt_len (by decide)) rfl (nw 25) (nw 24) (nw 24))
    (binary_at (ops := ops (F := F)) (V := V) (ha := ⟨by decide, rfl⟩) (hb := ⟨by decide, rfl⟩) (hy := ⟨by decide, rfl⟩) (a := main_call0_v11) (b := main_call0_v6) (y := main_call0_v12) (f := andi) 25 (lt_len (by decide)) rfl (nw 26) (nw 25) (nw 25))
    (unary_at (ops := ops (F := F)) (V := V) (hx := ⟨by decide, rfl⟩) (hy := ⟨by decide, rfl⟩) (x := main_call0_v2) (y := main_call0_v13) (f := broadcastInDim S64x31 ![] bcast_S_S64x31) 26 (lt_len (by decide)) rfl (nw 27) (nw 26))
    (binary_at (ops := ops (F := F)) (V := V) (ha := ⟨by decide, rfl⟩) (hb := ⟨by decide, rfl⟩) (hy := ⟨by decide, rfl⟩) (a := main_call0_v4) (b := main_call0_v13) (y := main_call0_v14) (f := addi) 27 (lt_len (by decide)) rfl (nw 28) (nw 27) (nw 27))
    (ternary_at (ops := ops (F := F)) (V := V) (hc := ⟨by decide, rfl⟩) (ha := ⟨by decide, rfl⟩) (hb := ⟨by decide, rfl⟩) (hy := ⟨by decide, rfl⟩) (c := main_call0_v12) (a := main_call0_v14) (b := main_call0_v4) (y := main_v7) (f := select) 28 (lt_len (by decide)) rfl (nw 29) (nw 28) (nw 28) (nw 28))
    (ix2 i c)).trans ?_
  rw [sum_at V i c]
  exact jrem_fwd i c

/-- The backward table at (i, c) is the word (i − c) mod 64, written (i + 64 − c) mod 64. -/
theorem bwd_word (i : Fin 64) (c : Fin 31) :
    (after ops V (main_v24 : DevRef τ sig) : S64x31.Idx → BitVec 32) (ix2 i c)
      = BitVec.ofNat 32 ((i.val + 64 - c.val) % 64) := by
  refine (rem_chain (A := after ops V (main_v23 : DevRef τ sig))
    (nullary_at (ops := ops (F := F)) (V := V) (hy := ⟨by decide, rfl⟩) (y := main_c_0) (v := constantI S_ 32 64#32) 66 (lt_len (by decide)) rfl (nw 67))
    (unary_at (ops := ops (F := F)) (V := V) (hx := ⟨by decide, rfl⟩) (hy := ⟨by decide, rfl⟩) (x := main_c_0) (y := main_call2_v0) (f := id) 67 (lt_len (by decide)) rfl (nw 68) (nw 67))
    (nullary_at (ops := ops (F := F)) (V := V) (hy := ⟨by decide, rfl⟩) (y := main_call2_c) (v := constantI S_ 32 0#32) 68 (lt_len (by decide)) rfl (nw 69))
    (binary_at (ops := ops (F := F)) (V := V) (ha := ⟨by decide, rfl⟩) (hb := ⟨by decide, rfl⟩) (hy := ⟨by decide, rfl⟩) (a := main_call2_v0) (b := main_call2_c) (y := main_call2_v1) (f := cmpi .eq) 69 (lt_len (by decide)) rfl (nw 70) (nw 69) (nw 69))
    (nullary_at (ops := ops (F := F)) (V := V) (hy := ⟨by decide, rfl⟩) (y := main_call2_c_0) (v := constantI S_ 32 1#32) 70 (lt_len (by decide)) rfl (nw 71))
    (ternary_at (ops := ops (F := F)) (V := V) (hc := ⟨by decide, rfl⟩) (ha := ⟨by decide, rfl⟩) (hb := ⟨by decide, rfl⟩) (hy := ⟨by decide, rfl⟩) (c := main_call2_v1) (a := main_call2_c_0) (b := main_call2_v0) (y := main_call2_v2) (f := select) 71 (lt_len (by decide)) rfl (nw 72) (nw 71) (nw 71) (nw 71))
    (unary_at (ops := ops (F := F)) (V := V) (hx := ⟨by decide, rfl⟩) (hy := ⟨by decide, rfl⟩) (x := main_call2_v2) (y := main_call2_v3) (f := broadcastInDim S64x31 ![] bcast_S_S64x31) 72 (lt_len (by decide)) rfl (nw 73) (nw 72))
    (binary_at (ops := ops (F := F)) (V := V) (ha := ⟨by decide, rfl⟩) (hb := ⟨by decide, rfl⟩) (hy := ⟨by decide, rfl⟩) (a := main_v23) (b := main_call2_v3) (y := main_call2_v4) (f := Host.remsi) 73 (lt_len (by decide)) rfl (nw 74) (nw 73) (nw 73))
    (nullary_at (ops := ops (F := F)) (V := V) (hy := ⟨by decide, rfl⟩) (y := main_call2_c_1) (v := constantI S_ 32 0#32) 74 (lt_len (by decide)) rfl (nw 75))
    (unary_at (ops := ops (F := F)) (V := V) (hx := ⟨by decide, rfl⟩) (hy := ⟨by decide, rfl⟩) (x := main_call2_c_1) (y := main_call2_v5) (f := broadcastInDim S64x31 ![] bcast_S_S64x31) 75 (lt_len (by decide)) rfl (nw 76) (nw 75))
    (binary_at (ops := ops (F := F)) (V := V) (ha := ⟨by decide, rfl⟩) (hb := ⟨by decide, rfl⟩) (hy := ⟨by decide, rfl⟩) (a := main_call2_v4) (b := main_call2_v5) (y := main_call2_v6) (f := cmpi .ne) 76 (lt_len (by decide)) rfl (nw 77) (nw 76) (nw 76))
    (nullary_at (ops := ops (F := F)) (V := V) (hy := ⟨by decide, rfl⟩) (y := main_call2_c_2) (v := constantI S_ 32 0#32) 77 (lt_len (by decide)) rfl (nw 78))
    (unary_at (ops := ops (F := F)) (V := V) (hx := ⟨by decide, rfl⟩) (hy := ⟨by decide, rfl⟩) (x := main_call2_c_2) (y := main_call2_v7) (f := broadcastInDim S64x31 ![] bcast_S_S64x31) 78 (lt_len (by decide)) rfl (nw 79) (nw 78))
    (binary_at (ops := ops (F := F)) (V := V) (ha := ⟨by decide, rfl⟩) (hb := ⟨by decide, rfl⟩) (hy := ⟨by decide, rfl⟩) (a := main_call2_v4) (b := main_call2_v7) (y := main_call2_v8) (f := cmpi .slt) 79 (lt_len (by decide)) rfl (nw 80) (nw 79) (nw 79))
    (nullary_at (ops := ops (F := F)) (V := V) (hy := ⟨by decide, rfl⟩) (y := main_call2_c_3) (v := constantI S_ 32 0#32) 80 (lt_len (by decide)) rfl (nw 81))
    (binary_at (ops := ops (F := F)) (V := V) (ha := ⟨by decide, rfl⟩) (hb := ⟨by decide, rfl⟩) (hy := ⟨by decide, rfl⟩) (a := main_call2_v2) (b := main_call2_c_3) (y := main_call2_v9) (f := cmpi .slt) 81 (lt_len (by decide)) rfl (nw 82) (nw 81) (nw 81))
    (unary_at (ops := ops (F := F)) (V := V) (hx := ⟨by decide, rfl⟩) (hy := ⟨by decide, rfl⟩) (x := main_call2_v9) (y := main_call2_v10) (f := broadcastInDim S64x31 ![] bcast_S_S64x31) 82 (lt_len (by decide)) rfl (nw 83) (nw 82))
    (binary_at (ops := ops (F := F)) (V := V) (ha := ⟨by decide, rfl⟩) (hb := ⟨by decide, rfl⟩) (hy := ⟨by decide, rfl⟩) (a := main_call2_v8) (b := main_call2_v10) (y := main_call2_v11) (f := cmpi .ne) 83 (lt_len (by decide)) rfl (nw 84) (nw 83) (nw 83))
    (binary_at (ops := ops (F := F)) (V := V) (ha := ⟨by decide, rfl⟩) (hb := ⟨by decide, rfl⟩) (hy := ⟨by decide, rfl⟩) (a := main_call2_v11) (b := main_call2_v6) (y := main_call2_v12) (f := andi) 84 (lt_len (by decide)) rfl (nw 85) (nw 84) (nw 84))
    (unary_at (ops := ops (F := F)) (V := V) (hx := ⟨by decide, rfl⟩) (hy := ⟨by decide, rfl⟩) (x := main_call2_v2) (y := main_call2_v13) (f := broadcastInDim S64x31 ![] bcast_S_S64x31) 85 (lt_len (by decide)) rfl (nw 86) (nw 85))
    (binary_at (ops := ops (F := F)) (V := V) (ha := ⟨by decide, rfl⟩) (hb := ⟨by decide, rfl⟩) (hy := ⟨by decide, rfl⟩) (a := main_call2_v4) (b := main_call2_v13) (y := main_call2_v14) (f := addi) 86 (lt_len (by decide)) rfl (nw 87) (nw 86) (nw 86))
    (ternary_at (ops := ops (F := F)) (V := V) (hc := ⟨by decide, rfl⟩) (ha := ⟨by decide, rfl⟩) (hb := ⟨by decide, rfl⟩) (hy := ⟨by decide, rfl⟩) (c := main_call2_v12) (a := main_call2_v14) (b := main_call2_v4) (y := main_v24) (f := select) 87 (lt_len (by decide)) rfl (nw 88) (nw 87) (nw 87) (nw 87))
    (ix2 i c)).trans ?_
  rw [diff_at V i c]
  exact jrem_bwd i c

end Cert.ReferenceIdeal.Hand

end
-- ==== Proof.RefLayout.lean ====
/-
  The layout stages of the reference program, read at an entry, on the extended reals.

  The two index tables are repeated along the batch and column axes: entry (b, i, j, c) of either repeated table is
  entry (i, c) of the table. The square of signs is the chain sign, 1024 → 32 × 32 → 1 × 32 × 1 × 32 → 2 × 32 × 2 × 32
  → 64 × 64 of the weights, which is the specification's `mask`, repeated along the batch and channel axes: entry
  (b, i, j, c) is entry (i, j) of the square. The product is elementwise, and the result is the sum over the channel
  axis starting from zero.
-/
import proofs.«156092_j55533927137718_2_alg».proof.Proof.RefOps
import proofs.«156092_j55533927137718_2_alg».proof.Proof.RefIndex
import proofs.«156092_j55533927137718_2_alg».proof.Proof.Spec
import Idealize.ShloMosaic.Lib.IdealHost
import Idealize.ShloMosaic.PureOps.Ideal.Laws
import Idealize.ShloMosaic.Lib.Pipeline.Value

noncomputable section

namespace Cert.ReferenceIdeal.Val

open Cert.ReferenceIdeal Cert.ReferenceIdeal.Hand Idealize.ShloMosaic Idealize.ShloMosaic.TcCoe Idealize.SL.Sem
open Idealize.ShloMosaic.StableHlo Idealize.ShloMosaic.ValueIdx Cert.LibStraightLine
open Cert.ReferenceIdeal.Facts₀ Cert.ReferenceIdeal.Facts
open scoped BigOperators

variable [Cert.ReferenceIdeal.Facts]
variable (V : Valuation τ sig (Elt Ideal))

/-- The forward table repeated along batch and column: entry (b, i, j, c) is the word (i + c) mod 64. -/
theorem rows9 (b : Fin 256) (i j : Fin 64) (c : Fin 31) :
    (after (ops (F := Ideal)) V (Proc.devRef Proc.tc main_v9) : IVec S256x64x64x31 32) (ix4 b i j c)
      = BitVec.ofNat 32 ((i.val + c.val) % 64) := by
  have e29 := unary_at (ops := ops (F := Ideal)) (V := V) (hx := ⟨by decide, rfl⟩) (hy := ⟨by decide, rfl⟩) (x := main_v7) (y := main_v8) (f := broadcastInDim S1x64x1x31 ![1, 3] bcast_S64x31_S1x64x1x31_1_3) 29 (lt_len (by decide)) rfl (not_written ops_writes 30 (by decide)) (not_written ops_writes 29 (by decide))
  have e30 := unary_at (ops := ops (F := Ideal)) (V := V) (hx := ⟨by decide, rfl⟩) (hy := ⟨by decide, rfl⟩) (x := main_v8) (y := main_v9) (f := broadcastInDim S256x64x64x31 ![0, 1, 2, 3] bcast_S1x64x1x31_S256x64x64x31_0_1_2_3) 30 (lt_len (by decide)) rfl (not_written ops_writes 31 (by decide)) (not_written ops_writes 30 (by decide))
  rw [e30, e29]
  rw [broadcastInDim_apply _ _ _ (ix4 b i j c) (ix4 (0 : Fin 1) i (0 : Fin 1) c) (fun a => match a with | ⟨0, _⟩ => rfl | ⟨1, _⟩ => rfl | ⟨2, _⟩ => rfl | ⟨3, _⟩ => rfl)]
  rw [broadcastInDim_apply _ _ _ (ix4 (0 : Fin 1) i (0 : Fin 1) c) (ix2 i c) (fun a => match a with | ⟨0, _⟩ => rfl | ⟨1, _⟩ => rfl)]
  exact fwd_word V i c

/-- The backward table repeated along batch and column: entry (b, i, j, c) is the word (i + 64 − c) mod 64. -/
theorem rows26 (b : Fin 256) (i j : Fin 64) (c : Fin 31) :
    (after (ops (F := Ideal)) V (Proc.devRef Proc.tc main_v26) : IVec S256x64x64x31 32) (ix4 b i j c)
      = BitVec.ofNat 32 ((i.val + 64 - c.val) % 64) := by
  have e88 := unary_at (ops := ops (F := Ideal)) (V := V) (hx := ⟨by decide, rfl⟩) (hy := ⟨by decide, rfl⟩) (x := main_v24) (y := main_v25) (f := broadcastInDim S1x64x1x31 ![1, 3] bcast_S64x31_S1x64x1x31_1_3) 88 (lt_len (by decide)) rfl (not_written ops_writes 89 (by decide)) (not_written ops_writes 88 (by decide))
  have e89 := unary_at (ops := ops (F := Ideal)) (V := V) (hx := ⟨by decide, rfl⟩) (hy := ⟨by decide, rfl⟩) (x := main_v25) (y := main_v26) (f := broadcastInDim S256x64x64x31 ![0, 1, 2, 3] bcast_S1x64x1x31_S256x64x64x31_0_1_2_3) 89 (lt_len (by decide)) rfl (not_written ops_writes 90 (by decide)) (not_written ops_writes 89 (by decide))
  rw [e89, e88]
  rw [broadcastInDim_apply _ _ _ (ix4 b i j c) (ix4 (0 : Fin 1) i (0 : Fin 1) c) (fun a => match a with | ⟨0, _⟩ => rfl | ⟨1, _⟩ => rfl | ⟨2, _⟩ => rfl | ⟨3, _⟩ => rfl)]
  rw [broadcastInDim_apply _ _ _ (ix4 (0 : Fin 1) i (0 : Fin 1) c) (ix2 i c) (fun a => match a with | ⟨0, _⟩ => rfl | ⟨1, _⟩ => rfl)]
  exact bwd_word V i c

/-- The 64 × 64 square of signs the program builds is the specification's `mask` of the weights. -/
theorem square15 :
    (after (ops (F := Ideal)) V (Proc.devRef Proc.tc main_v15) : FVec Ideal S64x64 .f32)
      = Cert.RollMask.mask (after (ops (F := Ideal)) V (Proc.devRef Proc.tc main_arg1) : FVec Ideal S1024 .f32)
          shapeCasts_S1024_S32x32 shapeCasts_S32x32_S1x32x1x32 bcast_S1x32x1x32_S2x32x2x32_0_1_2_3
          shapeCasts_S2x32x2x32_S64x64 := by
  have e53 := unary_at (ops := ops (F := Ideal)) (V := V) (hx := ⟨by decide, rfl⟩) (hy := ⟨by decide, rfl⟩) (x := main_arg1) (y := main_v11) (f := Host.sign (F := Ideal) (s := S1024) (φ := .f32)) 53 (lt_len (by decide)) rfl (not_written ops_writes 54 (by decide)) (not_written ops_writes 53 (by decide))
  have e54 := reshape_at (ops := ops (F := Ideal)) (V := V) (he := rfl) (hn := shapeCasts_S1024_S32x32) (hx := ⟨by decide, rfl⟩) (hy := ⟨by decide, rfl⟩) (x := main_v11) (y := main_v12) 54 (lt_len (by decide)) rfl (not_written ops_writes 55 (by decide)) (not_written ops_writes 54 (by decide))
  have e55 := reshape_at (ops := ops (F := Ideal)) (V := V) (he := rfl) (hn := shapeCasts_S32x32_S1x32x1x32) (hx := ⟨by decide, rfl⟩) (hy := ⟨by decide, rfl⟩) (x := main_v12) (y := main_v13) 55 (lt_len (by decide)) rfl (not_written ops_writes 56 (by decide)) (not_written ops_writes 55 (by decide))
  have e56 := unary_at (ops := ops (F := Ideal)) (V := V) (hx := ⟨by decide, rfl⟩) (hy := ⟨by decide, rfl⟩) (x := main_v13) (y := main_v14) (f := broadcastInDim S2x32x2x32 ![0, 1, 2, 3] bcast_S1x32x1x32_S2x32x2x32_0_1_2_3) 56 (lt_len (by decide)) rfl (not_written ops_writes 57 (by decide)) (not_written ops_writes 56 (by decide))
  have e57 := reshape_at (ops := ops (F := Ideal)) (V := V) (he := rfl) (hn := shapeCasts_S2x32x2x32_S64x64) (hx := ⟨by decide, rfl⟩) (hy := ⟨by decide, rfl⟩) (x := main_v14) (y := main_v15) 57 (lt_len (by decide)) rfl (not_written ops_writes 58 (by decide)) (not_written ops_writes 57 (by decide))
  rw [e57, e56, e55, e54, e53]
  rfl

/-- The square repeated along batch and channel: entry (b, i, j, c) is entry (i, j) of `mask`. -/
theorem square17 (b : Fin 256) (i j : Fin 64) (c : Fin 31) :
    (after (ops (F := Ideal)) V (Proc.devRef Proc.tc main_v17) : FVec Ideal S256x64x64x31 .f32) (ix4 b i j c)
      = Cert.RollMask.mask (after (ops (F := Ideal)) V (Proc.devRef Proc.tc main_arg1) : FVec Ideal S1024 .f32)
          shapeCasts_S1024_S32x32 shapeCasts_S32x32_S1x32x1x32 bcast_S1x32x1x32_S2x32x2x32_0_1_2_3
          shapeCasts_S2x32x2x32_S64x64 (ix2 i j) := by
  have e58 := unary_at (ops := ops (F := Ideal)) (V := V) (hx := ⟨by decide, rfl⟩) (hy := ⟨by decide, rfl⟩) (x := main_v15) (y := main_v16) (f := broadcastInDim S1x64x64x1 ![1, 2] bcast_S64x64_S1x64x64x1_1_2) 58 (lt_len (by decide)) rfl (not_written ops_writes 59 (by decide)) (not_written ops_writes 58 (by decide))
  have e59 := unary_at (ops := ops (F := Ideal)) (V := V) (hx := ⟨by decide, rfl⟩) (hy := ⟨by decide, rfl⟩) (x := main_v16) (y := main_v17) (f := broadcastInDim S256x64x64x31 ![0, 1, 2, 3] bcast_S1x64x64x1_S256x64x64x31_0_1_2_3) 59 (lt_len (by decide)) rfl (not_written ops_writes 60 (by decide)) (not_written ops_writes 59 (by decide))
  rw [e59, e58]
  rw [broadcastInDim_apply _ _ _ (ix4 b i j c) (ix4 (0 : Fin 1) i j (0 : Fin 1)) (fun a => match a with | ⟨0, _⟩ => rfl | ⟨1, _⟩ => rfl | ⟨2, _⟩ => rfl | ⟨3, _⟩ => rfl)]
  rw [broadcastInDim_apply _ _ _ (ix4 (0 : Fin 1) i j (0 : Fin 1)) (ix2 i j) (fun a => match a with | ⟨0, _⟩ => rfl | ⟨1, _⟩ => rfl)]
  exact congrFun (square15 V) (ix2 i j)

/-- The product table is the elementwise product of the gathered table and the repeated square. -/
theorem prod18 :
    (after (ops (F := Ideal)) V (Proc.devRef Proc.tc main_v18) : FVec Ideal S256x64x64x31 .f32)
      = mulf (F := Ideal) (s := S256x64x64x31) (φ := .f32) (after (ops (F := Ideal)) V (Proc.devRef Proc.tc main_v10)) (after (ops (F := Ideal)) V (Proc.devRef Proc.tc main_v17)) :=
  binary_at (ops := ops (F := Ideal)) (V := V) (ha := ⟨by decide, rfl⟩) (hb := ⟨by decide, rfl⟩) (hy := ⟨by decide, rfl⟩) (a := main_v10) (b := main_v17) (y := main_v18) (f := mulf (F := Ideal) (s := S256x64x64x31) (φ := .f32)) 60 (lt_len (by decide)) rfl (not_written ops_writes 61 (by decide)) (not_written ops_writes 60 (by decide)) (not_written ops_writes 60 (by decide))

/-- The result at (b, i, j) is the sum over the 31 channels of the last gathered table at (b, i, j, c). -/
theorem sum28 (b : Fin 256) (i j : Fin 64) :
    (after (ops (F := Ideal)) V (Proc.devRef Proc.tc main_v28) : FVec Ideal S256x64x64 .f32) (ix3 b i j)
      = (∑ c : Fin 31, after (ops (F := Ideal)) V (Proc.devRef Proc.tc main_v27) (ix4 b i j c) : EReal) := by
  have e112 := nullary_at (ops := ops (F := Ideal)) (V := V) (hy := ⟨by decide, rfl⟩) (y := main_cst) (v := constant (F := Ideal) S_ .f32 0x00000000#32) 112 (lt_len (by decide)) rfl (not_written ops_writes 113 (by decide))
  have e113 := binary_at (ops := ops (F := Ideal)) (V := V) (ha := ⟨by decide, rfl⟩) (hb := ⟨by decide, rfl⟩) (hy := ⟨by decide, rfl⟩) (a := main_v27) (b := main_cst) (y := main_v28) (f := fun (x : FVec Ideal S256x64x64x31 .f32) (v : FVec Ideal S_ .f32) => Host.reduceAdd (F := Ideal) x v reducesTo_S256x64x64x31_S256x64x64_d3 h_S_) 113 (lt_len (by decide)) rfl (not_written ops_writes 114 (by decide)) (not_written ops_writes 113 (by decide)) (not_written ops_writes 113 (by decide))
  have hR : S256x64x64x31.Reduces [3] S256x64x64 := by decide
  rw [e113, e112, hostReduceAdd_apply, Ideal.hostReduceAdd_single _ hR]
  show Ideal.ofBits .f32 0x00000000#32 + _ = _
  rw [Ideal.ofBits_zero_f32, zero_add]
  refine Finset.sum_congr rfl fun k _ => congrArg _ ?_
  funext a
  match a with
  | ⟨0, _⟩ => rfl
  | ⟨1, _⟩ => rfl
  | ⟨2, _⟩ => rfl
  | ⟨3, _⟩ => rfl

end Cert.ReferenceIdeal.Val

end
-- ==== Proof.LibTakeRows.lean ====
/-
  Two read-at-an-index facts about the host operations that jnp's `take` along axis 0 of a matrix lowers to, stated over
  arbitrary extents; they mention no program.

  * `gather_rows_apply`: the gather of ROWS of a table `[N, D]` at start indices laid out `[R, C, 1]` (offset axis the
    last result axis, the table's row axis collapsed, the index vector on the trailing unit axis, slices `[1, D]`)
    read at `(r, c, e)` is the table at row `idx[r, c, 0]`, read signed and clamped into `[0, N − 1]`, column `e`.
  * `reduce_andi_eq_one_of_forall`: a reduction by `and` from the initial value `true` is `true` at a result index as
    soon as every operand entry that reduces into that index is `true` (the converse of the library's read-back of a
    `jnp.all`), and `fold_andi_one`, the fact about finite folds it rests on.
-/
import Idealize.ShloMosaic.Lib.ValueIdx
import Idealize.ShloMosaic.Lib.Affine
import Idealize.ShloMosaic.PureOps.Reduce

noncomputable section

namespace Idealize.ShloMosaic.TakeRows

open Idealize.ShloMosaic Idealize.ShloMosaic.ValueIdx

/-! ## A fold by `and` over entries that are all `true` -/

/-- A fold by `and` from `true` over a finite set on which every entry is `true` is `true`. -/
theorem fold_andi_one {ι : Type} (x : ι → BitVec 1) (S : Finset ι) (hx : ∀ i ∈ S, x i = 1#1) :
    S.fold IntOp.andi 1#1 x = 1#1 := by
  induction S using Finset.cons_induction with
  | empty => rfl
  | cons a S ha ih =>
    rw [Finset.fold_cons, hx a (Finset.mem_cons_self a S), ih fun i hi => hx i (Finset.mem_cons.mpr (Or.inr hi))]
    decide

/-- A `stablehlo.reduce` by `and` whose initial value is `true` is `true` at `j` when every operand entry that reduces
    into `j` is `true`. -/
theorem reduce_andi_eq_one_of_forall {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i : s.Idx, h.drop i = j → x i = 1#1) :
    Host.reduce IntOp.andi x init h hu j = 1#1 := by
  rw [Host.reduce_eq_fold, hinit]
  exact fold_andi_one x _ fun i hi => hx i (Finset.mem_filter.mp hi).2

/-! ## The gather of rows of a matrix, read at an index -/

section Rows
variable {α : Type}

/-- The dimension numbers of `take(T, idx, axis = 0)` for a table `[N, D]`, start indices `[R, C, 1]` and a result
    `[R, C, D]`; their conditions `wf` are decided on a program's literal shapes. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- Axis 1 of a rank-2 table is kept when axis 0 is the one collapsed. -/
theorem one_mem_kept : (1 : Fin 2) ∈ (List.finRange 2).filter (· ∉ ([0] ++ [] : List (Fin 2))) := by decide

/-- THE ROW GATHER READ AT `(r, c, e)`: the table at the row the start index `idx[r, c, 0]` names — read signed and
    clamped into `[0, N − 1]`, as StableHLO's gather clamps every start index — and at column `e`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (e : Fin D) :
    Host.gather (rowDims N D R C wf) x idx (ix3 r c e)
      = x (ix2 ⟨min (idx (ix3 r c (0 : Fin 1))).toInt.toNat (N - 1), by omega⟩ e) := by
  unfold Host.gather
  congr 1
  funext a
  refine Fin.ext ?_
  match a with
  | ⟨0, _⟩ =>
    show (rowDims N D R C wf).start (ix3 r c e) idx 0 + (rowDims N D R C wf).batchCoord (ix3 r c e) 0
        + (rowDims N D R C wf).offCoord (ix3 r c e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx (ix3 r c e) ⟨List.idxOf (0 : Fin 2) (rowDims N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims N D R C wf).start (ix3 r c e) idx 1 + (rowDims N D R C wf).batchCoord (ix3 r c e) 1
        + (rowDims N D R C wf).offCoord (ix3 r c e) 1 = e.val
    rw [GatherDims.batchCoord_eq_zero _ _ _ List.not_mem_nil]
    have hs : (rowDims N D R C wf).start (ix3 r c e) idx 1 = 0 := by
      unfold GatherDims.start
      rw [dif_neg (show (1 : Fin 2) ∉ ([0] : List (Fin 2)) by decide)]
    have hk : (1 : Fin 2) ∈ (rowDims N D R C wf).sKept := one_mem_kept
    have ho : (rowDims N D R C wf).offCoord (ix3 r c e) 1 = e.val := by
      unfold GatherDims.offCoord
      rw [dif_pos hk]
      rfl
    rw [hs, ho]
    omega

end Rows

end Idealize.ShloMosaic.TakeRows

end
-- ==== Proof.LibTakeAxis1.lean ====
/-
  x[a, idx[a, r, b, c], b, c] — a gather along axis 1 of a rank-4 array with the other three axes batched — read at an entry.

  The operand has shape [A, N, B, C], the start indices [A, R, B, C, 1] (one row number per result entry) and the result
  [A, R, B, C]. Axis 1 of the operand is collapsed and indexed; axes 0, 2, 3 are batching axes paired with axes 0, 2, 3
  of the start indices. The result at (a, r, b, c) is the operand at (a, ρ, b, c), ρ the row number at (a, r, b, c, 0)
  read signed and clamped into [0, N − 1]. General: nothing here depends on a particular program.
-/
import Idealize.ShloMosaic.Lib.ValueIdx

namespace Cert.LibTakeAxis1

open Idealize.ShloMosaic Idealize.ShloMosaic.ValueIdx

variable {α : Type}

/-- The dimension numbers of the gather. -/
abbrev dims (A N R B C : Nat)
    (wf : GatherDims.WF ⟨4, ![A, N, B, C]⟩ ⟨5, ![A, R, B, C, 1]⟩ ⟨4, ![A, R, B, C]⟩ [] [1] [0, 2, 3] [1] [0, 2, 3] 4 ![1, 1, 1, 1]) :
    GatherDims ⟨4, ![A, N, B, C]⟩ ⟨5, ![A, R, B, C, 1]⟩ ⟨4, ![A, R, B, C]⟩ where
  offsetDims := []
  collapsedSliceDims := [1]
  operandBatchingDims := [0, 2, 3]
  startIndicesBatchingDims := [0, 2, 3]
  startIndexMap := [1]
  indexVectorDim := 4
  sliceSizes := ![1, 1, 1, 1]
  wf := wf

/-- The gather read at (a, r, b, c). -/
theorem gather_axis1_apply {A N R B C w : Nat} (hN : 0 < N)
    (wf : GatherDims.WF ⟨4, ![A, N, B, C]⟩ ⟨5, ![A, R, B, C, 1]⟩ ⟨4, ![A, R, B, C]⟩ [] [1] [0, 2, 3] [1] [0, 2, 3] 4 ![1, 1, 1, 1])
    (x : (⟨4, ![A, N, B, C]⟩ : Shape).Idx → α) (idx : IVec ⟨5, ![A, R, B, C, 1]⟩ w)
    (a : Fin A) (r : Fin R) (b : Fin B) (c : Fin C) :
    Host.gather (dims A N R B C wf) x idx (ix4 a r b c)
      = x (ix4 a ⟨min (idx (ix5 a r b c (0 : Fin 1))).toInt.toNat (N - 1), by omega⟩ b c) := by
  unfold Host.gather
  refine congrArg x (funext fun d => Fin.ext ?_)
  have hmem : ∀ e : Fin 4, ¬ (e ∉ ([1] : List (Fin 4)) ∧ e ∉ ([0, 2, 3] : List (Fin 4))) := by decide
  have hk : ∀ e : Fin 4, e ∉ (dims A N R B C wf).sKept := fun e h => hmem e (((dims A N R B C wf).mem_sKept e).mp h)
  have h0 : (0 : Fin 4) ∈ ([0, 2, 3] : List (Fin 4)) := by decide
  have h2 : (2 : Fin 4) ∈ ([0, 2, 3] : List (Fin 4)) := by decide
  have h3 : (3 : Fin 4) ∈ ([0, 2, 3] : List (Fin 4)) := by decide
  have h1 : (1 : Fin 4) ∉ ([0, 2, 3] : List (Fin 4)) := by decide
  match d with
  | ⟨0, _⟩ =>
    show (dims A N R B C wf).start (ix4 a r b c) idx (0 : Fin 4) + (dims A N R B C wf).batchCoord (ix4 a r b c) (0 : Fin 4)
      + (dims A N R B C wf).offCoord (ix4 a r b c) (0 : Fin 4) = a.val
    rw [GatherDims.offCoord_eq_zero _ _ _ (hk 0), Nat.add_zero, GatherDims.start_batching _ _ _ _ h0, Nat.zero_add]
    rfl
  | ⟨1, _⟩ =>
    show (dims A N R B C wf).start (ix4 a r b c) idx (1 : Fin 4) + (dims A N R B C wf).batchCoord (ix4 a r b c) (1 : Fin 4)
      + (dims A N R B C wf).offCoord (ix4 a r b c) (1 : Fin 4) = min (idx (ix5 a r b c (0 : Fin 1))).toInt.toNat (N - 1)
    rw [GatherDims.offCoord_eq_zero _ _ _ (hk 1), Nat.add_zero, GatherDims.batchCoord_eq_zero _ _ _ h1, Nat.add_zero]
    unfold GatherDims.start
    rw [dif_pos (show (1 : Fin 4) ∈ (dims A N R B C wf).startIndexMap from List.mem_singleton.mpr rfl)]
    have hsi : (dims A N R B C wf).siIdx (ix4 a r b c) ⟨List.idxOf (1 : Fin 4) (dims A N R B C wf).startIndexMap,
        List.idxOf_lt_length_iff.2 (List.mem_singleton.mpr rfl)⟩ = ix5 a r b c (0 : Fin 1) := by
      funext e; refine Fin.ext ?_
      match e with
      | ⟨0, _⟩ => rfl
      | ⟨1, _⟩ => rfl
      | ⟨2, _⟩ => rfl
      | ⟨3, _⟩ => rfl
      | ⟨4, _⟩ => rfl
    rw [hsi]
    rfl
  | ⟨2, _⟩ =>
    show (dims A N R B C wf).start (ix4 a r b c) idx (2 : Fin 4) + (dims A N R B C wf).batchCoord (ix4 a r b c) (2 : Fin 4)
      + (dims A N R B C wf).offCoord (ix4 a r b c) (2 : Fin 4) = b.val
    rw [GatherDims.offCoord_eq_zero _ _ _ (hk 2), Nat.add_zero, GatherDims.start_batching _ _ _ _ h2, Nat.zero_add]
    rfl
  | ⟨3, _⟩ =>
    show (dims A N R B C wf).start (ix4 a r b c) idx (3 : Fin 4) + (dims A N R B C wf).batchCoord (ix4 a r b c) (3 : Fin 4)
      + (dims A N R B C wf).offCoord (ix4 a r b c) (3 : Fin 4) = c.val
    rw [GatherDims.offCoord_eq_zero _ _ _ (hk 3), Nat.add_zero, GatherDims.start_batching _ _ _ _ h3, Nat.zero_add]
    rfl

end Cert.LibTakeAxis1
-- ==== Proof.RefTake.lean ====
/-
  The reference's "take along axis 1" read at an entry.

  The function takes an array x of shape [256, 64, 64, 31] and an array ws of 32-bit row numbers of the same shape and
  returns, at (b, i, j, c), the entry x(b, r, j, c) where r is the row number ws(b, i, j, c) — after adding 64 to a
  negative number — provided 0 ≤ r ≤ 63, and a NaN otherwise. When the number at (b, i, j, c) is a natural number
  r < 64 the result is x(b, r, j, c): the number is not negative, it passes the range test, and the gather reads row r.
-/
import proofs.«156092_j55533927137718_2_alg».proof.Proof.Gen.ReferenceIdeal
import proofs.«156092_j55533927137718_2_alg».proof.Proof.LibTakeRows
import proofs.«156092_j55533927137718_2_alg».proof.Proof.LibTakeAxis1
import Idealize.ShloMosaic.Lib.ValueIdx
import Idealize.ShloMosaic.Lib.Pipeline.Value

noncomputable section

namespace Cert.ReferenceIdeal.Take

open Idealize.ShloMosaic Idealize.ShloMosaic.ValueIdx Cert.ReferenceIdeal Cert.ReferenceIdeal.Gen

/-- The row numbers as the gather reads them: 64 added to the negative ones, then a trailing unit axis. -/
def rowWords (ws : IVec S256x64x64x31 32) : IVec S256x64x64x31x1 32 :=
  shapeCast S256x64x64x31x1
    (select (cmpi .slt ws (broadcastInDim S256x64x64x31 ![] bcast_S_S256x64x64x31 (constantI S_ 32 0#32)))
      (addi ws (broadcastInDim S256x64x64x31 ![] bcast_S_S256x64x64x31 (constantI S_ 32 64#32))) ws)
    shapeCasts_S256x64x64x31_S256x64x64x31x1

/-- The range test 0 ≤ r ≤ 63, reduced by `and` over the trailing unit axis. -/
def inRange (v : IVec S256x64x64x31x1 32) : IVec S256x64x64x31 1 :=
  Host.reduce IntOp.andi
    (andi (cmpi .sge v (broadcastInDim S256x64x64x31x1 ![] bcast_S_S256x64x64x31x1 (constantI S_ 32 0#32)))
      (cmpi .sle v (broadcastInDim S256x64x64x31x1 ![0, 1, 2, 3, 4] bcast_S1x1x1x1x1_S256x64x64x31x1_0_1_2_3_4
        (broadcastInDim S1x1x1x1x1 ![4] bcast_S1_S1x1x1x1x1_4 (constantI S1 32 63#32)))))
    (constantI S_ 1 1#1) reducesTo_S256x64x64x31x1_S256x64x64x31_d4 h_S_

/-- The whole function. -/
def takeAlong (x : FVec Ideal S256x64x64x31 .f32) (ws : IVec S256x64x64x31 32) : FVec Ideal S256x64x64x31 .f32 :=
  select (inRange (rowWords ws))
    (Host.gather gather_S256x64x64x31_S256x64x64x31x1_S256x64x64x31_n_1_023_023_1_4_1111 x (rowWords ws))
    (broadcastInDim S256x64x64x31 ![] bcast_S_S256x64x64x31 (constant (F := Ideal) S_ .f32 0x7FC00000#32))

/-- A natural number below 64 as a 32-bit word is not negative, is at least 0 and at most 63, and reads back as itself. -/
theorem word_facts : ∀ r : Fin 64,
    IntOp.cmpi .slt (BitVec.ofNat 32 r.val) 0#32 = 0#1 ∧ IntOp.cmpi .sge (BitVec.ofNat 32 r.val) 0#32 = 1#1
      ∧ IntOp.cmpi .sle (BitVec.ofNat 32 r.val) 63#32 = 1#1 ∧ (BitVec.ofNat 32 r.val).toInt.toNat = r.val := by
  decide

/-- The row number the gather reads at (b, i, j, c, 0) is the number given at (b, i, j, c) when that is a natural number below 64. -/
theorem rowWords_at (ws : IVec S256x64x64x31 32) (b : Fin 256) (i j : Fin 64) (c : Fin 31) (u : Fin 1) (r : Fin 64)
    (hw : ws (ix4 b i j c) = BitVec.ofNat 32 r.val) : rowWords ws (ix5 b i j c u) = BitVec.ofNat 32 r.val := by
  unfold rowWords
  refine (shapeCast_apply _ _ (ix5 b i j c u) (ix4 b i j c) ?_).trans ?_
  · have hu : u.val = 0 := by omega
    rw [Shape.rowMajor_val_four, Shape.rowMajor_val_five]
    show ((b.val * 64 + i.val) * 64 + j.val) * 31 + c.val = (((b.val * 64 + i.val) * 64 + j.val) * 31 + c.val) * 1 + u.val
    omega
  · show Scalar.select (IntOp.cmpi .slt (ws (ix4 b i j c)) 0#32) _ (ws (ix4 b i j c)) = _
    rw [hw, (word_facts r).1]
    rfl

/-- The range test passes where the row number is a natural number below 64. -/
theorem inRange_at (v : IVec S256x64x64x31x1 32) (b : Fin 256) (i j : Fin 64) (c : Fin 31) (r : Fin 64)
    (hv : ∀ u : Fin 1, v (ix5 b i j c u) = BitVec.ofNat 32 r.val) : inRange v (ix4 b i j c) = 1#1 := by
  unfold inRange
  refine Idealize.ShloMosaic.TakeRows.reduce_andi_eq_one_of_forall _ _ _ _ _ rfl ?_
  intro q hq
  have e : q = ix5 b i j c (0 : Fin 1) := by
    funext a; refine Fin.ext ?_
    match a with
    | ⟨0, _⟩ => exact congrArg Fin.val (congrFun hq 0)
    | ⟨1, _⟩ => exact congrArg Fin.val (congrFun hq 1)
    | ⟨2, _⟩ => exact congrArg Fin.val (congrFun hq 2)
    | ⟨3, _⟩ => exact congrArg Fin.val (congrFun hq 3)
    | ⟨4, _⟩ => exact Nat.lt_one_iff.mp (q 4).isLt
  rw [e]
  show IntOp.andi (IntOp.cmpi .sge (v (ix5 b i j c (0 : Fin 1))) 0#32) (IntOp.cmpi .sle (v (ix5 b i j c (0 : Fin 1))) 63#32) = 1#1
  rw [hv 0, (word_facts r).2.1, (word_facts r).2.2.1]
  rfl

/-- The function at (b, i, j, c) is x at row r of the same batch, column and channel, when the row number there is r < 64. -/
theorem takeAlong_at (x : FVec Ideal S256x64x64x31 .f32) (ws : IVec S256x64x64x31 32) (b : Fin 256) (i j : Fin 64) (c : Fin 31)
    (r : Fin 64) (hw : ws (ix4 b i j c) = BitVec.ofNat 32 r.val) : takeAlong x ws (ix4 b i j c) = x (ix4 b r j c) := by
  have h1 := inRange_at (rowWords ws) b i j c r (fun u => rowWords_at ws b i j c u r hw)
  unfold takeAlong
  show Scalar.select (inRange (rowWords ws) (ix4 b i j c)) _ _ = _
  rw [h1]
  refine (if_pos (by decide : (1#1 : BitVec 1) = 1)).trans ?_
  refine (Cert.LibTakeAxis1.gather_axis1_apply (by norm_num) gather_S256x64x64x31_S256x64x64x31x1_S256x64x64x31_n_1_023_023_1_4_1111_wf
    x (rowWords ws) b i j c).trans ?_
  refine congrArg x ?_
  have hr : min (rowWords ws (ix5 b i j c (0 : Fin 1))).toInt.toNat (64 - 1) = r.val := by
    rw [rowWords_at ws b i j c 0 r hw, (word_facts r).2.2.2]
    have := r.isLt; omega
  funext a; refine Fin.ext ?_
  match a with
  | ⟨0, _⟩ => rfl
  | ⟨1, _⟩ => exact hr
  | ⟨2, _⟩ => rfl
  | ⟨3, _⟩ => rfl

end Cert.ReferenceIdeal.Take

end
-- ==== Proof.LibTypedRef.lean ====
/-
  A typed reference's two transports cancel.

  A module-local function's operations are stated over references that carry the type of the tensor value they hold;
  a value is moved to the buffer's own type when it is written and back when it is read. The two moves are transports
  along one equation and its inverse, so a value written and read back is itself — for every typed reference, whatever
  the signature. General: nothing here depends on a particular program; library import only.
-/
import Idealize.ShloMosaic.Lib.StableHlo

namespace Cert.TypedRef

open Idealize.ShloMosaic Idealize.ShloMosaic.StableHlo

/-- A value moved to a typed reference's buffer type and back is itself. -/
theorem ofBuf_toBuf {sig : RefSig} {T : BufTy} {Val : EltTy → Type} (x : TRef sig T) (v : T.Contents Val) :
    x.ofBuf (x.toBuf v) = v := by
  simp only [TRef.ofBuf, TRef.toBuf, cast_cast, cast_eq]

end Cert.TypedRef
-- ==== Proof.LibStraightLineTyped.lean ====
/-
  A straight line of operations read one operation at a time, for operations stated over typed references.

  An operation of an outlined function is stated over references that carry their value's type; its function is applied
  to the operand buffers' contents moved to the value types and its result moved to the result buffer's type. After the
  whole line the result buffer, read at its value type, holds the operation's function of the operand buffers read at
  their value types — the two moves of the result cancel. This keeps a large function (a reduction, a gather) closed:
  it is never compared with a transported copy of itself.
  General: nothing here depends on a particular program.
-/
import proofs.«156092_j55533927137718_2_alg».proof.Proof.LibStraightLine
import proofs.«156092_j55533927137718_2_alg».proof.Proof.LibTypedRef

namespace Cert.LibStraightLine

open Idealize.ShloMosaic Idealize.ShloMosaic.StableHlo

variable {τ : Topo} {sig : RefSig} {Val : EltTy → Type}
variable {ops : List (HloOp τ sig Val)} {V : Valuation τ sig Val}

/-- Operation k, a two-operand operation over typed references, defines its result buffer read at the value type. -/
theorem typed_binary_at (k : Nat) (hk : k < ops.length) {Ta Tb Ty : BufTy} (a : TRef sig Ta) (b : TRef sig Tb) (y : TRef sig Ty)
    (g : Ta.Contents Val → Tb.Contents Val → Ty.Contents Val)
    (hop : ops[k] = TRef.binary a b y g)
    (hy' : ∀ op ∈ ops.drop (k + 1), (Proc.devRef .tc y.ref : DevRef τ sig) ∉ op.writes)
    (ha' : ∀ op ∈ ops.drop k, (Proc.devRef .tc a.ref : DevRef τ sig) ∉ op.writes)
    (hb' : ∀ op ∈ ops.drop k, (Proc.devRef .tc b.ref : DevRef τ sig) ∉ op.writes) :
    y.ofBuf (after ops V (Proc.devRef .tc y.ref))
      = g (a.ofBuf (after ops V (Proc.devRef .tc a.ref))) (b.ofBuf (after ops V (Proc.devRef .tc b.ref))) := by
  rw [binary_at k hk hop hy' ha' hb', Cert.TypedRef.ofBuf_toBuf]

end Cert.LibStraightLine
-- ==== Proof.RefValue.lean ====
/-
  The reference's result as a function of its two arguments, entry by entry.

  Notation: I[r] is what buffer r holds after the whole line of 114 operations, run from any starting contents V; an
  operation's equation relates the buffers it reads and writes as the whole line leaves them.

  The reference first reads, for every (b, i, j, c), the entry of x in row (i + c) mod 64 (a take along axis 1 with the
  row numbers I[main_v9]), multiplies by the square of signs at (i, j), and then reads of that product, for every
  (b, i, j, c), the entry in row (i − c) mod 64 (a second take, with the row numbers I[main_v26]); the result sums
  over c. Reading the second take at (b, i, j, c) gives the product at row r = (i − c) mod 64, that is x in row
  (r + c) mod 64 = i times the square at (r, j): the two row shifts cancel on x and the square is read at the row
  moved back by c, which is the table of Cert.RollMask.
-/
import proofs.«156092_j55533927137718_2_alg».proof.Proof.RefOps
import proofs.«156092_j55533927137718_2_alg».proof.Proof.RefIndex
import proofs.«156092_j55533927137718_2_alg».proof.Proof.RefLayout
import proofs.«156092_j55533927137718_2_alg».proof.Proof.RefTake
import proofs.«156092_j55533927137718_2_alg».proof.Proof.Spec
import proofs.«156092_j55533927137718_2_alg».proof.Proof.LibStraightLineTyped
import Idealize.ShloMosaic.Lib.IdealHost
import Idealize.ShloMosaic.PureOps.Ideal.Laws

noncomputable section

namespace Cert.ReferenceIdeal.Val

open Cert.ReferenceIdeal Cert.ReferenceIdeal.Hand Cert.ReferenceIdeal.Gen Idealize.ShloMosaic Idealize.ShloMosaic.TcCoe
open Idealize.ShloMosaic.StableHlo Idealize.ShloMosaic.ValueIdx Cert.LibStraightLine

variable (V : Valuation τ sig (Elt Ideal))

/-- What buffer r holds after the whole line. -/
local notation "I[" r "]" => after (ops (F := Ideal)) V (Proc.devRef Proc.tc r)

/- Operation k's equation at the buffers it names: position k of the line is that operation, its result is written by
   no later operation and its operands by none from k on (the line is in single-assignment form). -/
local macro "nw" k:term : term => `(not_written ops_writes $k (by decide))
local macro "st0" k:num y:ident : term =>
  `(nullary_at $k (lt_len (by decide)) (y := $y) (hy := ⟨by decide, rfl⟩) rfl (nw ($k + 1)))
local macro "st1" k:num x:ident y:ident f:term : term =>
  `(unary_at $k (lt_len (by decide)) (x := $x) (y := $y) (f := $f) (hx := ⟨by decide, rfl⟩) (hy := ⟨by decide, rfl⟩) rfl
      (nw ($k + 1)) (nw $k))
local macro "st2" k:num a:ident b:ident y:ident f:term : term =>
  `(binary_at $k (lt_len (by decide)) (a := $a) (b := $b) (y := $y) (f := $f) (ha := ⟨by decide, rfl⟩) (hb := ⟨by decide, rfl⟩)
      (hy := ⟨by decide, rfl⟩) rfl (nw ($k + 1)) (nw $k) (nw $k))
local macro "st3" k:num c:ident a:ident b:ident y:ident f:term : term =>
  `(ternary_at $k (lt_len (by decide)) (c := $c) (a := $a) (b := $b) (y := $y) (f := $f) (hc := ⟨by decide, rfl⟩)
      (ha := ⟨by decide, rfl⟩) (hb := ⟨by decide, rfl⟩) (hy := ⟨by decide, rfl⟩) rfl (nw ($k + 1)) (nw $k) (nw $k) (nw $k))
local macro "stR" k:num x:ident y:ident : term =>
  `(reshape_at $k (lt_len (by decide)) (x := $x) (y := $y) (he := rfl) (hx := ⟨by decide, rfl⟩) (hy := ⟨by decide, rfl⟩) rfl
      (nw ($k + 1)) (nw $k))

/-- The first take along axis 1, one operation at a time, is the function `Take.takeAlong` of its two operands. -/
theorem take1 : I[main_v10] = Take.takeAlong I[main_arg0] I[main_v9] := by
  have e0 : I[main_call1_c] = constantI S_ 32 0#32 := st0 31 main_call1_c
  have e1 : I[main_call1_v0] = broadcastInDim S256x64x64x31 ![] bcast_S_S256x64x64x31 I[main_call1_c] :=
    st1 32 main_call1_c main_call1_v0 (broadcastInDim S256x64x64x31 ![] bcast_S_S256x64x64x31)
  have e2 : I[main_call1_v1] = cmpi .slt (I[main_v9] : IVec S256x64x64x31 32) I[main_call1_v0] := st2 33 main_v9 main_call1_v0 main_call1_v1 (cmpi .slt)
  have e3 : I[main_call1_c_0] = constantI S_ 32 64#32 := st0 34 main_call1_c_0
  have e4 : I[main_call1_v2] = broadcastInDim S256x64x64x31 ![] bcast_S_S256x64x64x31 I[main_call1_c_0] :=
    st1 35 main_call1_c_0 main_call1_v2 (broadcastInDim S256x64x64x31 ![] bcast_S_S256x64x64x31)
  have e5 : I[main_call1_v3] = addi (I[main_v9] : IVec S256x64x64x31 32) I[main_call1_v2] := st2 36 main_v9 main_call1_v2 main_call1_v3 addi
  have e6 : I[main_call1_v4] = select (I[main_call1_v1] : IVec S256x64x64x31 1) I[main_call1_v3] I[main_v9] :=
    st3 37 main_call1_v1 main_call1_v3 main_v9 main_call1_v4 select
  have e7 : I[main_call1_v5] = shapeCast S256x64x64x31x1 (I[main_call1_v4] : IVec S256x64x64x31 32) shapeCasts_S256x64x64x31_S256x64x64x31x1 :=
    stR 38 main_call1_v4 main_call1_v5
  have e8 : I[main_call1_c_1] = constantI S1 32 63#32 := st0 39 main_call1_c_1
  have e9 : I[main_call1_c_2] = constantI S_ 32 0#32 := st0 40 main_call1_c_2
  have e10 : I[main_call1_v6] = broadcastInDim S256x64x64x31x1 ![] bcast_S_S256x64x64x31x1 I[main_call1_c_2] :=
    st1 41 main_call1_c_2 main_call1_v6 (broadcastInDim S256x64x64x31x1 ![] bcast_S_S256x64x64x31x1)
  have e11 : I[main_call1_v7] = cmpi .sge (I[main_call1_v5] : IVec S256x64x64x31x1 32) I[main_call1_v6] := st2 42 main_call1_v5 main_call1_v6 main_call1_v7 (cmpi .sge)
  have e12 : I[main_call1_v8] = broadcastInDim S1x1x1x1x1 ![4] bcast_S1_S1x1x1x1x1_4 I[main_call1_c_1] :=
    st1 43 main_call1_c_1 main_call1_v8 (broadcastInDim S1x1x1x1x1 ![4] bcast_S1_S1x1x1x1x1_4)
  have e13 : I[main_call1_v9] = broadcastInDim S256x64x64x31x1 ![0, 1, 2, 3, 4] bcast_S1x1x1x1x1_S256x64x64x31x1_0_1_2_3_4 I[main_call1_v8] :=
    st1 44 main_call1_v8 main_call1_v9 (broadcastInDim S256x64x64x31x1 ![0, 1, 2, 3, 4] bcast_S1x1x1x1x1_S256x64x64x31x1_0_1_2_3_4)
  have e14 : I[main_call1_v10] = cmpi .sle (I[main_call1_v5] : IVec S256x64x64x31x1 32) I[main_call1_v9] := st2 45 main_call1_v5 main_call1_v9 main_call1_v10 (cmpi .sle)
  have e15 : I[main_call1_v11] = andi (I[main_call1_v7] : IVec S256x64x64x31x1 1) I[main_call1_v10] := st2 46 main_call1_v7 main_call1_v10 main_call1_v11 andi
  have e16 : I[main_call1_c_3] = constantI S_ 1 1#1 := st0 47 main_call1_c_3
  have e17 : I[main_call1_v12] = Host.reduce IntOp.andi (I[main_call1_v11] : IVec S256x64x64x31x1 1) I[main_call1_c_3]
      reducesTo_S256x64x64x31x1_S256x64x64x31_d4 h_S_ := by
    have h := typed_binary_at (ops := ops (F := Ideal)) (V := V) 48 (lt_len (by decide)) main_call1.v11 main_call1.c_3 main_call1.v12
      (fun x v => Host.reduce IntOp.andi x v reducesTo_S256x64x64x31x1_S256x64x64x31_d4 h_S_) rfl (nw (48 + 1)) (nw 48) (nw 48)
    simp only [StableHlo.TRef.ofBuf, cast_eq] at h
    exact h
  have e18 : I[main_call1_v13] = Host.gather gather_S256x64x64x31_S256x64x64x31x1_S256x64x64x31_n_1_023_023_1_4_1111
      (I[main_arg0] : FVec Ideal S256x64x64x31 .f32) (I[main_call1_v5] : IVec S256x64x64x31x1 32) := by
    have h := typed_binary_at (ops := ops (F := Ideal)) (V := V) 49 (lt_len (by decide))
      ((.of main_arg0) : StableHlo.TRef sig ⟨S256x64x64x31, .f32⟩) main_call1.v5 main_call1.v13
      (fun x i => Host.gather gather_S256x64x64x31_S256x64x64x31x1_S256x64x64x31_n_1_023_023_1_4_1111 x i) rfl
      (nw (49 + 1)) (nw 49) (nw 49)
    simp only [StableHlo.TRef.ofBuf, cast_eq] at h
    exact h
  have e19 : I[main_call1_cst] = constant (F := Ideal) S_ .f32 0x7FC00000#32 := st0 50 main_call1_cst
  have e20 : I[main_call1_v14] = broadcastInDim S256x64x64x31 ![] bcast_S_S256x64x64x31 I[main_call1_cst] :=
    st1 51 main_call1_cst main_call1_v14 (broadcastInDim S256x64x64x31 ![] bcast_S_S256x64x64x31)
  have e21 : I[main_v10] = select (I[main_call1_v12] : IVec S256x64x64x31 1) I[main_call1_v13] I[main_call1_v14] :=
    st3 52 main_call1_v12 main_call1_v13 main_call1_v14 main_v10 select
  rw [e21, e17, e15, e11, e14, e13, e12, e8, e10, e9, e16, e18, e20, e19, e7, e6, e2, e1, e0, e5, e4, e3]
  rfl

/-- The second take along axis 1, one operation at a time, is the function `Take.takeAlong` of its two operands. -/
theorem take3 : I[main_v27] = Take.takeAlong I[main_v18] I[main_v26] := by
  have e0 : I[main_call3_c] = constantI S_ 32 0#32 := st0 90 main_call3_c
  have e1 : I[main_call3_v0] = broadcastInDim S256x64x64x31 ![] bcast_S_S256x64x64x31 I[main_call3_c] :=
    st1 91 main_call3_c main_call3_v0 (broadcastInDim S256x64x64x31 ![] bcast_S_S256x64x64x31)
  have e2 : I[main_call3_v1] = cmpi .slt (I[main_v26] : IVec S256x64x64x31 32) I[main_call3_v0] := st2 92 main_v26 main_call3_v0 main_call3_v1 (cmpi .slt)
  have e3 : I[main_call3_c_0] = constantI S_ 32 64#32 := st0 93 main_call3_c_0
  have e4 : I[main_call3_v2] = broadcastInDim S256x64x64x31 ![] bcast_S_S256x64x64x31 I[main_call3_c_0] :=
    st1 94 main_call3_c_0 main_call3_v2 (broadcastInDim S256x64x64x31 ![] bcast_S_S256x64x64x31)
  have e5 : I[main_call3_v3] = addi (I[main_v26] : IVec S256x64x64x31 32) I[main_call3_v2] := st2 95 main_v26 main_call3_v2 main_call3_v3 addi
  have e6 : I[main_call3_v4] = select (I[main_call3_v1] : IVec S256x64x64x31 1) I[main_call3_v3] I[main_v26] :=
    st3 96 main_call3_v1 main_call3_v3 main_v26 main_call3_v4 select
  have e7 : I[main_call3_v5] = shapeCast S256x64x64x31x1 (I[main_call3_v4] : IVec S256x64x64x31 32) shapeCasts_S256x64x64x31_S256x64x64x31x1 :=
    stR 97 main_call3_v4 main_call3_v5
  have e8 : I[main_call3_c_1] = constantI S1 32 63#32 := st0 98 main_call3_c_1
  have e9 : I[main_call3_c_2] = constantI S_ 32 0#32 := st0 99 main_call3_c_2
  have e10 : I[main_call3_v6] = broadcastInDim S256x64x64x31x1 ![] bcast_S_S256x64x64x31x1 I[main_call3_c_2] :=
    st1 100 main_call3_c_2 main_call3_v6 (broadcastInDim S256x64x64x31x1 ![] bcast_S_S256x64x64x31x1)
  have e11 : I[main_call3_v7] = cmpi .sge (I[main_call3_v5] : IVec S256x64x64x31x1 32) I[main_call3_v6] := st2 101 main_call3_v5 main_call3_v6 main_call3_v7 (cmpi .sge)
  have e12 : I[main_call3_v8] = broadcastInDim S1x1x1x1x1 ![4] bcast_S1_S1x1x1x1x1_4 I[main_call3_c_1] :=
    st1 102 main_call3_c_1 main_call3_v8 (broadcastInDim S1x1x1x1x1 ![4] bcast_S1_S1x1x1x1x1_4)
  have e13 : I[main_call3_v9] = broadcastInDim S256x64x64x31x1 ![0, 1, 2, 3, 4] bcast_S1x1x1x1x1_S256x64x64x31x1_0_1_2_3_4 I[main_call3_v8] :=
    st1 103 main_call3_v8 main_call3_v9 (broadcastInDim S256x64x64x31x1 ![0, 1, 2, 3, 4] bcast_S1x1x1x1x1_S256x64x64x31x1_0_1_2_3_4)
  have e14 : I[main_call3_v10] = cmpi .sle (I[main_call3_v5] : IVec S256x64x64x31x1 32) I[main_call3_v9] := st2 104 main_call3_v5 main_call3_v9 main_call3_v10 (cmpi .sle)
  have e15 : I[main_call3_v11] = andi (I[main_call3_v7] : IVec S256x64x64x31x1 1) I[main_call3_v10] := st2 105 main_call3_v7 main_call3_v10 main_call3_v11 andi
  have e16 : I[main_call3_c_3] = constantI S_ 1 1#1 := st0 106 main_call3_c_3
  have e17 : I[main_call3_v12] = Host.reduce IntOp.andi (I[main_call3_v11] : IVec S256x64x64x31x1 1) I[main_call3_c_3]
      reducesTo_S256x64x64x31x1_S256x64x64x31_d4 h_S_ := by
    have h := typed_binary_at (ops := ops (F := Ideal)) (V := V) 107 (lt_len (by decide)) main_call3.v11 main_call3.c_3 main_call3.v12
      (fun x v => Host.reduce IntOp.andi x v reducesTo_S256x64x64x31x1_S256x64x64x31_d4 h_S_) rfl (nw (107 + 1)) (nw 107) (nw 107)
    simp only [StableHlo.TRef.ofBuf, cast_eq] at h
    exact h
  have e18 : I[main_call3_v13] = Host.gather gather_S256x64x64x31_S256x64x64x31x1_S256x64x64x31_n_1_023_023_1_4_1111
      (I[main_v18] : FVec Ideal S256x64x64x31 .f32) (I[main_call3_v5] : IVec S256x64x64x31x1 32) := by
    have h := typed_binary_at (ops := ops (F := Ideal)) (V := V) 108 (lt_len (by decide))
      ((.of main_v18) : StableHlo.TRef sig ⟨S256x64x64x31, .f32⟩) main_call3.v5 main_call3.v13
      (fun x i => Host.gather gather_S256x64x64x31_S256x64x64x31x1_S256x64x64x31_n_1_023_023_1_4_1111 x i) rfl
      (nw (108 + 1)) (nw 108) (nw 108)
    simp only [StableHlo.TRef.ofBuf, cast_eq] at h
    exact h
  have e19 : I[main_call3_cst] = constant (F := Ideal) S_ .f32 0x7FC00000#32 := st0 109 main_call3_cst
  have e20 : I[main_call3_v14] = broadcastInDim S256x64x64x31 ![] bcast_S_S256x64x64x31 I[main_call3_cst] :=
    st1 110 main_call3_cst main_call3_v14 (broadcastInDim S256x64x64x31 ![] bcast_S_S256x64x64x31)
  have e21 : I[main_v27] = select (I[main_call3_v12] : IVec S256x64x64x31 1) I[main_call3_v13] I[main_call3_v14] :=
    st3 111 main_call3_v12 main_call3_v13 main_call3_v14 main_v27 select
  rw [e21, e17, e15, e11, e14, e13, e12, e8, e10, e9, e16, e18, e20, e19, e7, e6, e2, e1, e0, e5, e4, e3]
  rfl

/-- The reference's result: at (b, i, j) the sum over the channels c of x(b, i, j, c) times the square of signs read at row
    (i − c) mod 64, column j. -/
theorem value : (I[main_v28] : FVec Ideal S256x64x64 .f32)
    = Cert.RollMask.weighted (I[main_arg0] : FVec Ideal S256x64x64x31 .f32)
        (Cert.RollMask.table (Cert.RollMask.mask (I[main_arg1] : FVec Ideal S1024 .f32) shapeCasts_S1024_S32x32
          shapeCasts_S32x32_S1x32x1x32 bcast_S1x32x1x32_S2x32x2x32_0_1_2_3 shapeCasts_S2x32x2x32_S64x64)) := by
  funext o
  obtain ⟨b, i, j, rfl⟩ : ∃ (b : Fin 256) (i j : Fin 64), o = ix3 b i j := ⟨o 0, o 1, o 2, eq_ix3 o⟩
  rw [sum28 V b i j, Cert.RollMask.weighted_apply]
  show (∑ c : Fin 31, _ : EReal) = ∑ c : Fin 31, _
  refine Finset.sum_congr rfl fun c _ => ?_
  rw [Cert.RollMask.table_apply, take3 V]
  have hback : (I[main_v26] : IVec S256x64x64x31 32) (ix4 b i j c) = BitVec.ofNat 32 (Cert.RollMask.rollRow i c).val := by
    rw [rows26 V b i j c, Cert.RollMask.rollRow_val]
  rw [Take.takeAlong_at _ _ b i j c (Cert.RollMask.rollRow i c) hback, prod18 V, mulf_apply,
    square17 V b (Cert.RollMask.rollRow i c) j c, take1 V]
  have hfwd : (I[main_v9] : IVec S256x64x64x31 32) (ix4 b (Cert.RollMask.rollRow i c) j c) = BitVec.ofNat 32 i.val := by
    rw [rows9 V b (Cert.RollMask.rollRow i c) j c, Cert.RollMask.rollRow_add]
  rw [Take.takeAlong_at _ _ b (Cert.RollMask.rollRow i c) j c i hfwd]

end Cert.ReferenceIdeal.Val

end
-- ==== Proof.lean ====
/-
  The certificate: the three programs run to the end, fault nowhere and leave their arguments unchanged, and the idealized
  kernel and the idealized reference end with equal results on the extended reals.

  Both results are one function of the arguments x (shape [256, 64, 64, 31]) and w (1024 weights): with the signs of w laid
  out as a 32×32 square repeated 2×2 into a 64×64 square, the result at (b, i, j) is the sum over the 31 channels c of
  x(b, i, j, c) times the square at row (i − c) mod 64, column j (Cert.RollMask.weighted / table / mask).
  The kernel program builds the table of rolled squares on the host, one rolled copy per channel, and its kernel multiplies
  blocks of x by the table and sums over the channel axis. The reference shifts the rows of x forward by c, multiplies by
  the square, and shifts the rows of the product back by c: on x the two shifts cancel and the square is read at the row
  moved back by c. No law beyond reading both programs index by index is needed, so the inputs' finiteness is never used.
  The ideal pass rewrote no operation of the kernel, so the idealization statement is trivial.
-/
import proofs.«156092_j55533927137718_2_alg».proof.Defs
import proofs.«156092_j55533927137718_2_alg».proof.Proof.Gen.Pre_finite_inputs
import proofs.«156092_j55533927137718_2_alg».proof.Proof.KernelFrame
import proofs.«156092_j55533927137718_2_alg».proof.Proof.KernelValue
import proofs.«156092_j55533927137718_2_alg».proof.Proof.KernelTable
import proofs.«156092_j55533927137718_2_alg».proof.Proof.RefRun
import proofs.«156092_j55533927137718_2_alg».proof.Proof.RefValue

noncomputable section

namespace Cert.Proof

open Idealize.ShloMosaic Idealize.ShloMosaic.TcCoe Idealize.SL.Sem

/-- The kernel program, read at bit patterns, runs and keeps its arguments. -/
theorem frame_kernel : Cert.frame_Kernel := fun m ρ _ => Cert.Kernel.Hand.frame m ρ

/-- The idealized kernel program runs and keeps its arguments. -/
theorem frame_kernel_ideal : Cert.frame_KernelIdeal := fun m ρ _ => Cert.KernelIdeal.Hand.frame m ρ

/-- The idealized reference runs and keeps its arguments: its run with the result dropped. -/
theorem frame_reference_ideal : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- Both idealized programs end with the weighted channel sum of x against the table of rolled squares of signs. -/
theorem algebraic : Cert.algebraic_KernelIdeal_ReferenceIdeal := by
  intro m ρ m' ρ' _ hagree
  refine ⟨fun c => Cert.RollMask.weighted (m ((c.tc : Thread Cert.KernelIdeal.nD Cert.KernelIdeal.τ).loc Cert.KernelIdeal.main_arg0))
      (Cert.RollMask.table (Cert.RollMask.mask (m ((c.tc : Thread Cert.KernelIdeal.nD Cert.KernelIdeal.τ).loc Cert.KernelIdeal.main_arg1))
        Cert.KernelIdeal.Gen.shapeCasts_S1024_S32x32 Cert.KernelIdeal.Gen.shapeCasts_S32x32_S1x32x1x32
        Cert.KernelIdeal.Gen.bcast_S1x32x1x32_S2x32x2x32_0_1_2_3 Cert.KernelIdeal.Gen.shapeCasts_S2x32x2x32_S64x64)), ?_, ?_⟩
  · refine (θ_run Cert.KernelIdeal.defs _ _).mono (fun _ h c => ⟨(h c).1.trans ?_, (h c).2⟩)
      (Cert.KernelIdeal.HandValue.run_value m ρ)
    exact congrArg (Cert.RollMask.weighted _) (Cert.KernelIdeal.TableValue.table_eq m c)
  · refine (θ_run Cert.ReferenceIdeal.defs _ _).mono (fun _ h c => ⟨(h c).1.trans ?_, (h c).2⟩)
      (Cert.ReferenceIdeal.Hand.run (F := Ideal) m' ρ')
    refine (Cert.ReferenceIdeal.Val.value (fun b => m' (c, b))).trans ?_
    show Cert.RollMask.weighted (m' ((c.tc : Thread Cert.ReferenceIdeal.nD Cert.ReferenceIdeal.τ).loc Cert.ReferenceIdeal.main_arg0))
        (Cert.RollMask.table (Cert.RollMask.mask (m' ((c.tc : Thread Cert.ReferenceIdeal.nD Cert.ReferenceIdeal.τ).loc Cert.ReferenceIdeal.main_arg1)) _ _ _ _)) = _
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
